-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v90)) (v1 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_v75) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S10x128 : Shape := ⟨2, ![10, 128]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S128 .f32) (main_arg10 : FVec F S10x128 .f32) (main_arg11 : FVec F S10 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S10x128 .f32 := Host.absf main_arg10
  let main_cst_14 : FVec F S_ .f32 := constant S_ .f32 0x7F800000#32
  let main_v40 : FVec F S10x128 .f32 := broadcastInDim S10x128 ![] bcast_S_S10x128 main_cst_14
  let main_v41 : IVec S10x128 1 := cmpf .olt main_v39 main_v40
  let main_c_15 : IVec S_ 1 := constantI S_ 1 1#1
  let main_v42 : IVec S_ 1 := (fun x v => Host.reduce IntOp.andi x v reducesTo_S10x128_S_d0_1 h_S_) main_v41 main_c_15
  let main_v43 : IVec S_ 1 := andi main_v38 main_v42
  let main_v44 : FVec F S10 .f32 := Host.absf main_arg11
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  main_v48

def fn_part1 {F : FTy → Type} [FloatOps F] (main_arg6 : FVec F S3x128x128 .f32) (main_arg7 : FVec F S3x128 .f32) (main_arg8 : FVec F S128x128 .f32) (main_arg9 : FVec F S128 .f32) (main_arg10 : FVec F S10x128 .f32) (main_arg11 : FVec F S10 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128x128 .f32 := Host.absf main_arg6
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S2x1600000 32) (main_arg2 : FVec F S1600000 .f32) (main_arg3 : IVec S100000 32) (main_arg4 : FVec F S3x128x128 .f32) (main_arg5 : FVec F S3x128 .f32) (main_arg6 : FVec F S3x128x128 .f32) (main_arg7 : FVec F S3x128 .f32) (main_arg8 : FVec F S128x128 .f32) (main_arg9 : FVec F S128 .f32) (main_arg10 : FVec F S10x128 .f32) (main_arg11 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S3x128x128 .f32 := Host.absf main_arg4
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S10x128 : Shape := ⟨2, ![10, 128]⟩
abbrev S10 : Shape := ⟨1, ![10]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S1x128 : Shape := ⟨2, ![1, 128]⟩
abbrev S4000x128 : Shape := ⟨2, ![4000, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S128x10 : Shape := ⟨2, ![128, 10]⟩
abbrev S512x10 : Shape := ⟨2, ![512, 10]⟩
abbrev S1x10 : Shape := ⟨2, ![1, 10]⟩

abbrev nBuf : Space → Nat
  | .hbm => 116
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S100000, .i32⟩
  | .hbm, ⟨4, _⟩ => ⟨S3x128x128, .f32⟩
  | .hbm, ⟨5, _⟩ => ⟨S3x128, .f32⟩
  | .hbm, ⟨6, _⟩ => ⟨S3x128x128, .f32⟩
  | .hbm, ⟨7, _⟩ => ⟨S3x128, .f32⟩
  | .hbm, ⟨8, _⟩ => ⟨S128x128, .f32⟩
  | .hbm, ⟨9, _⟩ => ⟨S128, .f32⟩
  | .hbm, ⟨10, _⟩ => ⟨S10x128, .f32⟩
  | .hbm, ⟨11, _⟩ => ⟨S10, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S1600000x1, .f32⟩
  | .hbm, ⟨26, _⟩ => ⟨S1600000x128, .f32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S1x128x128, .f32⟩
  | .hbm, ⟨33, _⟩ => ⟨S128x128, .f32⟩
  | .hbm, ⟨34, _⟩ => ⟨S128x128, .f32⟩
  | .hbm, ⟨35, _⟩ => ⟨S1x128x128, .f32⟩
  | .hbm, ⟨36, _⟩ => ⟨S128x128, .f32⟩
  | .hbm, ⟨37, _⟩ => ⟨S128x128, .f32⟩
  | .hbm, ⟨38, _⟩ => ⟨S1x128, .f32⟩
  | .hbm, ⟨39, _⟩ => ⟨S128, .f32⟩
  | .hbm, ⟨40, _⟩ => ⟨S1x128, .f32⟩
  | .hbm, ⟨41, _⟩ => ⟨S128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S1600000x1, .f32⟩
  | .hbm, ⟨53, _⟩ => ⟨S1600000x128, .f32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S1x128x128, .f32⟩
  | .hbm, ⟨60, _⟩ => ⟨S128x128, .f32⟩
  | .hbm, ⟨61, _⟩ => ⟨S128x128, .f32⟩
  | .hbm, ⟨62, _⟩ => ⟨S1x128x128, .f32⟩
  | .hbm, ⟨63, _⟩ => ⟨S128x128, .f32⟩
  | .hbm, ⟨64, _⟩ => ⟨S128x128, .f32⟩
  | .hbm, ⟨65, _⟩ => ⟨S1x128, .f32⟩
  | .hbm, ⟨66, _⟩ => ⟨S128, .f32⟩
  | .hbm, ⟨67, _⟩ => ⟨S1x128, .f32⟩
  | .hbm, ⟨68, _⟩ => ⟨S128, .f32⟩
  | .hbm, ⟨69, _⟩ => ⟨S100000x128, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x128, .f32⟩
  | .hbm, ⟨79, _⟩ => ⟨S1600000x1, .f32⟩
  | .hbm, ⟨80, _⟩ => ⟨S1600000x128, .f32⟩
  | .hbm, ⟨81, _⟩ => ⟨S1600000x128, .f32⟩
  | .hbm, ⟨82, _⟩ => ⟨S_, .f32⟩
  | .hbm, ⟨83, _⟩ => ⟨S100000x128, .f32⟩
  | .hbm, ⟨84, _⟩ => ⟨S1600000x1, .i32⟩
  | .hbm, ⟨85, _⟩ => ⟨S100000x128, .f32⟩
  | .hbm, ⟨86, _⟩ => ⟨S1x128x128, .f32⟩
  | .hbm, ⟨87, _⟩ => ⟨S128x128, .f32⟩
  | .hbm, ⟨88, _⟩ => ⟨S128x128, .f32⟩
  | .hbm, ⟨89, _⟩ => ⟨S1x128x128, .f32⟩
  | .hbm, ⟨90, _⟩ => ⟨S128x128, .f32⟩
  | .hbm, ⟨91, _⟩ => ⟨S128x128, .f32⟩
  | .hbm, ⟨92, _⟩ => ⟨S1x128, .f32⟩
  | .hbm, ⟨93, _⟩ => ⟨S128, .f32⟩
  | .hbm, ⟨94, _⟩ => ⟨S1x128, .f32⟩
  | .hbm, ⟨95, _⟩ => ⟨S128, .f32⟩
  | .hbm, ⟨96, _⟩ => ⟨S100000x128, .f32⟩
  | .hbm, ⟨97, _⟩ => ⟨S_, .f32⟩
  | .hbm, ⟨98, _⟩ => ⟨S512x128, .f32⟩
  | .hbm, ⟨99, _⟩ => ⟨S100000x1, .i32⟩
  | .hbm, ⟨100, _⟩ => ⟨S512x128, .f32⟩
  | .hbm, ⟨101, _⟩ => ⟨S_, .f32⟩
  | .hbm, ⟨102, _⟩ => ⟨S100000, .f32⟩
  | .hbm, ⟨103, _⟩ => ⟨S_, .f32⟩
  | .hbm, ⟨104, _⟩ => ⟨S512, .f32⟩
  | .hbm, ⟨105, _⟩ => ⟨S100000x1, .i32⟩
  | .hbm, ⟨106, _⟩ => ⟨S512, .f32⟩
  | .hbm, ⟨107, _⟩ => ⟨S_, .f32⟩
  | .hbm, ⟨108, _⟩ => ⟨S512, .f32⟩
  | .hbm, ⟨109, _⟩ => ⟨S512, .f32⟩
  | .hbm, ⟨110, _⟩ => ⟨S512x1, .f32⟩
  | .hbm, ⟨111, _⟩ => ⟨S512x128, .f32⟩
  | .hbm, ⟨112, _⟩ => ⟨S512x128, .f32⟩
  | .hbm, ⟨113, _⟩ => ⟨S128x128, .f32⟩
  | .hbm, ⟨114, _⟩ => ⟨S128x10, .f32⟩
  | .hbm, ⟨115, _⟩ => ⟨S512x10, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S128x128, .f32⟩
  | .local _ .vmem, ⟨15, _⟩ => ⟨S128x128, .f32⟩
  | .local _ .vmem, ⟨16, _⟩ => ⟨S128, .f32⟩
  | .local _ .vmem, ⟨17, _⟩ => ⟨S128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S128x128, .f32⟩
  | .local _ .vmem, ⟨25, _⟩ => ⟨S128x128, .f32⟩
  | .local _ .vmem, ⟨26, _⟩ => ⟨S128, .f32⟩
  | .local _ .vmem, ⟨27, _⟩ => ⟨S128, .f32⟩
  | .local _ .vmem, ⟨28, _⟩ => ⟨S4000x128, .f32⟩
  | .local _ .vmem, ⟨29, _⟩ => ⟨S4000x128, .f32⟩
  | .local _ .vmem, ⟨30, _⟩ => ⟨S512x128, .f32⟩
  | .local _ .vmem, ⟨31, _⟩ => ⟨S128x128, .f32⟩
  | .local _ .vmem, ⟨32, _⟩ => ⟨S128, .f32⟩
  | .local _ .vmem, ⟨33, _⟩ => ⟨S128x10, .f32⟩
  | .local _ .vmem, ⟨34, _⟩ => ⟨S10, .f32⟩
  | .local _ .vmem, ⟨35, _⟩ => ⟨S512x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_1 : Ref sig .tc := ⟨.hbm, 43, rfl⟩
abbrev main_v28 : Ref sig .tc := ⟨.hbm, 44, rfl⟩
abbrev main_v29 : Ref sig .tc := ⟨.hbm, 45, rfl⟩
abbrev main_c_2 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_3 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_4 : Ref sig .tc := ⟨.hbm, 70, rfl⟩
abbrev main_v52 : Ref sig .tc := ⟨.hbm, 71, rfl⟩
abbrev main_v53 : Ref sig .tc := ⟨.hbm, 72, rfl⟩
abbrev main_c_5 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_6 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_7 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_8 : Ref sig .tc := ⟨.hbm, 101, rfl⟩
abbrev main_v79 : Ref sig .tc := ⟨.hbm, 102, rfl⟩
abbrev main_cst_9 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_10 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem1_0 : DmaSem sig := 31
abbrev cc3_sem2_0 : DmaSem sig := 32
abbrev cc3_sem3_0 : DmaSem sig := 33
abbrev cc3_sem4_0 : DmaSem sig := 34
abbrev cc3_sem5_0 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x10 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  slices_S3x128_S1x128_0_0 : S3x128.Slices ![0, 0] S1x128
  shapeCasts_S1x128_S128 : S1x128.ShapeCasts S128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S4000x128 : S1x128.Broadcasts S4000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S512x128 : S_.BroadcastsInDim S512x128 (![] : Fin 0 → Fin S512x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  transposes_S10x128_S128x10_1_0 : S10x128.Transposes [1, 0] S128x10
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x128_S512x128 : S1x128.Broadcasts S512x128
  inb_S128x10_S128x10_0_0 : ∀ a, (![0, 0] : Fin 2 → Nat) a + S128x10.size a ≤ S128x10.size a
  h_S128x10 : 0 < S128x10.numel
  shapeCasts_S128x10_S128x10 : S128x10.ShapeCasts S128x10
  inb_S10_S10_0 : ∀ a, (![0] : Fin 1 → Nat) a + S10.size a ≤ S10.size a
  h_S10 : 0 < S10.numel
  shapeCasts_S10_S1x10 : S10.ShapeCasts S1x10
  broadcasts_S1x10_S512x10 : S1x10.Broadcasts S512x10
  reduces_S512x10_S512 : S512x10.Reduces [1] S512
  shapeCasts_S512_S512x1 : S512.ShapeCasts S512x1
  broadcasts_S512x1_S512x10 : S512x1.Broadcasts S512x10
  inb_S512x10_S512x10_0_0 : ∀ a, (![0, 0] : Fin 2 → Nat) a + S512x10.size a ≤ S512x10.size a
  h_S512x10 : 0 < S512x10.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x128_S512x128_1_0_0_1_n_n_wf : DotDims.WF S512x128 S128x128 S512x128 [1] [0] [0] [1] [] []
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S100000x128.size a
  hwx2_6 : ∀ i : grid2.Coords, EltTy.bits .f32 = 32 ∨ (Rect.block (s := S100000x128) S4000x128.size (cc2_transform_6 i) (hinb2_6 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S512x128.size a
  hwx3_0 : ∀ i : grid3.Coords, EltTy.bits .f32 = 32 ∨ (Rect.block (s := S512x128) S512x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x10.size a ≤ S128x10.size a
  hwx3_3 : ∀ i : grid3.Coords, EltTy.bits .f32 = 32 ∨ (Rect.block (s := S128x10) S128x10.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S10.size a ≤ S10.size a
  hwx3_4 : ∀ i : grid3.Coords, EltTy.bits .f32 = 32 ∨ (Rect.block (s := S10) S10.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512x10.size a ≤ S512x10.size a
  hwx3_5 : ∀ i : grid3.Coords, EltTy.bits .f32 = 32 ∨ (Rect.block (s := S512x10) S512x10.size (cc3_transform_5 i) (hinb3_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_v16) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v40) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v50) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v51) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v64) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v67) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v70) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v72) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v74) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v75) S4000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v87) S512x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v88) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v89) S128x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S10.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v90) S512x10.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S10x128 : Shape := ⟨2, ![10, 128]⟩
abbrev S10 : Shape := ⟨1, ![10]⟩
abbrev S1x1600000 : Shape := ⟨2, ![1, 1600000]⟩
abbrev S1x128x128 : Shape := ⟨3, ![1, 128, 128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S128x10 : Shape := ⟨2, ![128, 10]⟩
abbrev S512x10 : Shape := ⟨2, ![512, 10]⟩
abbrev S1x10 : Shape := ⟨2, ![1, 10]⟩

abbrev nBuf : Space → Nat
  | .hbm => 192
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S100000, .i32⟩
  | 4 => ⟨S3x128x128, .f32⟩
  | 5 => ⟨S3x128, .f32⟩
  | 6 => ⟨S3x128x128, .f32⟩
  | 7 => ⟨S3x128, .f32⟩
  | 8 => ⟨S128x128, .f32⟩
  | 9 => ⟨S128, .f32⟩
  | 10 => ⟨S10x128, .f32⟩
  | 11 => ⟨S10, .f32⟩
  | 12 => ⟨S1x1600000, .i32⟩
  | 13 => ⟨S1600000, .i32⟩
  | 14 => ⟨S1x1600000, .i32⟩
  | 15 => ⟨S1600000, .i32⟩
  | 16 => ⟨S1x128x128, .f32⟩
  | 17 => ⟨S128x128, .f32⟩
  | 18 => ⟨S1x128, .f32⟩
  | 19 => ⟨S128, .f32⟩
  | 20 => ⟨S1x128x128, .f32⟩
  | 21 => ⟨S128x128, .f32⟩
  | 22 => ⟨S1x128, .f32⟩
  | 23 => ⟨S128, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x128, .f32⟩
  | 33 => ⟨S1600000x1, .f32⟩
  | 34 => ⟨S1600000x128, .f32⟩
  | 35 => ⟨S1600000x128, .f32⟩
  | 36 => ⟨S_, .f32⟩
  | 37 => ⟨S100000x128, .f32⟩
  | 38 => ⟨S1600000x1, .i32⟩
  | 39 => ⟨S100000x128, .f32⟩
  | 40 => ⟨S_, .f32⟩
  | 41 => ⟨S100000x128, .f32⟩
  | 42 => ⟨S100000x128, .f32⟩
  | 43 => ⟨S100000x128, .f32⟩
  | 44 => ⟨S128x128, .f32⟩
  | 45 => ⟨S100000x128, .f32⟩
  | 46 => ⟨S1x128, .f32⟩
  | 47 => ⟨S100000x128, .f32⟩
  | 48 => ⟨S100000x128, .f32⟩
  | 49 => ⟨S_, .f32⟩
  | 50 => ⟨S100000x128, .f32⟩
  | 51 => ⟨S100000x128, .f32⟩
  | 52 => ⟨S128x128, .f32⟩
  | 53 => ⟨S100000x128, .f32⟩
  | 54 => ⟨S1x128, .f32⟩
  | 55 => ⟨S100000x128, .f32⟩
  | 56 => ⟨S100000x128, .f32⟩
  | 57 => ⟨S_, .f32⟩
  | 58 => ⟨S100000x128, .f32⟩
  | 59 => ⟨S100000x128, .f32⟩
  | 60 => ⟨S1x128x128, .f32⟩
  | 61 => ⟨S128x128, .f32⟩
  | 62 => ⟨S1x128, .f32⟩
  | 63 => ⟨S128, .f32⟩
  | 64 => ⟨S1x128x128, .f32⟩
  | 65 => ⟨S128x128, .f32⟩
  | 66 => ⟨S1x128, .f32⟩
  | 67 => ⟨S128, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x128, .f32⟩
  | 77 => ⟨S1600000x1, .f32⟩
  | 78 => ⟨S1600000x128, .f32⟩
  | 79 => ⟨S1600000x128, .f32⟩
  | 80 => ⟨S_, .f32⟩
  | 81 => ⟨S100000x128, .f32⟩
  | 82 => ⟨S1600000x1, .i32⟩
  | 83 => ⟨S100000x128, .f32⟩
  | 84 => ⟨S_, .f32⟩
  | 85 => ⟨S100000x128, .f32⟩
  | 86 => ⟨S100000x128, .f32⟩
  | 87 => ⟨S100000x128, .f32⟩
  | 88 => ⟨S128x128, .f32⟩
  | 89 => ⟨S100000x128, .f32⟩
  | 90 => ⟨S1x128, .f32⟩
  | 91 => ⟨S100000x128, .f32⟩
  | 92 => ⟨S100000x128, .f32⟩
  | 93 => ⟨S_, .f32⟩
  | 94 => ⟨S100000x128, .f32⟩
  | 95 => ⟨S100000x128, .f32⟩
  | 96 => ⟨S128x128, .f32⟩
  | 97 => ⟨S100000x128, .f32⟩
  | 98 => ⟨S1x128, .f32⟩
  | 99 => ⟨S100000x128, .f32⟩
  | 100 => ⟨S100000x128, .f32⟩
  | 101 => ⟨S_, .f32⟩
  | 102 => ⟨S100000x128, .f32⟩
  | 103 => ⟨S100000x128, .f32⟩
  | 104 => ⟨S1x128x128, .f32⟩
  | 105 => ⟨S128x128, .f32⟩
  | 106 => ⟨S1x128, .f32⟩
  | 107 => ⟨S128, .f32⟩
  | 108 => ⟨S1x128x128, .f32⟩
  | 109 => ⟨S128x128, .f32⟩
  | 110 => ⟨S1x128, .f32⟩
  | 111 => ⟨S128, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000x128, .f32⟩
  | 121 => ⟨S1600000x1, .f32⟩
  | 122 => ⟨S1600000x128, .f32⟩
  | 123 => ⟨S1600000x128, .f32⟩
  | 124 => ⟨S_, .f32⟩
  | 125 => ⟨S100000x128, .f32⟩
  | 126 => ⟨S1600000x1, .i32⟩
  | 127 => ⟨S100000x128, .f32⟩
  | _ => ⟨S100000x128, .f32⟩

abbrev hbmTy0_1 (i : Nat) : BufTy := match i % 128 with
  | 0 => ⟨S_, .f32⟩
  | 1 => ⟨S100000x128, .f32⟩
  | 2 => ⟨S100000x128, .f32⟩
  | 3 => ⟨S100000x128, .f32⟩
  | 4 => ⟨S128x128, .f32⟩
  | 5 => ⟨S100000x128, .f32⟩
  | 6 => ⟨S1x128, .f32⟩
  | 7 => ⟨S100000x128, .f32⟩
  | 8 => ⟨S100000x128, .f32⟩
  | 9 => ⟨S_, .f32⟩
  | 10 => ⟨S100000x128, .f32⟩
  | 11 => ⟨S100000x128, .f32⟩
  | 12 => ⟨S128x128, .f32⟩
  | 13 => ⟨S100000x128, .f32⟩
  | 14 => ⟨S1x128, .f32⟩
  | 15 => ⟨S100000x128, .f32⟩
  | 16 => ⟨S100000x128, .f32⟩
  | 17 => ⟨S_, .f32⟩
  | 18 => ⟨S100000x128, .f32⟩
  | 19 => ⟨S100000x128, .f32⟩
  | 20 => ⟨S_, .f32⟩
  | 21 => ⟨S512x128, .f32⟩
  | 22 => ⟨S100000x1, .i32⟩
  | 23 => ⟨S512x128, .f32⟩
  | 24 => ⟨S_, .f32⟩
  | 25 => ⟨S100000, .f32⟩
  | 26 => ⟨S_, .f32⟩
  | 27 => ⟨S512, .f32⟩
  | 28 => ⟨S100000x1, .i32⟩
  | 29 => ⟨S512, .f32⟩
  | 30 => ⟨S_, .f32⟩
  | 31 => ⟨S512, .f32⟩
  | 32 => ⟨S512, .f32⟩
  | 33 => ⟨S512x1, .f32⟩
  | 34 => ⟨S512x128, .f32⟩
  | 35 => ⟨S512x128, .f32⟩
  | 36 => ⟨S128x128, .f32⟩
  | 37 => ⟨S512x128, .f32⟩
  | 38 => ⟨S1x128, .f32⟩
  | 39 => ⟨S512x128, .f32⟩
  | 40 => ⟨S512x128, .f32⟩
  | 41 => ⟨S_, .f32⟩
  | 42 => ⟨S512x128, .f32⟩
  | 43 => ⟨S512x128, .f32⟩
  | 44 => ⟨S128x10, .f32⟩
  | 45 => ⟨S512x10, .f32⟩
  | 46 => ⟨S1x10, .f32⟩
  | 47 => ⟨S512x10, .f32⟩
  | 48 => ⟨S512x10, .f32⟩
  | 49 => ⟨S_, .f32⟩
  | 50 => ⟨S512, .f32⟩
  | 51 => ⟨S_, .f32⟩
  | 52 => ⟨S512, .f32⟩
  | 53 => ⟨S512, .f32⟩
  | 54 => ⟨S512x1, .f32⟩
  | 55 => ⟨S512x10, .f32⟩
  | 56 => ⟨S512x10, .f32⟩
  | 57 => ⟨S512x10, .f32⟩
  | 58 => ⟨S_, .f32⟩
  | 59 => ⟨S512, .f32⟩
  | 60 => ⟨S512x1, .f32⟩
  | 61 => ⟨S512x1, .f32⟩
  | 62 => ⟨S512x10, .f32⟩
  | 63 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_1 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call0_cst : Ref sig .tc := ⟨.hbm, 49, rfl⟩
abbrev main_call0_v0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_call1_cst : Ref sig .tc := ⟨.hbm, 57, rfl⟩
abbrev main_call1_v0 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_2 : Ref sig .tc := ⟨.hbm, 68, rfl⟩
abbrev main_v48 : Ref sig .tc := ⟨.hbm, 69, rfl⟩
abbrev main_v49 : Ref sig .tc := ⟨.hbm, 70, rfl⟩
abbrev main_c_3 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_4 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_5 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_call2_cst : Ref sig .tc := ⟨.hbm, 93, rfl⟩
abbrev main_call2_v0 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_call3_cst : Ref sig .tc := ⟨.hbm, 101, rfl⟩
abbrev main_call3_v0 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_c_6 : Ref sig .tc := ⟨.hbm, 112, rfl⟩
abbrev main_v84 : Ref sig .tc := ⟨.hbm, 113, rfl⟩
abbrev main_v85 : Ref sig .tc := ⟨.hbm, 114, rfl⟩
abbrev main_c_7 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_8 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_9 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_call4_cst : Ref sig .tc := ⟨.hbm, 137, rfl⟩
abbrev main_call4_v0 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_call5_cst : Ref sig .tc := ⟨.hbm, 145, rfl⟩
abbrev main_call5_v0 : Ref sig .tc := ⟨.hbm, 146, rfl⟩
abbrev main_v111 : Ref sig .tc := ⟨.hbm, 147, rfl⟩
abbrev main_cst_10 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_cst_11 : Ref sig .tc := ⟨.hbm, 152, rfl⟩
abbrev main_v115 : Ref sig .tc := ⟨.hbm, 153, rfl⟩
abbrev main_cst_12 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_cst_13 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_call6_cst : Ref sig .tc := ⟨.hbm, 169, rfl⟩
abbrev main_call6_v0 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_call7_cst : Ref sig .tc := ⟨.hbm, 177, rfl⟩
abbrev main_call7_v0 : Ref sig .tc := ⟨.hbm, 178, rfl⟩
abbrev main_call7_cst_0 : Ref sig .tc := ⟨.hbm, 179, rfl⟩
abbrev main_call7_v1 : Ref sig .tc := ⟨.hbm, 180, rfl⟩
abbrev main_call7_v2 : Ref sig .tc := ⟨.hbm, 181, rfl⟩
abbrev main_call7_v3 : Ref sig .tc := ⟨.hbm, 182, rfl⟩
abbrev main_call7_v4 : Ref sig .tc := ⟨.hbm, 183, rfl⟩
abbrev main_call7_v5 : Ref sig .tc := ⟨.hbm, 184, rfl⟩
abbrev main_call7_v6 : Ref sig .tc := ⟨.hbm, 185, rfl⟩
abbrev main_call7_cst_1 : Ref sig .tc := ⟨.hbm, 186, rfl⟩
abbrev main_call7_v7 : Ref sig .tc := ⟨.hbm, 187, rfl⟩
abbrev main_call7_v8 : Ref sig .tc := ⟨.hbm, 188, rfl⟩
abbrev main_call7_v9 : Ref sig .tc := ⟨.hbm, 189, rfl⟩
abbrev main_call7_v10 : Ref sig .tc := ⟨.hbm, 190, rfl⟩
abbrev main_v135 : Ref sig .tc := ⟨.hbm, 191, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S512x128 : S_.BroadcastsInDim S512x128 (![] : Fin 0 → Fin S512x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1x128_S512x128_0_1 : S1x128.BroadcastsInDim S512x128 (![0, 1] : Fin 2 → Fin S512x128.rank)
  transposes_S10x128_S128x10_1_0 : S10x128.Transposes [1, 0] S128x10
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  reducesTo_S512x10_S512_d1 : S512x10.ReducesTo [1] S512
  h_S_ : 0 < S_.numel
  bcast_S512x1_S512x10_0_1 : S512x1.BroadcastsInDim S512x10 (![0, 1] : Fin 2 → Fin S512x10.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x128_S512x128_1_0_0_1_n_n_wf : DotDims.WF S512x128 S128x128 S512x128 [1] [0] [0] [1] [] []
  dot_S512x128_S128x10_S512x10_1_0_0_1_n_n_wf : DotDims.WF S512x128 S128x10 S512x10 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.KernelRun.lean ====
/-
  The idealized kernel's run with its two results named. Every weakly fair execution of the program on the
  TensorCores terminates without a fault; at the end each unscoped buffer holds the contents of the last segment
  boundary — the fold of the host operations and of the four pipelines' write-backs from the launch memory. Read at
  the two result buffers this names the log-probabilities and the last node features; read at the twelve argument
  buffers it gives them back as launched.
-/
import proofs.«127708_j996432413502_1_alg».proof.Proof.Gen.KernelIdeal.Frame

set_option maxRecDepth 16384

noncomputable section

namespace Cert.KernelIdeal.RunV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: both results at the last boundary's contents, the arguments as launched. -/
theorem run_values : θ_run defs (onTc (τ := τ) (main (F := F))) ⟨m, fun _ => 0, ρ⟩ (fun r => ∀ c : Dev nD,
      r.2.mem ((c.tc : Thread nD τ).loc main_v90) = W8 m ρ c (Proc.devRef .tc main_v90)
      ∧ r.2.mem ((c.tc : Thread nD τ).loc main_v75) = W8 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v90 (by decide)), h c _ (mem_uc main_v75 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c)⟩)

end Cert.KernelIdeal.RunV

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.LibBiasRows.lean ====
/-
  GENERAL LEMMAS: a bias vector laid along the rows of a matrix, read at an entry, in the two spellings a kernel and a
  host program give it. Nothing here mentions a program; the number of rows R and the bias's length n are arbitrary.

  * bias_rows: the kernel's spelling — a length-n vector cast to one row [1, n] and broadcast to [R, n] — at (p, c) is the
    vector at c.
  * bias_host: the host's spelling — a length-n vector broadcast along axis 1 to [1, n] and then along both axes to [R, n]
    — at (r, c) is the vector at c, for n other than 1 (a length-1 axis is the one that a broadcast stretches).
  Both hold for entries of any type: no arithmetic is involved.
-/
import Idealize.ShloMosaic.Lib.Pipeline.Value
import Idealize.ShloMosaic.Lib.ValueLayout
import Idealize.ShloMosaic.Lib.ValueIdx

noncomputable section

namespace Cert.LibBiasRows

open Idealize.ShloMosaic Idealize.ShloMosaic.ValueIdx

variable {α : Type}

/-- A vector of length n cast to one row and laid along R rows reads, at (p, c), the vector at c. -/
theorem bias_rows {R n : ℕ} (b : (⟨1, ![n]⟩ : Shape).Idx → α) (hc : (⟨1, ![n]⟩ : Shape).ShapeCasts ⟨2, ![1, n]⟩)
    (hb : (⟨2, ![1, n]⟩ : Shape).Broadcasts ⟨2, ![R, n]⟩) (p : Fin R) (c : Fin n) :
    broadcastTo ⟨2, ![R, n]⟩ (shapeCast ⟨2, ![1, n]⟩ b hc) hb (ix2 p c) = b (ix1 c) :=
  (broadcastTo_1b_ab_apply _ hb p c).trans (shapeCast_a_1a_apply b hc 0 c)

/-- A vector of length n (n not 1) broadcast to one row and then along R rows reads, at (r, c), the vector at c. -/
theorem bias_host {R n : ℕ} (hn : n ≠ 1) (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (r : Fin R) (c : Fin n) :
    broadcastInDim ⟨2, ![R, n]⟩ ![0, 1] h2 (broadcastInDim ⟨2, ![1, n]⟩ ![1] h1 b) (ix2 r c) = b (ix1 c) := by
  refine (broadcastInDim_apply _ h2 _ (ix2 r c) (ix2 (0 : Fin 1) c) fun a => ?_).trans
    (broadcastInDim_apply _ h1 b (ix2 (0 : Fin 1) c) (ix1 c) fun a => ?_)
  · match a with
    | ⟨0, _⟩ => show (0 : ℕ) = if (1 : ℕ) = 1 then 0 else r.val; rw [if_pos rfl]
    | ⟨1, _⟩ => show c.val = if n = 1 then 0 else c.val; rw [if_neg hn]
  · match a with
    | ⟨0, _⟩ => show c.val = if n = 1 then 0 else c.val; rw [if_neg hn]

end Cert.LibBiasRows

end
-- ==== Proof.LibDenseLayers.lean ====
/-
  GENERAL LEMMAS: dense layers as functions on extended reals. Nothing here mentions a program; every extent is arbitrary.

  An affine layer sends a matrix h of R rows and K columns to h · W + b: entry (p, q) is the sum over k of
  h(p, k) * W(k, q), plus b(q). The rectifier replaces every entry by the larger of it and zero. Two compositions
  are named: stage1 = rectifier ∘ affine, and stage2 = affine ∘ affine ∘ rectifier ∘ affine.

  Two facts are proved here, for any extents.
  * ROW-LOCALITY: row p of an affine layer's result depends only on row p of h. So a stage applied to a block of
    consecutive rows of a matrix is that block of rows of the stage applied to the whole matrix: this is what lets a
    computation tiled over blocks of rows be read as one computation on the whole matrix.
  * THE TWO SPELLINGS: a matrix product into a zero accumulator plus a vector cast to one row and laid along the rows,
    and a dot_general plus a vector broadcast twice, are both the affine layer.
  No law of extended-real arithmetic is used beyond re-indexing a finite sum, so nothing here needs finite entries.
-/
import Idealize.ShloMosaic.PureOps.Ideal
import Idealize.ShloMosaic.PureOps.Ideal.Laws
import Idealize.ShloMosaic.Lib.ValueIdx
import proofs.«127708_j996432413502_1_alg».proof.Proof.LibMatmulRows
import proofs.«127708_j996432413502_1_alg».proof.Proof.LibBiasRows

noncomputable section

namespace Cert.LibDenseLayers

open Idealize.ShloMosaic Idealize.ShloMosaic.ValueIdx
open scoped BigOperators

/-- Entry (p, q) of the affine layer h · W + b: row p of h against column q of W, plus the bias at q. -/
def affineAt {R K N : ℕ} (h : (⟨2, ![R, K]⟩ : Shape).Idx → EReal) (W : (⟨2, ![K, N]⟩ : Shape).Idx → EReal)
    (b : (⟨1, ![N]⟩ : Shape).Idx → EReal) (p : Fin R) (q : Fin N) : EReal :=
  (∑ k : Fin K, h (ix2 p k) * W (ix2 k q)) + b (ix1 q)

/-- The affine layer h · W + b as a matrix of R rows and N columns. -/
def affine {R K N : ℕ} (h : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  fun i => affineAt h W b (i 0) (i 1)

/-- The rectifier: every entry replaced by the larger of it and the single-precision zero. -/
def relu {s : Shape} (a : s.Idx → EReal) : s.Idx → EReal :=
  fun i => max (a i) (Ideal.ofBits .f32 0x00000000#32)

/-- The first dense stage: rectified affine layer. -/
def stage1 {R K N : ℕ} (h : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  relu (affine h W b)

/-- The second dense stage: a rectified affine layer followed by two affine layers. -/
def stage2 {R K N M L : ℕ} (h : (⟨2, ![R, K]⟩ : Shape).Idx → EReal)
    (W2 : (⟨2, ![K, N]⟩ : Shape).Idx → EReal) (b2 : (⟨1, ![N]⟩ : Shape).Idx → EReal)
    (W3 : (⟨2, ![N, M]⟩ : Shape).Idx → EReal) (b3 : (⟨1, ![M]⟩ : Shape).Idx → EReal)
    (W4 : (⟨2, ![M, L]⟩ : Shape).Idx → EReal) (b4 : (⟨1, ![L]⟩ : Shape).Idx → EReal) :
    (⟨2, ![R, L]⟩ : Shape).Idx → EReal :=
  affine (affine (relu (affine h W2 b2)) W3 b3) W4 b4

/-! ## Row-locality -/

/-- Row p of an affine layer of h is row p' of the affine layer of h' when row p of h is row p' of h'. -/
theorem affineAt_congr {R R' K N : ℕ} (h : (⟨2, ![R, K]⟩ : Shape).Idx → EReal) (h' : (⟨2, ![R', K]⟩ : Shape).Idx → EReal)
    (W : (⟨2, ![K, N]⟩ : Shape).Idx → EReal) (b : (⟨1, ![N]⟩ : Shape).Idx → EReal) (p : Fin R) (p' : Fin R')
    (hh : ∀ k : Fin K, h (ix2 p k) = h' (ix2 p' k)) (q : Fin N) :
    affineAt h W b p q = affineAt h' W b p' q := by
  unfold affineAt
  exact congrArg (· + b (ix1 q)) (Finset.sum_congr rfl fun k _ => by rw [hh k])

/-- The first stage on a matrix whose row p is row p' of another: the same row of results. -/
theorem stage1_row {R R' K N : ℕ} (h : (⟨2, ![R, K]⟩ : Shape).Idx → EReal) (h' : (⟨2, ![R', K]⟩ : Shape).Idx → EReal)
    (W : (⟨2, ![K, N]⟩ : Shape).Idx → EReal) (b : (⟨1, ![N]⟩ : Shape).Idx → EReal) (p : Fin R) (p' : Fin R')
    (hh : ∀ k : Fin K, h (ix2 p k) = h' (ix2 p' k)) (q : Fin N) :
    stage1 h W b (ix2 p q) = stage1 h' W b (ix2 p' q) := by
  show max (affineAt h W b p q) _ = max (affineAt h' W b p' q) _
  rw [affineAt_congr h h' W b p p' hh q]

/-- The second stage on a matrix whose row p is row p' of another: the same row of results. -/
theorem stage2_row {R R' K N M L : ℕ} (h : (⟨2, ![R, K]⟩ : Shape).Idx → EReal) (h' : (⟨2, ![R', K]⟩ : Shape).Idx → EReal)
    (W2 : (⟨2, ![K, N]⟩ : Shape).Idx → EReal) (b2 : (⟨1, ![N]⟩ : Shape).Idx → EReal)
    (W3 : (⟨2, ![N, M]⟩ : Shape).Idx → EReal) (b3 : (⟨1, ![M]⟩ : Shape).Idx → EReal)
    (W4 : (⟨2, ![M, L]⟩ : Shape).Idx → EReal) (b4 : (⟨1, ![L]⟩ : Shape).Idx → EReal) (p : Fin R) (p' : Fin R')
    (hh : ∀ k : Fin K, h (ix2 p k) = h' (ix2 p' k)) (q : Fin L) :
    stage2 h W2 b2 W3 b3 W4 b4 (ix2 p q) = stage2 h' W2 b2 W3 b3 W4 b4 (ix2 p' q) := by
  show affineAt (affine (relu (affine h W2 b2)) W3 b3) W4 b4 p q
     = affineAt (affine (relu (affine h' W2 b2)) W3 b3) W4 b4 p' q
  refine affineAt_congr _ _ W4 b4 p p' (fun k => ?_) q
  show affineAt (relu (affine h W2 b2)) W3 b3 p k = affineAt (relu (affine h' W2 b2)) W3 b3 p' k
  refine affineAt_congr _ _ W3 b3 p p' (fun k' => ?_) k
  show max (affineAt h W2 b2 p k') _ = max (affineAt h' W2 b2 p' k') _
  rw [affineAt_congr h h' W2 b2 p p' hh k']

/-! ## The two spellings of an affine layer -/

/-- The matrix unit's product into a zero accumulator, plus a vector cast to one row and laid along the rows, is the
    affine layer. The operands of the product may carry any float format: on extended reals a format is no change. -/
theorem affine_of_matmul {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨1, ![N]⟩ : Shape).ShapeCasts ⟨2, ![1, N]⟩) (hb : (⟨2, ![1, N]⟩ : Shape).Broadcasts ⟨2, ![R, N]⟩)
    {φ₁ φ₂ : FTy} (h : FVec Ideal ⟨2, ![R, K]⟩ φ₁) (W : FVec Ideal ⟨2, ![K, N]⟩ φ₂) (b : FVec Ideal ⟨1, ![N]⟩ .f32) :
    addf (matmul d none h W (constant (F := Ideal) ⟨2, ![R, N]⟩ .f32 0x00000000#32))
      (broadcastTo ⟨2, ![R, N]⟩ (shapeCast ⟨2, ![1, N]⟩ b hc) hb) = affine h W b := by
  funext j
  obtain ⟨p, q, rfl⟩ : ∃ (p : Fin R) (q : Fin N), j = ix2 p q := ⟨j 0, j 1, eq_ix2 j⟩
  show matmul d none h W (constant (F := Ideal) ⟨2, ![R, N]⟩ .f32 0x00000000#32) (ix2 p q)
      + broadcastTo ⟨2, ![R, N]⟩ (shapeCast ⟨2, ![1, N]⟩ b hc) hb (ix2 p q) = affineAt h W b p q
  rw [Cert.LibMatmulRows.matmul_rows d hrank hsize hl0 hl1 hr0 hr1 h W p q, Cert.LibBiasRows.bias_rows b hc hb p q]
  rfl

/-- The host's dot_general, plus a vector broadcast to one row and then along the rows, is the affine layer. -/
theorem affine_of_dot {R K N : ℕ} (hN : N ≠ 1) (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (h : FVec Ideal ⟨2, ![R, K]⟩ .f32) (W : FVec Ideal ⟨2, ![K, N]⟩ .f32) (b : FVec Ideal ⟨1, ![N]⟩ .f32) :
    addf (Host.dotGeneral d none h W)
      (broadcastInDim ⟨2, ![R, N]⟩ ![0, 1] h2 (broadcastInDim ⟨2, ![1, N]⟩ ![1] h1 b)) = affine h W b := by
  funext j
  obtain ⟨p, q, rfl⟩ : ∃ (p : Fin R) (q : Fin N), j = ix2 p q := ⟨j 0, j 1, eq_ix2 j⟩
  show Host.dotGeneral d none h W (ix2 p q)
      + broadcastInDim ⟨2, ![R, N]⟩ ![0, 1] h2 (broadcastInDim ⟨2, ![1, N]⟩ ![1] h1 b) (ix2 p q) = affineAt h W b p q
  rw [Cert.LibMatmulRows.hostdot_rows d hrank hsize hl0 hl1 hr0 hr1 h W p q, Cert.LibBiasRows.bias_host hN b h1 h2 p q]
  rfl

end Cert.LibDenseLayers

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.LibLaneMax.lean ====
/-
  GENERAL LEMMA: a maximum over the lane axis of a matrix, read at a row on extended reals.

  * laneMax_apply: a float maximum-reduction over axis 1 of an [a, b] matrix, started from an accumulator word, read at
    row r, is the fold of max from the accumulator's value over the b entries (r, k) of that row. Because max on the
    extended reals commutes and associates, the order in which the entries are visited does not matter, so the fold is
    over the finite set of lane positions.
  Nothing here mentions a program; the extents a and b are arbitrary.
-/
import proofs.«127708_j996432413502_1_alg».proof.Proof.LibLayout

noncomputable section

namespace Cert.LibLaneMax

open Idealize.ShloMosaic Idealize.ShloMosaic.ValueIdx

/-- A float maximum over the lane axis of a matrix, read at row `r` at the exact instance: the fold of `max`, from
    the accumulator's value, over the row's entries. -/
theorem laneMax_apply {a b : ℕ} (v : FVec Ideal ⟨2, ![a, b]⟩ .f32) (acc : BitVec 32)
    (h : Shape.Reduces ⟨2, ![a, b]⟩ [1] ⟨1, ![a]⟩) (hφ : FKind.Formats .f32)
    (hacc : acc = FKind.maximumf.neutral .f32 hφ) (r : Fin a) :
    multiReduction .maximumf [1] ⟨1, ![a]⟩ v acc h hφ hacc (ix1 r)
      = (Finset.univ : Finset (Fin b)).fold max (Ideal.ofBits .f32 acc) (fun k => v (ix2 r k)) :=
  (Ideal.multiReduction_maximumf_single v acc h hφ hacc (ix1 r)).trans
    (congrArg (fun f : Fin b → EReal => (Finset.univ : Finset (Fin b)).fold max (Ideal.ofBits .f32 acc) f)
      (funext fun k => congrArg v (Cert.LibLayout.lift_row h r k)))

end Cert.LibLaneMax

end
-- ==== Proof.LibSageLayers.lean ====
/-
  GENERAL LEMMAS: a mean-aggregating graph layer on extended reals, as functions of whole matrices; nothing here mentions a program and
  every extent is arbitrary.

  For a matrix a of aggregated neighbour features and a matrix x of node features (R rows, K columns), two weight
  matrices Wl, Wr (K rows, N columns) and a bias b (length N), the pre-activation at (p, q) is
      (sum over k of a(p, k) * Wl(k, q)  +  sum over k of x(p, k) * Wr(k, q))  +  b(q).
  The rectified layer takes the larger of that and zero. The log-softmax layer subtracts from every entry of a row the
  row's maximum m and then the logarithm of the row's sum of exp(entry - m).

  Two facts are proved for each layer.
  * ROW-LOCALITY: row p of the result depends only on row p of a and of x, so the layer applied to a block of consecutive
    rows is that block of rows of the layer applied to the whole matrices.
  * THE SPELLINGS: the matrix unit's two products into zero accumulators, added, plus the bias cast to one row and laid
    along the rows; and the host's first product plus the bias broadcast twice, plus the second product. The two differ
    by the order of three summands, and addition of extended reals is commutative and associative, so no entry needs to
    be finite.
-/
import Idealize.ShloMosaic.PureOps.Ideal
import Idealize.ShloMosaic.PureOps.Ideal.Laws
import Idealize.ShloMosaic.Lib.ValueIdx
import proofs.«127708_j996432413502_1_alg».proof.Proof.LibMatmulRows
import proofs.«127708_j996432413502_1_alg».proof.Proof.LibBiasRows
import proofs.«127708_j996432413502_1_alg».proof.Proof.LibLayout
import proofs.«127708_j996432413502_1_alg».proof.Proof.LibLaneMax

noncomputable section

namespace Cert.Sage

open Idealize.ShloMosaic Idealize.ShloMosaic.ValueIdx
open scoped BigOperators

/-- A matrix of R rows and C columns of extended reals. -/
abbrev Mat (R C : ℕ) := (⟨2, ![R, C]⟩ : Shape).Idx → EReal
/-- A vector of N extended reals. -/
abbrev Vc (N : ℕ) := (⟨1, ![N]⟩ : Shape).Idx → EReal

/-- The pre-activation at (p, q): row p of a against column q of Wl, plus row p of x against column q of Wr, plus b(q). -/
def preAt {R K N : ℕ} (a x : Mat R K) (Wl : Mat K N) (b : Vc N) (Wr : Mat K N) (p : Fin R) (q : Fin N) : EReal :=
  ((∑ k : Fin K, a (ix2 p k) * Wl (ix2 k q)) + ∑ k : Fin K, x (ix2 p k) * Wr (ix2 k q)) + b (ix1 q)

/-- The rectified layer: the larger of the pre-activation and the single-precision zero. -/
def reluLayer {R K N : ℕ} (a x : Mat R K) (Wl : Mat K N) (b : Vc N) (Wr : Mat K N) : Mat R N :=
  fun i => max (preAt a x Wl b Wr (i 0) (i 1)) (Ideal.ofBits .f32 0x00000000#32)

/-- The maximum of a row, folded from the single-precision word of minus infinity. -/
def rowMax {N : ℕ} (z : Fin N → EReal) : EReal :=
  (Finset.univ : Finset (Fin N)).fold max (Ideal.ofBits .f32 0xFF800000#32) z

/-- Log-softmax of a row z at position q: (z q - m) - log (sum over q' of exp (z q' - m)), m the row's maximum. -/
def lsmAt {N : ℕ} (z : Fin N → EReal) (q : Fin N) : EReal :=
  (z q - rowMax z) - Ideal.log (∑ q' : Fin N, Ideal.exp (z q' - rowMax z))

/-- The log-softmax layer: log-softmax of each row of pre-activations. -/
def lsmLayer {R K N : ℕ} (a x : Mat R K) (Wl : Mat K N) (b : Vc N) (Wr : Mat K N) : Mat R N :=
  fun i => lsmAt (fun q => preAt a x Wl b Wr (i 0) q) (i 1)

/-! ## Row-locality -/

/-- The pre-activation of row p of (a, x) is that of row p' of (a', x') when the rows agree. -/
theorem preAt_congr {R R' K N : ℕ} (a x : Mat R K) (a' x' : Mat R' K) (Wl : Mat K N) (b : Vc N) (Wr : Mat K N)
    (p : Fin R) (p' : Fin R') (ha : ∀ k : Fin K, a (ix2 p k) = a' (ix2 p' k)) (hx : ∀ k : Fin K, x (ix2 p k) = x' (ix2 p' k))
    (q : Fin N) : preAt a x Wl b Wr p q = preAt a' x' Wl b Wr p' q := by
  unfold preAt
  have e1 : ∀ k : Fin K, a (ix2 p k) * Wl (ix2 k q) = a' (ix2 p' k) * Wl (ix2 k q) := fun k => by rw [ha k]
  have e2 : ∀ k : Fin K, x (ix2 p k) * Wr (ix2 k q) = x' (ix2 p' k) * Wr (ix2 k q) := fun k => by rw [hx k]
  rw [Finset.sum_congr rfl fun k _ => e1 k, Finset.sum_congr rfl fun k _ => e2 k]

/-- The rectified layer on matrices whose rows p and p' agree: the same row of results. -/
theorem reluLayer_row {R R' K N : ℕ} (a x : Mat R K) (a' x' : Mat R' K) (Wl : Mat K N) (b : Vc N) (Wr : Mat K N)
    (p : Fin R) (p' : Fin R') (ha : ∀ k : Fin K, a (ix2 p k) = a' (ix2 p' k)) (hx : ∀ k : Fin K, x (ix2 p k) = x' (ix2 p' k))
    (q : Fin N) : reluLayer a x Wl b Wr (ix2 p q) = reluLayer a' x' Wl b Wr (ix2 p' q) := by
  show max (preAt a x Wl b Wr p q) _ = max (preAt a' x' Wl b Wr p' q) _
  rw [preAt_congr a x a' x' Wl b Wr p p' ha hx q]

/-- The log-softmax layer on matrices whose rows p and p' agree: the same row of results. -/
theorem lsmLayer_row {R R' K N : ℕ} (a x : Mat R K) (a' x' : Mat R' K) (Wl : Mat K N) (b : Vc N) (Wr : Mat K N)
    (p : Fin R) (p' : Fin R') (ha : ∀ k : Fin K, a (ix2 p k) = a' (ix2 p' k)) (hx : ∀ k : Fin K, x (ix2 p k) = x' (ix2 p' k))
    (q : Fin N) : lsmLayer a x Wl b Wr (ix2 p q) = lsmLayer a' x' Wl b Wr (ix2 p' q) := by
  show lsmAt (fun q => preAt a x Wl b Wr p q) q = lsmAt (fun q => preAt a' x' Wl b Wr p' q) q
  rw [show (fun q => preAt a x Wl b Wr p q) = fun q => preAt a' x' Wl b Wr p' q from
    funext fun c => preAt_congr a x a' x' Wl b Wr p p' ha hx c]

/-! ## The matrix unit's spelling -/

/-- Two products into zero accumulators, added, plus the bias cast to one row and laid along the rows, read at (p, q). -/
theorem pre_of_matmul {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨1, ![N]⟩ : Shape).ShapeCasts ⟨2, ![1, N]⟩) (hb : (⟨2, ![1, N]⟩ : Shape).Broadcasts ⟨2, ![R, N]⟩)
    {φ₁ φ₂ φ₃ φ₄ : FTy} (a : FVec Ideal ⟨2, ![R, K]⟩ φ₁) (x : FVec Ideal ⟨2, ![R, K]⟩ φ₂)
    (Wl : FVec Ideal ⟨2, ![K, N]⟩ φ₃) (Wr : FVec Ideal ⟨2, ![K, N]⟩ φ₄) (b : FVec Ideal ⟨1, ![N]⟩ .f32) (p : Fin R) (q : Fin N) :
    addf (addf (matmul d none a Wl (constant (F := Ideal) ⟨2, ![R, N]⟩ .f32 0x00000000#32))
        (matmul d none x Wr (constant (F := Ideal) ⟨2, ![R, N]⟩ .f32 0x00000000#32)))
      (broadcastTo ⟨2, ![R, N]⟩ (shapeCast ⟨2, ![1, N]⟩ b hc) hb) (ix2 p q) = preAt a x Wl b Wr p q := by
  show matmul d none a Wl (constant (F := Ideal) ⟨2, ![R, N]⟩ .f32 0x00000000#32) (ix2 p q)
      + matmul d none x Wr (constant (F := Ideal) ⟨2, ![R, N]⟩ .f32 0x00000000#32) (ix2 p q)
      + broadcastTo ⟨2, ![R, N]⟩ (shapeCast ⟨2, ![1, N]⟩ b hc) hb (ix2 p q) = preAt a x Wl b Wr p q
  rw [Cert.LibMatmulRows.matmul_rows d hrank hsize hl0 hl1 hr0 hr1 a Wl p q,
    Cert.LibMatmulRows.matmul_rows d hrank hsize hl0 hl1 hr0 hr1 x Wr p q, Cert.LibBiasRows.bias_rows b hc hb p q]
  rfl

/-- A row's maximum subtracted, then the logarithm of the row's sum of exponentials subtracted — the reductions over the
    lane axis, their results cast to a column and laid back over the lanes — read at (p, q). -/
theorem lsm_of_lanes {R N : ℕ} (z : FVec Ideal ⟨2, ![R, N]⟩ .f32)
    (hred : Shape.Reduces ⟨2, ![R, N]⟩ [1] ⟨1, ![R]⟩) (hc1 : (⟨1, ![R]⟩ : Shape).ShapeCasts ⟨2, ![R, 1]⟩)
    (hb1 : (⟨2, ![R, 1]⟩ : Shape).Broadcasts ⟨2, ![R, N]⟩) (hφ : FKind.Formats .f32)
    (hmax : (0xFF800000#32 : BitVec 32) = FKind.maximumf.neutral .f32 hφ)
    (hadd : (0x00000000#32 : BitVec 32) = FKind.add.neutral .f32 hφ) (p : Fin R) (q : Fin N) :
    subf (subf z (broadcastTo ⟨2, ![R, N]⟩ (shapeCast ⟨2, ![R, 1]⟩
            (multiReduction .maximumf [1] ⟨1, ![R]⟩ z 0xFF800000#32 hred hφ hmax) hc1) hb1))
      (broadcastTo ⟨2, ![R, N]⟩ (log (shapeCast ⟨2, ![R, 1]⟩
        (multiReduction .add [1] ⟨1, ![R]⟩ (exp (subf z (broadcastTo ⟨2, ![R, N]⟩ (shapeCast ⟨2, ![R, 1]⟩
            (multiReduction .maximumf [1] ⟨1, ![R]⟩ z 0xFF800000#32 hred hφ hmax) hc1) hb1)))
          0x00000000#32 hred hφ hadd) hc1)) hb1) (ix2 p q)
      = lsmAt (fun q' => z (ix2 p q')) q := by
  have hM : ∀ c : Fin N, broadcastTo ⟨2, ![R, N]⟩ (shapeCast ⟨2, ![R, 1]⟩
      (multiReduction .maximumf [1] ⟨1, ![R]⟩ z 0xFF800000#32 hred hφ hmax) hc1) hb1 (ix2 p c)
      = rowMax (fun q' => z (ix2 p q')) := fun c => by
    rw [Cert.LibLayout.broadcastTo_a1_ab_apply, Cert.LibLayout.shapeCast_a_a1_apply, Cert.LibLaneMax.laneMax_apply]
    rfl
  show (z (ix2 p q) - broadcastTo ⟨2, ![R, N]⟩ (shapeCast ⟨2, ![R, 1]⟩
      (multiReduction .maximumf [1] ⟨1, ![R]⟩ z 0xFF800000#32 hred hφ hmax) hc1) hb1 (ix2 p q))
    - broadcastTo ⟨2, ![R, N]⟩ (log (shapeCast ⟨2, ![R, 1]⟩
        (multiReduction .add [1] ⟨1, ![R]⟩ (exp (subf z (broadcastTo ⟨2, ![R, N]⟩ (shapeCast ⟨2, ![R, 1]⟩
            (multiReduction .maximumf [1] ⟨1, ![R]⟩ z 0xFF800000#32 hred hφ hmax) hc1) hb1)))
          0x00000000#32 hred hφ hadd) hc1)) hb1 (ix2 p q) = _
  rw [hM q, Cert.LibLayout.broadcastTo_a1_ab_apply]
  show _ - Ideal.log (shapeCast ⟨2, ![R, 1]⟩
        (multiReduction .add [1] ⟨1, ![R]⟩ (exp (subf z (broadcastTo ⟨2, ![R, N]⟩ (shapeCast ⟨2, ![R, 1]⟩
            (multiReduction .maximumf [1] ⟨1, ![R]⟩ z 0xFF800000#32 hred hφ hmax) hc1) hb1)))
          0x00000000#32 hred hφ hadd) hc1 (ix2 p (0 : Fin 1))) = _
  rw [Cert.LibLayout.shapeCast_a_a1_apply, Cert.LibLayout.laneSum_apply]
  unfold lsmAt
  refine congrArg (fun s => (z (ix2 p q) - rowMax fun q' => z (ix2 p q')) - Ideal.log s) ?_
  refine Finset.sum_congr rfl fun k _ => ?_
  show Ideal.exp (z (ix2 p k) - broadcastTo ⟨2, ![R, N]⟩ (shapeCast ⟨2, ![R, 1]⟩
      (multiReduction .maximumf [1] ⟨1, ![R]⟩ z 0xFF800000#32 hred hφ hmax) hc1) hb1 (ix2 p k)) = _
  rw [hM k]

/-! ## The host's spelling -/

/-- The host's first product plus the bias broadcast twice, plus the second product, read at (p, q): the same three
    summands in another order. -/
theorem pre_of_dot {R K N : ℕ} (hN : N ≠ 1) (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (a x : FVec Ideal ⟨2, ![R, K]⟩ .f32) (Wl Wr : FVec Ideal ⟨2, ![K, N]⟩ .f32) (b : FVec Ideal ⟨1, ![N]⟩ .f32)
    (p : Fin R) (q : Fin N) :
    addf (addf (Host.dotGeneral d none a Wl)
        (broadcastInDim ⟨2, ![R, N]⟩ ![0, 1] h2 (broadcastInDim ⟨2, ![1, N]⟩ ![1] h1 b)))
      (Host.dotGeneral d none x Wr) (ix2 p q) = preAt a x Wl b Wr p q := by
  show Host.dotGeneral d none a Wl (ix2 p q)
      + broadcastInDim ⟨2, ![R, N]⟩ ![0, 1] h2 (broadcastInDim ⟨2, ![1, N]⟩ ![1] h1 b) (ix2 p q)
      + Host.dotGeneral d none x Wr (ix2 p q) = preAt a x Wl b Wr p q
  rw [Cert.LibMatmulRows.hostdot_rows d hrank hsize hl0 hl1 hr0 hr1 a Wl p q,
    Cert.LibMatmulRows.hostdot_rows d hrank hsize hl0 hl1 hr0 hr1 x Wr p q, Cert.LibBiasRows.bias_host hN b h1 h2 p q]
  exact add_right_comm _ _ _

/-- A maximum with a value the fold starts from changes nothing: the fold is at least its starting value. -/
theorem max_start_rowMax {N : ℕ} (z : Fin N → EReal) :
    max (Ideal.ofBits .f32 0xFF800000#32) (rowMax z) = rowMax z :=
  max_eq_right ((Finset.le_fold_max _).mpr (Or.inl le_rfl))

end Cert.Sage

end
-- ==== Proof.LibMoments.lean ====
/-
  GENERAL lemmas on the extended reals with the exact ("ideal") float operations: entries that are real
  numbers, the quotient by a nonzero real, a few float literals, and the two formulas for a variance.

  On the extended reals a difference of infinities is a junk value, so E[x²] − E[x]² and E[(x − E[x])²] agree
  only where the entries are real numbers. The predicate IsR x says "x is (the image of) a real number"; it is
  closed under the ring operations, finite sums, max, if-then-else and the quotient by a nonzero real, and on
  such entries every identity below is the identity of real numbers transported along the inclusion ℝ → EReal.
-/
import Mathlib.Data.EReal.Inv
import Mathlib.Analysis.SpecialFunctions.Pow.Real
import Mathlib.Algebra.BigOperators.Group.Finset.Basic
import Mathlib.Algebra.BigOperators.Fin
import Mathlib.Tactic.Ring
import Mathlib.Tactic.Linarith
import Mathlib.Tactic.FieldSimp
import Mathlib.Tactic.Positivity
import Idealize.ShloMosaic.PureOps.Ideal

noncomputable section

namespace Cert.LibMoments

open Idealize.ShloMosaic
open scoped BigOperators

/-! ## Entries that are real numbers -/

/-- The extended real x is a real number. -/
def IsR (x : EReal) : Prop := ∃ r : ℝ, x = (r : EReal)

theorem IsR.coe (r : ℝ) : IsR (r : EReal) := ⟨r, rfl⟩

theorem IsR_zero : IsR 0 := ⟨0, EReal.coe_zero.symm⟩

theorem IsR_one : IsR 1 := ⟨1, EReal.coe_one.symm⟩

theorem IsR.ne_top {x : EReal} (hx : IsR x) : x ≠ ⊤ := by
  obtain ⟨a, rfl⟩ := hx; exact EReal.coe_ne_top a

theorem IsR.ne_bot {x : EReal} (hx : IsR x) : x ≠ ⊥ := by
  obtain ⟨a, rfl⟩ := hx; exact EReal.coe_ne_bot a

theorem IsR.add {x y : EReal} (hx : IsR x) (hy : IsR y) : IsR (x + y) := by
  obtain ⟨a, rfl⟩ := hx; obtain ⟨b, rfl⟩ := hy; exact ⟨a + b, (EReal.coe_add a b).symm⟩

theorem IsR.neg {x : EReal} (hx : IsR x) : IsR (-x) := by
  obtain ⟨a, rfl⟩ := hx; exact ⟨-a, (EReal.coe_neg a).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

/-- The inclusion of the reals commutes with finite sums. -/
theorem coe_finset_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of real entries is a real entry. -/
theorem IsR.finset_sum {ι : Type*} (s : Finset ι) (f : ι → EReal) (h : ∀ i ∈ s, IsR (f i)) :
    IsR (∑ i ∈ s, f i) := by
  classical
  induction s using Finset.induction_on with
  | empty => simpa using IsR_zero
  | insert a s ha ih =>
    rw [Finset.sum_insert ha]
    exact (h a (Finset.mem_insert_self a s)).add (ih fun i hi => h i (Finset.mem_insert_of_mem hi))

theorem IsR.sum {ι : Type*} [Fintype ι] (f : ι → EReal) (h : ∀ i, IsR (f i)) : IsR (∑ i, f i) :=
  IsR.finset_sum Finset.univ f fun i _ => h i

theorem IsR.max {x y : EReal} (hx : IsR x) (hy : IsR y) : IsR (max x y) := by
  rcases le_total x y with h | h
  · rw [max_eq_right h]; exact hy
  · rw [max_eq_left h]; exact hx

theorem IsR.min {x y : EReal} (hx : IsR x) (hy : IsR y) : IsR (min x y) := by
  rcases le_total x y with h | h
  · rw [min_eq_left h]; exact hx
  · rw [min_eq_right h]; exact hy

theorem IsR.ite {p : Prop} [Decidable p] {x y : EReal} (hx : IsR x) (hy : IsR y) :
    IsR (if p then x else y) := by
  split
  · exact hx
  · exact hy

/-- The quotient of a real by a nonzero real, read as extended reals, is the real quotient. -/
theorem div_coe_coe (a b : ℝ) (hb : b ≠ 0) : Ideal.div (a : EReal) (b : EReal) = ((a / b : ℝ) : EReal) := by
  rw [Ideal.div_coe hb, ← EReal.coe_mul, mul_one_div]

theorem IsR.div_real {x : EReal} (hx : IsR x) (c : EReal) (hc : IsR c) (hc0 : c ≠ 0) : IsR (Ideal.div x c) := by
  obtain ⟨a, rfl⟩ := hx; obtain ⟨b, rfl⟩ := hc
  have hb : b ≠ 0 := fun h => hc0 (by rw [h, EReal.coe_zero])
  exact ⟨a / b, div_coe_coe a b hb⟩

/-! ## The quotient as a product with the reciprocal; max x 1 -/

/-- x * (1 / c) = x / c for every nonzero divisor, the infinities included. -/
theorem mul_one_div (x c : EReal) (hc : c ≠ 0) : x * Ideal.div 1 c = Ideal.div x c := by
  rw [Ideal.div, Ideal.div, if_neg hc, if_neg hc, one_mul]

theorem max_one_ne_zero (x : EReal) : max x 1 ≠ 0 :=
  ne_of_gt (lt_of_lt_of_le zero_lt_one (le_max_right x 1))

theorem isR_max_one {x : EReal} (hx : IsR x) : IsR (max x 1) := hx.max IsR_one

/-! ## Float literals -/

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_50000 : Ideal.ofBits .f32 0x47435000#32 = ((50000 : ℝ) : EReal) := by
  simp [Ideal.ofBits, Ideal.ieee, -EReal.coe_mul]; norm_num

theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-! ## The two formulas for a variance

  For real numbers x₁ … xₙ with mean m = (∑ x) / n:  (∑ (x − m)²) / n = (∑ x²) / n − m².
  Expand the square: ∑ (x − m)² = ∑ x² − 2 m ∑ x + n m², and ∑ x = n m. -/

/-- The identity on the reals, with the sum of the entries named S. -/
theorem real_variance (n : ℕ) (P : Fin n → ℝ) (N S : ℝ) (hn : (n : ℝ) = N) (hN : N ≠ 0) (hS : ∑ q, P q = S) :
    (∑ p, (P p - S / N) * (P p - S / N)) / N = (∑ p, P p * P p) / N - S / N * (S / N) := by
  have h1 : ∀ p, (P p - S / N) * (P p - S / N) = P p * P p - 2 * (S / N) * P p + S / N * (S / N) :=
    fun p => by ring
  simp only [h1]
  rw [Finset.sum_add_distrib, Finset.sum_sub_distrib, ← Finset.mul_sum, hS, Finset.sum_const, Finset.card_univ,
    Fintype.card_fin, nsmul_eq_mul, hn]
  field_simp
  ring

/-- The identity on the extended reals, for entries that are images of reals: the mean of the squared deviations
    from the mean is the mean of the squares minus the square of the mean. -/
theorem variance_coe (n : ℕ) (P : Fin n → ℝ) (N : ℝ) (hn : (n : ℝ) = N) (hN : N ≠ 0) :
    Ideal.div (∑ p, (((P p : ℝ) : EReal) - Ideal.div (∑ q, ((P q : ℝ) : EReal)) (N : EReal))
        * (((P p : ℝ) : EReal) - Ideal.div (∑ q, ((P q : ℝ) : EReal)) (N : EReal))) (N : EReal)
      = Ideal.div (∑ p, ((P p : ℝ) : EReal) * ((P p : ℝ) : EReal)) (N : EReal)
        - Ideal.div (∑ q, ((P q : ℝ) : EReal)) (N : EReal) * Ideal.div (∑ q, ((P q : ℝ) : EReal)) (N : EReal) := by
  have hμ : Ideal.div (∑ q, ((P q : ℝ) : EReal)) (N : EReal) = (((∑ q, P q) / N : ℝ) : EReal) := by
    rw [coe_finset_sum, div_coe_coe _ _ hN]
  rw [hμ]
  have hL : ∀ p, (((P p : ℝ) : EReal) - (((∑ q, P q) / N : ℝ) : EReal)) * (((P p : ℝ) : EReal) - (((∑ q, P q) / N : ℝ) : EReal))
      = (((P p - (∑ q, P q) / N) * (P p - (∑ q, P q) / N) : ℝ) : EReal) := fun p => by
    rw [← EReal.coe_sub, ← EReal.coe_mul]
  have hR : ∀ p, ((P p : ℝ) : EReal) * ((P p : ℝ) : EReal) = ((P p * P p : ℝ) : EReal) := fun p =>
    (EReal.coe_mul _ _).symm
  simp only [hL, hR]
  rw [coe_finset_sum, coe_finset_sum, div_coe_coe _ _ hN, div_coe_coe _ _ hN, ← EReal.coe_mul, ← EReal.coe_sub]
  exact congrArg _ (real_variance n P N _ hn hN rfl)

/-- The same for any family of extended reals every entry of which is a real number. -/
theorem variance_isR (n : ℕ) (X : Fin n → EReal) (hX : ∀ p, IsR (X p)) (N : ℝ) (hn : (n : ℝ) = N) (hN : N ≠ 0) :
    Ideal.div (∑ p, (X p - Ideal.div (∑ q, X q) (N : EReal)) * (X p - Ideal.div (∑ q, X q) (N : EReal))) (N : EReal)
      = Ideal.div (∑ p, X p * X p) (N : EReal)
        - Ideal.div (∑ q, X q) (N : EReal) * Ideal.div (∑ q, X q) (N : EReal) := by
  choose P hP using hX
  obtain rfl : X = fun p => ((P p : ℝ) : EReal) := funext hP
  exact variance_coe n P N hn hN

/-- The same with the divisor any extended real known to be the real N (a float literal, say). -/
theorem variance_isR_of_eq (n : ℕ) (X : Fin n → EReal) (hX : ∀ p, IsR (X p)) (c : EReal) (N : ℝ) (hc : c = (N : EReal))
    (hn : (n : ℝ) = N) (hN : N ≠ 0) :
    Ideal.div (∑ p, (X p - Ideal.div (∑ q, X q) c) * (X p - Ideal.div (∑ q, X q) c)) c
      = Ideal.div (∑ p, X p * X p) c - Ideal.div (∑ q, X q) c * Ideal.div (∑ q, X q) c := by
  subst hc; exact variance_isR n X hX N hn hN

/-! ## The reciprocal square root of a variance plus a positive real -/

/-- At a positive real the reciprocal square root is the real (√r)⁻¹. -/
theorem rsqrt_pos (r : ℝ) (hr : 0 < r) : Ideal.rsqrt (r : EReal) = (((Real.sqrt r)⁻¹ : ℝ) : EReal) := by
  rw [Ideal.rsqrt_coe, if_neg (not_lt.mpr hr.le), if_neg hr.ne']

/-- A mean of squares of reals over a positive N, plus a positive e, is a positive real; its reciprocal square
    root is a real. -/
theorem rsqrt_sq_mean_real (n : ℕ) (Y : Fin n → EReal) (hY : ∀ p, IsR (Y p)) (N : ℝ) (hN : 0 < N) (e : ℝ) (he : 0 < e) :
    IsR (Ideal.rsqrt (Ideal.div (∑ p, Y p * Y p) (N : EReal) + (e : EReal))) := by
  choose Q hQ using hY
  have hsum : ∑ p, Y p * Y p = ((∑ p, Q p * Q p : ℝ) : EReal) := by
    rw [← coe_finset_sum]
    exact Finset.sum_congr rfl fun p _ => by rw [hQ p, ← EReal.coe_mul]
  have hpos : 0 < (∑ p, Q p * Q p) / N + e :=
    add_pos_of_nonneg_of_pos (div_nonneg (Finset.sum_nonneg fun p _ => mul_self_nonneg _) hN.le) he
  rw [hsum, div_coe_coe _ _ hN.ne', ← EReal.coe_add, rsqrt_pos _ hpos]
  exact ⟨_, rfl⟩

/-- The reciprocal square root of (the mean squared deviation from the mean, plus a positive real) is a real. -/
theorem rsqrt_real (n : ℕ) (X : Fin n → EReal) (hX : ∀ p, IsR (X p)) (N : ℝ) (hN : 0 < N) (e : ℝ) (he : 0 < e) :
    IsR (Ideal.rsqrt (Ideal.div (∑ p, (X p - Ideal.div (∑ q, X q) (N : EReal)) * (X p - Ideal.div (∑ q, X q) (N : EReal)))
      (N : EReal) + (e : EReal))) :=
  rsqrt_sq_mean_real n _ (fun p => (hX p).sub ((IsR.sum X hX).div_real _ (IsR.coe N) (by exact_mod_cast hN.ne'))) N hN e he

end Cert.LibMoments

end
-- ==== Proof.Spec.lean ====
/-
  A three-layer graph isomorphism network with a mean-pooled classifier, as functions on extended reals.

  One layer sends node features h (R rows, H columns) and aggregated neighbour features a to
      rectifier( rectifier( (a + h) · W1 + b1 ) · W2 + b2 ),
  two rectified affine layers of the sum a + h. Row p of the result depends only on row p of a and of h, so a layer
  computed on a block of consecutive rows is that block of rows of the layer computed on the whole matrices.

  The classifier's logits are an affine layer after a rectified affine layer. Its log-softmax is written in two
  arrangements: z q - (m + log S) and (z q - m) - log S, where m is the row's maximum and S the row's sum of
  exp (z q' - m). On extended reals the two agree when m and log S are real numbers, which holds when every
  logit of the row is real: then m is one of them, S is a sum of real exponentials one of which is exp 0 = 1,
  and the logarithm of a real number that is at least 1 is real.
-/
import Idealize.ShloMosaic.PureOps.Ideal
import Idealize.ShloMosaic.PureOps.Ideal.Laws
import Idealize.ShloMosaic.Lib.ValueIdx
import proofs.«127708_j996432413502_1_alg».proof.Proof.LibDenseLayers
import proofs.«127708_j996432413502_1_alg».proof.Proof.LibSageLayers
import proofs.«127708_j996432413502_1_alg».proof.Proof.LibMoments

noncomputable section

namespace Cert.GinSpec

open Idealize.ShloMosaic Idealize.ShloMosaic.ValueIdx Cert.LibDenseLayers Cert.Sage
open scoped BigOperators

/-- One layer: two rectified affine layers of the sum of the aggregated and the node's own features. -/
def ginLayer {R H : ℕ} (a h : Mat R H) (w1 : Mat H H) (b1 : Vc H) (w2 : Mat H H) (b2 : Vc H) : Mat R H :=
  stage1 (stage1 (fun i => a i + h i) w1 b1) w2 b2

/-- Row p of a layer is row p' of the layer of other matrices whose row p' holds the same aggregated and own features. -/
theorem ginLayer_row {R R' H : ℕ} (a h : Mat R H) (a' h' : Mat R' H) (w1 : Mat H H) (b1 : Vc H) (w2 : Mat H H) (b2 : Vc H)
    (p : Fin R) (p' : Fin R') (ha : ∀ k : Fin H, a (ix2 p k) = a' (ix2 p' k)) (hh : ∀ k : Fin H, h (ix2 p k) = h' (ix2 p' k))
    (q : Fin H) : ginLayer a h w1 b1 w2 b2 (ix2 p q) = ginLayer a' h' w1 b1 w2 b2 (ix2 p' q) :=
  stage1_row _ _ w2 b2 p p' (fun k => stage1_row _ _ w1 b1 p p' (fun k' => by rw [ha k', hh k']) k) q

/-- The classifier's logits: an affine layer after a rectified affine layer. -/
def logits {G H C : ℕ} (p : Mat G H) (w1 : Mat H H) (b1 : Vc H) (w2 : Mat H C) (b2 : Vc C) : Mat G C :=
  affine (stage1 p w1 b1) w2 b2

/-- Log-softmax of a row in the arrangement z q - (m + log S). -/
def lsmK {C : ℕ} (z : Fin C → EReal) (q : Fin C) : EReal :=
  z q - (rowMax z + Ideal.log (∑ q' : Fin C, Ideal.exp (z q' - rowMax z)))

/-- The classifier with the log-softmax arranged as z q - (m + log S). -/
def clsK {G H C : ℕ} (p : Mat G H) (w1 : Mat H H) (b1 : Vc H) (w2 : Mat H C) (b2 : Vc C) : Mat G C :=
  fun i => lsmK (fun q => logits p w1 b1 w2 b2 (ix2 (i 0) q)) (i 1)

/-- The classifier with the log-softmax arranged as (z q - m) - log S. -/
def clsR {G H C : ℕ} (p : Mat G H) (w1 : Mat H H) (b1 : Vc H) (w2 : Mat H C) (b2 : Vc C) : Mat G C :=
  fun i => lsmAt (fun q => logits p w1 b1 w2 b2 (ix2 (i 0) q)) (i 1)

end Cert.GinSpec

end
-- ==== Proof.LibLsmColumn.lean ====
/-
  GENERAL LEMMA: a log-softmax over the lanes of a matrix, in the arrangement that subtracts ONE column from every
  entry — entry minus (row maximum plus logarithm of the row's sum of exponentials of entry minus row maximum) —
  read at an index on extended reals. The reductions run over the lane axis, their results are cast to a column,
  the column of maxima is laid back over the lanes for the inner subtraction, and the column
  (maximum + logarithm of the sum) is laid back over the lanes for the outer one. Nothing here mentions a program;
  the extents are arbitrary. No law of extended-real arithmetic is used, so no entry needs to be finite.
-/
import Idealize.ShloMosaic.PureOps.Ideal
import Idealize.ShloMosaic.PureOps.Ideal.Laws
import Idealize.ShloMosaic.Lib.ValueIdx
import proofs.«127708_j996432413502_1_alg».proof.Proof.LibLayout
import proofs.«127708_j996432413502_1_alg».proof.Proof.LibLaneMax
import proofs.«127708_j996432413502_1_alg».proof.Proof.LibSageLayers

noncomputable section

namespace Cert.LibLsmColumn

open Idealize.ShloMosaic Idealize.ShloMosaic.ValueIdx Cert.Sage
open scoped BigOperators

/-- Log-softmax of a row z at position q with one subtrahend: z q - (m + log (sum over q' of exp (z q' - m))),
    m the row's maximum folded from minus infinity. -/
def lsmColAt {N : ℕ} (z : Fin N → EReal) (q : Fin N) : EReal :=
  z q - (rowMax z + Ideal.log (∑ q' : Fin N, Ideal.exp (z q' - rowMax z)))

/-- The lane reductions, the column casts and the two lane broadcasts of that arrangement, read at (p, q). -/
theorem lsmCol_of_lanes {R N : ℕ} (z : FVec Ideal ⟨2, ![R, N]⟩ .f32)
    (hred : Shape.Reduces ⟨2, ![R, N]⟩ [1] ⟨1, ![R]⟩) (hc1 : (⟨1, ![R]⟩ : Shape).ShapeCasts ⟨2, ![R, 1]⟩)
    (hb1 : (⟨2, ![R, 1]⟩ : Shape).Broadcasts ⟨2, ![R, N]⟩) (hφ : FKind.Formats .f32)
    (hmax : (0xFF800000#32 : BitVec 32) = FKind.maximumf.neutral .f32 hφ)
    (hadd : (0x00000000#32 : BitVec 32) = FKind.add.neutral .f32 hφ) (p : Fin R) (q : Fin N) :
    subf z (broadcastTo ⟨2, ![R, N]⟩
        (addf (shapeCast ⟨2, ![R, 1]⟩ (multiReduction .maximumf [1] ⟨1, ![R]⟩ z 0xFF800000#32 hred hφ hmax) hc1)
          (log (shapeCast ⟨2, ![R, 1]⟩
            (multiReduction .add [1] ⟨1, ![R]⟩ (exp (subf z (broadcastTo ⟨2, ![R, N]⟩ (shapeCast ⟨2, ![R, 1]⟩
                (multiReduction .maximumf [1] ⟨1, ![R]⟩ z 0xFF800000#32 hred hφ hmax) hc1) hb1)))
              0x00000000#32 hred hφ hadd) hc1))) hb1) (ix2 p q)
      = lsmColAt (fun q' => z (ix2 p q')) q := by
  have hM : ∀ c : Fin N, broadcastTo ⟨2, ![R, N]⟩ (shapeCast ⟨2, ![R, 1]⟩
      (multiReduction .maximumf [1] ⟨1, ![R]⟩ z 0xFF800000#32 hred hφ hmax) hc1) hb1 (ix2 p c)
      = rowMax (fun q' => z (ix2 p q')) := fun c => by
    rw [Cert.LibLayout.broadcastTo_a1_ab_apply, Cert.LibLayout.shapeCast_a_a1_apply, Cert.LibLaneMax.laneMax_apply]
    rfl
  show z (ix2 p q) - broadcastTo ⟨2, ![R, N]⟩
        (addf (shapeCast ⟨2, ![R, 1]⟩ (multiReduction .maximumf [1] ⟨1, ![R]⟩ z 0xFF800000#32 hred hφ hmax) hc1)
          (log (shapeCast ⟨2, ![R, 1]⟩
            (multiReduction .add [1] ⟨1, ![R]⟩ (exp (subf z (broadcastTo ⟨2, ![R, N]⟩ (shapeCast ⟨2, ![R, 1]⟩
                (multiReduction .maximumf [1] ⟨1, ![R]⟩ z 0xFF800000#32 hred hφ hmax) hc1) hb1)))
              0x00000000#32 hred hφ hadd) hc1))) hb1 (ix2 p q) = _
  rw [Cert.LibLayout.broadcastTo_a1_ab_apply]
  show z (ix2 p q) - (shapeCast ⟨2, ![R, 1]⟩ (multiReduction .maximumf [1] ⟨1, ![R]⟩ z 0xFF800000#32 hred hφ hmax) hc1
        (ix2 p (0 : Fin 1))
      + Ideal.log (shapeCast ⟨2, ![R, 1]⟩
            (multiReduction .add [1] ⟨1, ![R]⟩ (exp (subf z (broadcastTo ⟨2, ![R, N]⟩ (shapeCast ⟨2, ![R, 1]⟩
                (multiReduction .maximumf [1] ⟨1, ![R]⟩ z 0xFF800000#32 hred hφ hmax) hc1) hb1)))
              0x00000000#32 hred hφ hadd) hc1 (ix2 p (0 : Fin 1)))) = _
  rw [Cert.LibLayout.shapeCast_a_a1_apply, Cert.LibLayout.shapeCast_a_a1_apply, Cert.LibLaneMax.laneMax_apply,
    Cert.LibLayout.laneSum_apply]
  unfold lsmColAt
  refine congrArg (fun s => z (ix2 p q) - (rowMax (fun q' => z (ix2 p q')) + Ideal.log s)) ?_
  refine Finset.sum_congr rfl fun k _ => ?_
  show Ideal.exp (z (ix2 p k) - broadcastTo ⟨2, ![R, N]⟩ (shapeCast ⟨2, ![R, 1]⟩
      (multiReduction .maximumf [1] ⟨1, ![R]⟩ z 0xFF800000#32 hred hφ hmax) hc1) hb1 (ix2 p k)) = _
  rw [hM k]

end Cert.LibLsmColumn

end
-- ==== Proof.KernelBody.lean ====
/-
  The four kernel bodies at the exact instance, as functions of the blocks they load.

  A layer's body adds the aggregated block to the node block, multiplies by the first weight matrix on the matrix
  unit into a zero accumulator, adds the first bias laid along the rows, rectifies, and does the same with the second
  weight matrix and bias: on extended reals, where narrowing a float format changes nothing, this is the layer of
  Spec on the block's rows. The classifier's body computes the logits the same way and then subtracts from every
  logit its row's (maximum + logarithm of the sum of exponentials of logit - maximum): the classifier of Spec in the
  arrangement with one subtrahend. The matrix unit's product is read as a sum over the contracted coordinate through
  four coordinate facts about each dimension record.
-/
import proofs.«127708_j996432413502_1_alg».proof.Proof.Gen.KernelIdeal.Skeleton
import proofs.«127708_j996432413502_1_alg».proof.Proof.Gen.KernelIdeal
import Idealize.ShloMosaic.Lib.Pipeline.Value
import Idealize.ShloMosaic.Lib.ValueIdx
import Idealize.ShloMosaic.Lib.ValueLayout
import proofs.«127708_j996432413502_1_alg».proof.Proof.Spec
import proofs.«127708_j996432413502_1_alg».proof.Proof.LibLsmColumn

noncomputable section

namespace Cert.KernelIdeal.Body

open Idealize.ShloMosaic Idealize.ShloMosaic.ValueIdx Idealize.SL.Sem Cert.KernelIdeal Cert.KernelIdeal.Facts₀ Cert.KernelIdeal.Facts
open Cert.LibDenseLayers Cert.Sage Cert.GinSpec
open scoped BigOperators

/-! ## The dimension records' coordinates -/

theorem d4000_l0 (i : S4000x128.Idx) (q : dot_S4000x128_S128x128_S4000x128_1_0_0_1_n_n.contr.Idx) : (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem d4000_l1 (i : S4000x128.Idx) (q : dot_S4000x128_S128x128_S4000x128_1_0_0_1_n_n.contr.Idx) : (dot_S4000x128_S128x128_S4000x128_1_0_0_1_n_n.lhsIdx i q 1).val = (q ⟨0, by decide⟩).val :=
  dot_S4000x128_S128x128_S4000x128_1_0_0_1_n_n.lhsIdx_val_of_single rfl i q
theorem d4000_r0 (i : S4000x128.Idx) (q : dot_S4000x128_S128x128_S4000x128_1_0_0_1_n_n.contr.Idx) : (dot_S4000x128_S128x128_S4000x128_1_0_0_1_n_n.rhsIdx i q 0).val = (q ⟨0, by decide⟩).val :=
  dot_S4000x128_S128x128_S4000x128_1_0_0_1_n_n.rhsIdx_val_of_single rfl i q
theorem d4000_r1 (i : S4000x128.Idx) (q : dot_S4000x128_S128x128_S4000x128_1_0_0_1_n_n.contr.Idx) : (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

theorem d512a_l0 (i : S512x128.Idx) (q : dot_S512x128_S128x128_S512x128_1_0_0_1_n_n.contr.Idx) : (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem d512a_l1 (i : S512x128.Idx) (q : dot_S512x128_S128x128_S512x128_1_0_0_1_n_n.contr.Idx) : (dot_S512x128_S128x128_S512x128_1_0_0_1_n_n.lhsIdx i q 1).val = (q ⟨0, by decide⟩).val :=
  dot_S512x128_S128x128_S512x128_1_0_0_1_n_n.lhsIdx_val_of_single rfl i q
theorem d512a_r0 (i : S512x128.Idx) (q : dot_S512x128_S128x128_S512x128_1_0_0_1_n_n.contr.Idx) : (dot_S512x128_S128x128_S512x128_1_0_0_1_n_n.rhsIdx i q 0).val = (q ⟨0, by decide⟩).val :=
  dot_S512x128_S128x128_S512x128_1_0_0_1_n_n.rhsIdx_val_of_single rfl i q
theorem d512a_r1 (i : S512x128.Idx) (q : dot_S512x128_S128x128_S512x128_1_0_0_1_n_n.contr.Idx) : (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

theorem d512b_l0 (i : S512x10.Idx) (q : dot_S512x128_S128x10_S512x10_1_0_0_1_n_n.contr.Idx) : (dot_S512x128_S128x10_S512x10_1_0_0_1_n_n.lhsIdx i q 0).val = (i 0).val := by
  unfold DotDims.lhsIdx
  rw [dif_neg (show ¬(0 : Fin S512x10.rank) ∈ dot_S512x128_S128x10_S512x10_1_0_0_1_n_n.lhsBatch by decide), dif_pos (show (0 : Fin S512x10.rank) ∈ dot_S512x128_S128x10_S512x10_1_0_0_1_n_n.lhsNonContracting by decide)]
  rfl
theorem d512b_l1 (i : S512x10.Idx) (q : dot_S512x128_S128x10_S512x10_1_0_0_1_n_n.contr.Idx) : (dot_S512x128_S128x10_S512x10_1_0_0_1_n_n.lhsIdx i q 1).val = (q ⟨0, by decide⟩).val :=
  dot_S512x128_S128x10_S512x10_1_0_0_1_n_n.lhsIdx_val_of_single rfl i q
theorem d512b_r0 (i : S512x10.Idx) (q : dot_S512x128_S128x10_S512x10_1_0_0_1_n_n.contr.Idx) : (dot_S512x128_S128x10_S512x10_1_0_0_1_n_n.rhsIdx i q 0).val = (q ⟨0, by decide⟩).val :=
  dot_S512x128_S128x10_S512x10_1_0_0_1_n_n.rhsIdx_val_of_single rfl i q
theorem d512b_r1 (i : S512x10.Idx) (q : dot_S512x128_S128x10_S512x10_1_0_0_1_n_n.contr.Idx) : (dot_S512x128_S128x10_S512x10_1_0_0_1_n_n.rhsIdx i q 1).val = (i 1).val := by
  unfold DotDims.rhsIdx
  rw [dif_neg (show ¬(1 : Fin S128x10.rank) ∈ dot_S512x128_S128x10_S512x10_1_0_0_1_n_n.rhsBatch by decide), dif_pos (show (1 : Fin S128x10.rank) ∈ dot_S512x128_S128x10_S512x10_1_0_0_1_n_n.rhsNonContracting by decide)]
  rfl

/-! ## The three layer bodies -/

/-- The body of layer 0's kernel on one block of rows: the layer of the block's aggregated and own features. -/
theorem pay_gin0 (a h : Vec Ideal S4000x128 .f32) (w1 : Vec Ideal S128x128 .f32) (b1 : Vec Ideal S128 .f32)
    (w2 : Vec Ideal S128x128 .f32) (b2 : Vec Ideal S128 .f32) :
    Gen.k0_pay1 (F := Ideal) a h w1 b1 w2 b2 = ginLayer a h w1 b1 w2 b2 := by
  unfold Gen.k0_pay1
  dsimp only
  simp only [shapeCast_self]
  rw [affine_of_matmul dot_S4000x128_S128x128_S4000x128_1_0_0_1_n_n rfl rfl d4000_l0 d4000_l1 d4000_r0 d4000_r1
      Gen.shapeCasts_S128_S1x128 Gen.broadcasts_S1x128_S4000x128 (truncf FTy.bf16 (addf a h) Gen.bitsLt_bf16_f32)
      (truncf FTy.bf16 w1 Gen.bitsLt_bf16_f32) b1]
  rw [affine_of_matmul dot_S4000x128_S128x128_S4000x128_1_0_0_1_n_n rfl rfl d4000_l0 d4000_l1 d4000_r0 d4000_r1
      Gen.shapeCasts_S128_S1x128 Gen.broadcasts_S1x128_S4000x128 _ (truncf FTy.bf16 w2 Gen.bitsLt_bf16_f32) b2]
  rfl

/-- The body of layer 1's kernel on one block of rows: the layer of the block's aggregated and own features. -/
theorem pay_gin1 (a h : Vec Ideal S4000x128 .f32) (w1 : Vec Ideal S128x128 .f32) (b1 : Vec Ideal S128 .f32)
    (w2 : Vec Ideal S128x128 .f32) (b2 : Vec Ideal S128 .f32) :
    Gen.k1_pay1 (F := Ideal) a h w1 b1 w2 b2 = ginLayer a h w1 b1 w2 b2 := by
  unfold Gen.k1_pay1
  dsimp only
  simp only [shapeCast_self]
  rw [affine_of_matmul dot_S4000x128_S128x128_S4000x128_1_0_0_1_n_n rfl rfl d4000_l0 d4000_l1 d4000_r0 d4000_r1
      Gen.shapeCasts_S128_S1x128 Gen.broadcasts_S1x128_S4000x128 (truncf FTy.bf16 (addf a h) Gen.bitsLt_bf16_f32)
      (truncf FTy.bf16 w1 Gen.bitsLt_bf16_f32) b1]
  rw [affine_of_matmul dot_S4000x128_S128x128_S4000x128_1_0_0_1_n_n rfl rfl d4000_l0 d4000_l1 d4000_r0 d4000_r1
      Gen.shapeCasts_S128_S1x128 Gen.broadcasts_S1x128_S4000x128 _ (truncf FTy.bf16 w2 Gen.bitsLt_bf16_f32) b2]
  rfl

/-- The body of layer 2's kernel on one block of rows: the layer of the block's aggregated and own features. -/
theorem pay_gin2 (a h : Vec Ideal S4000x128 .f32) (w1 : Vec Ideal S128x128 .f32) (b1 : Vec Ideal S128 .f32)
    (w2 : Vec Ideal S128x128 .f32) (b2 : Vec Ideal S128 .f32) :
    Gen.k2_pay1 (F := Ideal) a h w1 b1 w2 b2 = ginLayer a h w1 b1 w2 b2 := by
  unfold Gen.k2_pay1
  dsimp only
  simp only [shapeCast_self]
  rw [affine_of_matmul dot_S4000x128_S128x128_S4000x128_1_0_0_1_n_n rfl rfl d4000_l0 d4000_l1 d4000_r0 d4000_r1
      Gen.shapeCasts_S128_S1x128 Gen.broadcasts_S1x128_S4000x128 (truncf FTy.bf16 (addf a h) Gen.bitsLt_bf16_f32)
      (truncf FTy.bf16 w1 Gen.bitsLt_bf16_f32) b1]
  rw [affine_of_matmul dot_S4000x128_S128x128_S4000x128_1_0_0_1_n_n rfl rfl d4000_l0 d4000_l1 d4000_r0 d4000_r1
      Gen.shapeCasts_S128_S1x128 Gen.broadcasts_S1x128_S4000x128 _ (truncf FTy.bf16 w2 Gen.bitsLt_bf16_f32) b2]
  rfl

/-! ## The classifier's body -/

/-- The classifier's body on the whole pooled matrix: the classifier in the arrangement z - (m + log S). -/
theorem pay_cls (p : Vec Ideal S512x128 .f32) (w1 : Vec Ideal S128x128 .f32) (b1 : Vec Ideal S128 .f32)
    (w2 : Vec Ideal S128x10 .f32) (b2 : Vec Ideal S10 .f32) :
    Gen.k3_pay1 (F := Ideal) p w1 b1 w2 b2 = clsK p w1 b1 w2 b2 := by
  unfold Gen.k3_pay1
  dsimp only
  simp only [shapeCast_self]
  rw [affine_of_matmul dot_S512x128_S128x128_S512x128_1_0_0_1_n_n rfl rfl d512a_l0 d512a_l1 d512a_r0 d512a_r1
      Gen.shapeCasts_S128_S1x128 Gen.broadcasts_S1x128_S512x128 (truncf FTy.bf16 p Gen.bitsLt_bf16_f32)
      (truncf FTy.bf16 w1 Gen.bitsLt_bf16_f32) b1]
  rw [affine_of_matmul dot_S512x128_S128x10_S512x10_1_0_0_1_n_n rfl rfl d512b_l0 d512b_l1 d512b_r0 d512b_r1
      Gen.shapeCasts_S10_S1x10 Gen.broadcasts_S1x10_S512x10 _ (truncf FTy.bf16 w2 Gen.bitsLt_bf16_f32) b2]
  funext j
  obtain ⟨r, q, rfl⟩ : ∃ (r : Fin 512) (q : Fin 10), j = ix2 r q := ⟨j 0, j 1, eq_ix2 j⟩
  exact (Cert.LibLsmColumn.lsmCol_of_lanes _ Gen.reduces_S512x10_S512 Gen.shapeCasts_S512_S512x1
    Gen.broadcasts_S512x1_S512x10 (.inl rfl) rfl rfl r q).trans rfl

end Cert.KernelIdeal.Body

end
-- ==== Proof.KernelRegions.lean ====
/-
  What each of the four pipelines leaves in its output array, as one function of the arrays the region finds.

  A layer's pipeline walks 25 blocks of 4000 consecutive rows; at block t it loads rows 4000 t … 4000 t + 3999 of the
  aggregated and of the node features and the whole weight matrices and biases, and writes back the layer of
  Spec on those rows. A layer's row depends only on the same row of its two inputs, so every written block is the
  matching block of rows of the layer of the whole arrays, and the 25 blocks cover the array: the output array ends
  as the layer of the whole input arrays. The classifier's pipeline has one point whose blocks are the whole
  arrays, so its output array is the classifier of the pooled matrix, in the arrangement z - (m + log S).
-/
import proofs.«127708_j996432413502_1_alg».proof.Proof.Gen.KernelIdeal.Frame
import proofs.«127708_j996432413502_1_alg».proof.Proof.KernelBody
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GinSpec Cert.Sage

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- Row 4000 T + (row of y), same column: where entry y of block T of a 100000-row matrix sits in the matrix. -/
def rowsAt (T : ℕ) (hT : T < 25) (y : (⟨2, ![4000, 128]⟩ : Shape).Idx) : (⟨2, ![100000, 128]⟩ : Shape).Idx := fun a =>
  match a with
  | ⟨0, _⟩ => ⟨4000 * T + (y 0).val, by have h0 : (y 0).val < 4000 := (y 0).isLt; show 4000 * T + (y 0).val < 100000; omega⟩
  | ⟨1, _⟩ => ⟨(y 1).val, (y 1).isLt⟩

/-- The layer of block T of the aggregated and node features, with the whole weights and biases, is block T of
    the layer of the whole matrices: a layer's row depends only on the same row of its two inputs. -/
theorem layer_block (A Hh : Mat 100000 128) (W1 : Mat 128 128) (B1 : Vc 128) (W2 : Mat 128 128) (B2 : Vc 128)
    (a h : Mat 4000 128) (w1 : Mat 128 128) (b1 : Vc 128) (w2 : Mat 128 128) (b2 : Vc 128) (T : ℕ) (hT : T < 25)
    (ha : ∀ y, a y = A (rowsAt T hT y)) (hh : ∀ y, h y = Hh (rowsAt T hT y))
    (hw1 : w1 = W1) (hb1 : b1 = B1) (hw2 : w2 = W2) (hb2 : b2 = B2) (j : (⟨2, ![4000, 128]⟩ : Shape).Idx) :
    ginLayer a h w1 b1 w2 b2 j = ginLayer A Hh W1 B1 W2 B2 (rowsAt T hT j) := by
  subst hw1 hb1 hw2 hb2
  obtain ⟨p, q, rfl⟩ : ∃ (p : Fin 4000) (q : Fin 128), j = ix2 p q := ⟨j 0, j 1, eq_ix2 j⟩
  have hrow : ∀ k : Fin 128, rowsAt T hT (ix2 p k) = ix2 (⟨4000 * T + p.val, by have hp : p.val < 4000 := p.isLt; omega⟩ : Fin 100000) k :=
    fun k => Cert.LibMatmulRows.idx2_ext _ _ rfl rfl
  rw [hrow q]
  exact ginLayer_row a h A Hh w1 b1 w2 b2 p _ (fun k => by rw [ha, hrow k]) (fun k => by rw [hh, hrow k]) q

/-! ## Layer 0's pipeline -/

/-- The index maps of pipeline 0 over its 25 points: the row windows sit at block t, the weight and bias windows at block 0. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 ∧ win0_5.index t (0 : Fin 1) = 0
    ∧ win0_6.index t (0 : Fin 2) = t.val ∧ win0_6.index t (1 : Fin 2) = 0 :=
  (by decide +kernel : ∀ t : Fin grid0.N, _)

/-- What point t writes back is block t of the layer of the whole arrays the region finds. -/
theorem flushed0 (c : Dev nD) (t : Fin cfg0.N) :
    (dat0 (F := Ideal) V c).flushed 6 t = ((cfg0.win 6).blk t).view.read (Elt Ideal)
      (ginLayer (V c main_v16) (V c main_arg0) (V c main_v19) (V c main_v24) (V c main_v22) (V c main_v26)) := by
  show (cfg0.win 6).cut (grid0.coords t) ((dat0 (F := Ideal) V c).after 6 t) = _
  rw [after0_6]
  unfold out0_6
  rw [View.canon_unit_zero hz2]
  simp only [View.ld_unit_zero (S := S4000x128) hz2, View.ld_unit_zero (S := S128x128) hz2, View.ld_unit_zero (S := S128) hz1]
  rw [Cert.KernelIdeal.Body.pay_gin0]
  obtain ⟨e00, e01, e10, e11, e20, e21, e30, e31, e40, e50, e60, e61⟩ := idx0 t
  have ht : t.val < 25 := lt_of_lt_of_eq t.isLt N_0
  funext j
  show ginLayer (iblk0 V c 0 t) (iblk0 V c 1 t) (iblk0 V c 2 t) (iblk0 V c 4 t) (iblk0 V c 3 t) (iblk0 V c 5 t) j
    = ginLayer (V c main_v16) (V c main_arg0) (V c main_v19) (V c main_v24) (V c main_v22) (V c main_v26) (((cfg0.win 6).blk t).view.emb j)
  refine (layer_block (V c main_v16) (V c main_arg0) (V c main_v19) (V c main_v24) (V c main_v22) (V c main_v26)
    (iblk0 V c 0 t) (iblk0 V c 1 t) (iblk0 V c 2 t) (iblk0 V c 4 t) (iblk0 V c 3 t) (iblk0 V c 5 t) t.val ht
    (fun y => ?_) (fun y => ?_) (funext fun y => ?_) (funext fun y => ?_) (funext fun y => ?_) (funext fun y => ?_) j).trans ?_
  · show V c main_v16 (((cfg0.win 0).blk t).view.emb y) = V c main_v16 (rowsAt t.val ht y)
    refine congrArg _ (funext fun a => Fin.ext ?_)
    match a with
    | ⟨0, _⟩ => show win0_0.index t (0 : Fin 2) * 4000 + 1 * (y 0).val = 4000 * t.val + (y 0).val; omega
    | ⟨1, _⟩ => show win0_0.index t (1 : Fin 2) * 128 + 1 * (y 1).val = (y 1).val; omega
  · show V c main_arg0 (((cfg0.win 1).blk t).view.emb y) = V c main_arg0 (rowsAt t.val ht y)
    refine congrArg _ (funext fun a => Fin.ext ?_)
    match a with
    | ⟨0, _⟩ => show win0_1.index t (0 : Fin 2) * 4000 + 1 * (y 0).val = 4000 * t.val + (y 0).val; omega
    | ⟨1, _⟩ => show win0_1.index t (1 : Fin 2) * 128 + 1 * (y 1).val = (y 1).val; omega
  · show V c main_v19 (((cfg0.win 2).blk t).view.emb y) = V c main_v19 y
    refine congrArg _ (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  · show V c main_v24 (((cfg0.win 4).blk t).view.emb y) = V c main_v24 y
    refine congrArg _ (funext fun a => Fin.ext ?_)
    match a with
    | ⟨0, _⟩ => show win0_4.index t (0 : Fin 1) * 128 + 1 * (y 0).val = (y 0).val; omega
  · show V c main_v22 (((cfg0.win 3).blk t).view.emb y) = V c main_v22 y
    refine congrArg _ (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  · show V c main_v26 (((cfg0.win 5).blk t).view.emb y) = V c main_v26 y
    refine congrArg _ (funext fun a => Fin.ext ?_)
    match a with
    | ⟨0, _⟩ => show win0_5.index t (0 : Fin 1) * 128 + 1 * (y 0).val = (y 0).val; omega
  · refine congrArg _ (funext fun a => Fin.ext ?_)
    match a with
    | ⟨0, _⟩ => show 4000 * t.val + (j 0).val = win0_6.index t (0 : Fin 2) * 4000 + 1 * (j 0).val; omega
    | ⟨1, _⟩ => show (j 1).val = win0_6.index t (1 : Fin 2) * 128 + 1 * (j 1).val; omega

/-- An index of the output array is in point t's block iff each coordinate is in the block's range on its axis. -/
theorem mem_blk0 (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v27).slice (win0_6.rect t)).set ↔ _
  rw [View.set_slice_whole, Rect.mem_set_unit]
  exact Iff.rfl

/-- The output array after pipeline 0: the layer of the whole arrays the region finds. -/
theorem region0 (c : Dev nD) : (dat0 (F := Ideal) V c).arrAt 6 cfg0.N
    = ginLayer (V c main_v16) (V c main_arg0) (V c main_v19) (V c main_v24) (V c main_v22) (V c main_v26) :=
  (dat0 (F := Ideal) V c).arrAt_eq_of_cover 6 _ (fun t _ => flushed0 V c t) fun i => by
    have hi0 : (i 0).val < 100000 := (i 0).isLt
    have hi1 : (i 1).val < 128 := (i 1).isLt
    have hN : cfg0.N = 25 := N_0
    refine ⟨⟨(i 0).val / 4000, by rw [hN]; omega⟩, flush0_6 _, ?_⟩
    rw [mem_blk0]
    obtain ⟨-, -, -, -, -, -, -, -, -, -, e60, e61⟩ := idx0 ⟨(i 0).val / 4000, by rw [hN]; omega⟩
    intro a
    match a with
    | ⟨0, _⟩ => show win0_6.index _ (0 : Fin 2) * 4000 ≤ (i 0).val ∧ (i 0).val < win0_6.index _ (0 : Fin 2) * 4000 + 4000; rw [e60]; show (i 0).val / 4000 * 4000 ≤ (i 0).val ∧ (i 0).val < (i 0).val / 4000 * 4000 + 4000; omega
    | ⟨1, _⟩ => show win0_6.index _ (1 : Fin 2) * 128 ≤ (i 1).val ∧ (i 1).val < win0_6.index _ (1 : Fin 2) * 128 + 128; rw [e61]; omega

/-! ## Layer 1's pipeline -/

/-- The index maps of pipeline 1 over its 25 points: the row windows sit at block t, the weight and bias windows at block 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0 ∧ win1_5.index t (0 : Fin 1) = 0
    ∧ win1_6.index t (0 : Fin 2) = t.val ∧ win1_6.index t (1 : Fin 2) = 0 :=
  (by decide +kernel : ∀ t : Fin grid1.N, _)

/-- What point t writes back is block t of the layer of the whole arrays the region finds. -/
theorem flushed1 (c : Dev nD) (t : Fin cfg1.N) :
    (dat1 (F := Ideal) V c).flushed 6 t = ((cfg1.win 6).blk t).view.read (Elt Ideal)
      (ginLayer (V c main_v40) (V c main_v27) (V c main_v43) (V c main_v48) (V c main_v46) (V c main_v50)) := by
  show (cfg1.win 6).cut (grid1.coords t) ((dat1 (F := Ideal) V c).after 6 t) = _
  rw [after1_6]
  unfold out1_6
  rw [View.canon_unit_zero hz2]
  simp only [View.ld_unit_zero (S := S4000x128) hz2, View.ld_unit_zero (S := S128x128) hz2, View.ld_unit_zero (S := S128) hz1]
  rw [Cert.KernelIdeal.Body.pay_gin1]
  obtain ⟨e00, e01, e10, e11, e20, e21, e30, e31, e40, e50, e60, e61⟩ := idx1 t
  have ht : t.val < 25 := lt_of_lt_of_eq t.isLt N_1
  funext j
  show ginLayer (iblk1 V c 0 t) (iblk1 V c 1 t) (iblk1 V c 2 t) (iblk1 V c 4 t) (iblk1 V c 3 t) (iblk1 V c 5 t) j
    = ginLayer (V c main_v40) (V c main_v27) (V c main_v43) (V c main_v48) (V c main_v46) (V c main_v50) (((cfg1.win 6).blk t).view.emb j)
  refine (layer_block (V c main_v40) (V c main_v27) (V c main_v43) (V c main_v48) (V c main_v46) (V c main_v50)
    (iblk1 V c 0 t) (iblk1 V c 1 t) (iblk1 V c 2 t) (iblk1 V c 4 t) (iblk1 V c 3 t) (iblk1 V c 5 t) t.val ht
    (fun y => ?_) (fun y => ?_) (funext fun y => ?_) (funext fun y => ?_) (funext fun y => ?_) (funext fun y => ?_) j).trans ?_
  · show V c main_v40 (((cfg1.win 0).blk t).view.emb y) = V c main_v40 (rowsAt t.val ht y)
    refine congrArg _ (funext fun a => Fin.ext ?_)
    match a with
    | ⟨0, _⟩ => show win1_0.index t (0 : Fin 2) * 4000 + 1 * (y 0).val = 4000 * t.val + (y 0).val; omega
    | ⟨1, _⟩ => show win1_0.index t (1 : Fin 2) * 128 + 1 * (y 1).val = (y 1).val; omega
  · show V c main_v27 (((cfg1.win 1).blk t).view.emb y) = V c main_v27 (rowsAt t.val ht y)
    refine congrArg _ (funext fun a => Fin.ext ?_)
    match a with
    | ⟨0, _⟩ => show win1_1.index t (0 : Fin 2) * 4000 + 1 * (y 0).val = 4000 * t.val + (y 0).val; omega
    | ⟨1, _⟩ => show win1_1.index t (1 : Fin 2) * 128 + 1 * (y 1).val = (y 1).val; omega
  · show V c main_v43 (((cfg1.win 2).blk t).view.emb y) = V c main_v43 y
    refine congrArg _ (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  · show V c main_v48 (((cfg1.win 4).blk t).view.emb y) = V c main_v48 y
    refine congrArg _ (funext fun a => Fin.ext ?_)
    match a with
    | ⟨0, _⟩ => show win1_4.index t (0 : Fin 1) * 128 + 1 * (y 0).val = (y 0).val; omega
  · show V c main_v46 (((cfg1.win 3).blk t).view.emb y) = V c main_v46 y
    refine congrArg _ (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  · show V c main_v50 (((cfg1.win 5).blk t).view.emb y) = V c main_v50 y
    refine congrArg _ (funext fun a => Fin.ext ?_)
    match a with
    | ⟨0, _⟩ => show win1_5.index t (0 : Fin 1) * 128 + 1 * (y 0).val = (y 0).val; omega
  · refine congrArg _ (funext fun a => Fin.ext ?_)
    match a with
    | ⟨0, _⟩ => show 4000 * t.val + (j 0).val = win1_6.index t (0 : Fin 2) * 4000 + 1 * (j 0).val; omega
    | ⟨1, _⟩ => show (j 1).val = win1_6.index t (1 : Fin 2) * 128 + 1 * (j 1).val; omega

/-- An index of the output array is in point t's block iff each coordinate is in the block's range on its axis. -/
theorem mem_blk1 (t : Fin cfg1.N) (i : S100000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v51).slice (win1_6.rect t)).set ↔ _
  rw [View.set_slice_whole, Rect.mem_set_unit]
  exact Iff.rfl

/-- The output array after pipeline 1: the layer of the whole arrays the region finds. -/
theorem region1 (c : Dev nD) : (dat1 (F := Ideal) V c).arrAt 6 cfg1.N
    = ginLayer (V c main_v40) (V c main_v27) (V c main_v43) (V c main_v48) (V c main_v46) (V c main_v50) :=
  (dat1 (F := Ideal) V c).arrAt_eq_of_cover 6 _ (fun t _ => flushed1 V c t) fun i => by
    have hi0 : (i 0).val < 100000 := (i 0).isLt
    have hi1 : (i 1).val < 128 := (i 1).isLt
    have hN : cfg1.N = 25 := N_1
    refine ⟨⟨(i 0).val / 4000, by rw [hN]; omega⟩, flush1_6 _, ?_⟩
    rw [mem_blk1]
    obtain ⟨-, -, -, -, -, -, -, -, -, -, e60, e61⟩ := idx1 ⟨(i 0).val / 4000, by rw [hN]; omega⟩
    intro a
    match a with
    | ⟨0, _⟩ => show win1_6.index _ (0 : Fin 2) * 4000 ≤ (i 0).val ∧ (i 0).val < win1_6.index _ (0 : Fin 2) * 4000 + 4000; rw [e60]; show (i 0).val / 4000 * 4000 ≤ (i 0).val ∧ (i 0).val < (i 0).val / 4000 * 4000 + 4000; omega
    | ⟨1, _⟩ => show win1_6.index _ (1 : Fin 2) * 128 ≤ (i 1).val ∧ (i 1).val < win1_6.index _ (1 : Fin 2) * 128 + 128; rw [e61]; omega

/-! ## Layer 2's pipeline -/

/-- The index maps of pipeline 2 over its 25 points: the row windows sit at block t, the weight and bias windows at block 0. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0 ∧ win2_5.index t (0 : Fin 1) = 0
    ∧ win2_6.index t (0 : Fin 2) = t.val ∧ win2_6.index t (1 : Fin 2) = 0 :=
  (by decide +kernel : ∀ t : Fin grid2.N, _)

/-- What point t writes back is block t of the layer of the whole arrays the region finds. -/
theorem flushed2 (c : Dev nD) (t : Fin cfg2.N) :
    (dat2 (F := Ideal) V c).flushed 6 t = ((cfg2.win 6).blk t).view.read (Elt Ideal)
      (ginLayer (V c main_v64) (V c main_v51) (V c main_v67) (V c main_v72) (V c main_v70) (V c main_v74)) := by
  show (cfg2.win 6).cut (grid2.coords t) ((dat2 (F := Ideal) V c).after 6 t) = _
  rw [after2_6]
  unfold out2_6
  rw [View.canon_unit_zero hz2]
  simp only [View.ld_unit_zero (S := S4000x128) hz2, View.ld_unit_zero (S := S128x128) hz2, View.ld_unit_zero (S := S128) hz1]
  rw [Cert.KernelIdeal.Body.pay_gin2]
  obtain ⟨e00, e01, e10, e11, e20, e21, e30, e31, e40, e50, e60, e61⟩ := idx2 t
  have ht : t.val < 25 := lt_of_lt_of_eq t.isLt N_2
  funext j
  show ginLayer (iblk2 V c 0 t) (iblk2 V c 1 t) (iblk2 V c 2 t) (iblk2 V c 4 t) (iblk2 V c 3 t) (iblk2 V c 5 t) j
    = ginLayer (V c main_v64) (V c main_v51) (V c main_v67) (V c main_v72) (V c main_v70) (V c main_v74) (((cfg2.win 6).blk t).view.emb j)
  refine (layer_block (V c main_v64) (V c main_v51) (V c main_v67) (V c main_v72) (V c main_v70) (V c main_v74)
    (iblk2 V c 0 t) (iblk2 V c 1 t) (iblk2 V c 2 t) (iblk2 V c 4 t) (iblk2 V c 3 t) (iblk2 V c 5 t) t.val ht
    (fun y => ?_) (fun y => ?_) (funext fun y => ?_) (funext fun y => ?_) (funext fun y => ?_) (funext fun y => ?_) j).trans ?_
  · show V c main_v64 (((cfg2.win 0).blk t).view.emb y) = V c main_v64 (rowsAt t.val ht y)
    refine congrArg _ (funext fun a => Fin.ext ?_)
    match a with
    | ⟨0, _⟩ => show win2_0.index t (0 : Fin 2) * 4000 + 1 * (y 0).val = 4000 * t.val + (y 0).val; omega
    | ⟨1, _⟩ => show win2_0.index t (1 : Fin 2) * 128 + 1 * (y 1).val = (y 1).val; omega
  · show V c main_v51 (((cfg2.win 1).blk t).view.emb y) = V c main_v51 (rowsAt t.val ht y)
    refine congrArg _ (funext fun a => Fin.ext ?_)
    match a with
    | ⟨0, _⟩ => show win2_1.index t (0 : Fin 2) * 4000 + 1 * (y 0).val = 4000 * t.val + (y 0).val; omega
    | ⟨1, _⟩ => show win2_1.index t (1 : Fin 2) * 128 + 1 * (y 1).val = (y 1).val; omega
  · show V c main_v67 (((cfg2.win 2).blk t).view.emb y) = V c main_v67 y
    refine congrArg _ (funext fun a => Fin.ext ?_)
    match a with
    | ⟨0, _⟩ => show win2_2.index t (0 : Fin 2) * 128 + 1 * (y 0).val = (y 0).val; omega
    | ⟨1, _⟩ => show win2_2.index t (1 : Fin 2) * 128 + 1 * (y 1).val = (y 1).val; omega
  · show V c main_v72 (((cfg2.win 4).blk t).view.emb y) = V c main_v72 y
    refine congrArg _ (funext fun a => Fin.ext ?_)
    match a with
    | ⟨0, _⟩ => show win2_4.index t (0 : Fin 1) * 128 + 1 * (y 0).val = (y 0).val; omega
  · show V c main_v70 (((cfg2.win 3).blk t).view.emb y) = V c main_v70 y
    refine congrArg _ (funext fun a => Fin.ext ?_)
    match a with
    | ⟨0, _⟩ => show win2_3.index t (0 : Fin 2) * 128 + 1 * (y 0).val = (y 0).val; omega
    | ⟨1, _⟩ => show win2_3.index t (1 : Fin 2) * 128 + 1 * (y 1).val = (y 1).val; omega
  · show V c main_v74 (((cfg2.win 5).blk t).view.emb y) = V c main_v74 y
    refine congrArg _ (funext fun a => Fin.ext ?_)
    match a with
    | ⟨0, _⟩ => show win2_5.index t (0 : Fin 1) * 128 + 1 * (y 0).val = (y 0).val; omega
  · refine congrArg _ (funext fun a => Fin.ext ?_)
    match a with
    | ⟨0, _⟩ => show 4000 * t.val + (j 0).val = win2_6.index t (0 : Fin 2) * 4000 + 1 * (j 0).val; omega
    | ⟨1, _⟩ => show (j 1).val = win2_6.index t (1 : Fin 2) * 128 + 1 * (j 1).val; omega

/-- An index of the output array is in point t's block iff each coordinate is in the block's range on its axis. -/
theorem mem_blk2 (t : Fin cfg2.N) (i : S100000x128.Idx) :
    i ∈ ((cfg2.win 6).blk t).view.set ↔ ∀ a : Fin 2, win2_6.index t a * S4000x128.size a ≤ (i a).val ∧ (i a).val < win2_6.index t a * S4000x128.size a + S4000x128.size a := by
  show i ∈ ((View.whole main_v75).slice (win2_6.rect t)).set ↔ _
  rw [View.set_slice_whole, Rect.mem_set_unit]
  exact Iff.rfl

/-- The output array after pipeline 2: the layer of the whole arrays the region finds. -/
theorem region2 (c : Dev nD) : (dat2 (F := Ideal) V c).arrAt 6 cfg2.N
    = ginLayer (V c main_v64) (V c main_v51) (V c main_v67) (V c main_v72) (V c main_v70) (V c main_v74) :=
  (dat2 (F := Ideal) V c).arrAt_eq_of_cover 6 _ (fun t _ => flushed2 V c t) fun i => by
    have hi0 : (i 0).val < 100000 := (i 0).isLt
    have hi1 : (i 1).val < 128 := (i 1).isLt
    have hN : cfg2.N = 25 := N_2
    refine ⟨⟨(i 0).val / 4000, by rw [hN]; omega⟩, flush2_6 _, ?_⟩
    rw [mem_blk2]
    obtain ⟨-, -, -, -, -, -, -, -, -, -, e60, e61⟩ := idx2 ⟨(i 0).val / 4000, by rw [hN]; omega⟩
    intro a
    match a with
    | ⟨0, _⟩ => show win2_6.index _ (0 : Fin 2) * 4000 ≤ (i 0).val ∧ (i 0).val < win2_6.index _ (0 : Fin 2) * 4000 + 4000; rw [e60]; show (i 0).val / 4000 * 4000 ≤ (i 0).val ∧ (i 0).val < (i 0).val / 4000 * 4000 + 4000; omega
    | ⟨1, _⟩ => show win2_6.index _ (1 : Fin 2) * 128 ≤ (i 1).val ∧ (i 1).val < win2_6.index _ (1 : Fin 2) * 128 + 128; rw [e61]; omega

/-! ## The classifier's pipeline -/

/-- The index maps of the classifier's pipeline at its one point: every window at block 0. -/
theorem idx3 : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0 :=
  (by decide +kernel : ∀ t : Fin grid3.N, _)

/-- The classifier of blocks that are the whole arrays is the classifier of the arrays. -/
theorem cls_block (P : Mat 512 128) (W1 : Mat 128 128) (B1 : Vc 128) (W2 : Mat 128 10) (B2 : Vc 10)
    (p : Mat 512 128) (w1 : Mat 128 128) (b1 : Vc 128) (w2 : Mat 128 10) (b2 : Vc 10)
    (hp : p = P) (hw1 : w1 = W1) (hb1 : b1 = B1) (hw2 : w2 = W2) (hb2 : b2 = B2) (j : (⟨2, ![512, 10]⟩ : Shape).Idx) :
    clsK p w1 b1 w2 b2 j = clsK P W1 B1 W2 B2 j := by
  subst hp hw1 hb1 hw2 hb2; rfl

/-- What the one point writes back is the classifier of the whole arrays the region finds. -/
theorem flushed3 (c : Dev nD) (t : Fin cfg3.N) :
    (dat3 (F := Ideal) V c).flushed 5 t = ((cfg3.win 5).blk t).view.read (Elt Ideal)
      (clsK (V c main_v87) (V c main_v88) (V c main_arg9) (V c main_v89) (V c main_arg11)) := by
  show (cfg3.win 5).cut (grid3.coords t) ((dat3 (F := Ideal) V c).after 5 t) = _
  rw [after3_5]
  unfold out3_5
  rw [View.canon_unit_zero hz2]
  simp only [View.ld_unit_zero (S := S512x128) hz2, View.ld_unit_zero (S := S128x128) hz2, View.ld_unit_zero (S := S128) hz1,
    View.ld_unit_zero (S := S128x10) hz2, View.ld_unit_zero (S := S10) hz1]
  rw [Cert.KernelIdeal.Body.pay_cls]
  obtain ⟨e00, e01, e10, e11, e20, e30, e31, e40, e50, e51⟩ := idx3 t
  funext j
  show clsK (iblk3 V c 0 t) (iblk3 V c 1 t) (iblk3 V c 2 t) (iblk3 V c 3 t) (iblk3 V c 4 t) j
    = clsK (V c main_v87) (V c main_v88) (V c main_arg9) (V c main_v89) (V c main_arg11) (((cfg3.win 5).blk t).view.emb j)
  refine (cls_block (V c main_v87) (V c main_v88) (V c main_arg9) (V c main_v89) (V c main_arg11)
    (iblk3 V c 0 t) (iblk3 V c 1 t) (iblk3 V c 2 t) (iblk3 V c 3 t) (iblk3 V c 4 t)
    (funext fun y => ?_) (funext fun y => ?_) (funext fun y => ?_) (funext fun y => ?_) (funext fun y => ?_) j).trans ?_
  · show V c main_v87 (((cfg3.win 0).blk t).view.emb y) = V c main_v87 y
    refine congrArg _ (funext fun a => Fin.ext ?_)
    match a with
    | ⟨0, _⟩ => show win3_0.index t (0 : Fin 2) * 512 + 1 * (y 0).val = (y 0).val; omega
    | ⟨1, _⟩ => show win3_0.index t (1 : Fin 2) * 128 + 1 * (y 1).val = (y 1).val; omega
  · show V c main_v88 (((cfg3.win 1).blk t).view.emb y) = V c main_v88 y
    refine congrArg _ (funext fun a => Fin.ext ?_)
    match a with
    | ⟨0, _⟩ => show win3_1.index t (0 : Fin 2) * 128 + 1 * (y 0).val = (y 0).val; omega
    | ⟨1, _⟩ => show win3_1.index t (1 : Fin 2) * 128 + 1 * (y 1).val = (y 1).val; omega
  · show V c main_arg9 (((cfg3.win 2).blk t).view.emb y) = V c main_arg9 y
    refine congrArg _ (funext fun a => Fin.ext ?_)
    match a with
    | ⟨0, _⟩ => show win3_2.index t (0 : Fin 1) * 128 + 1 * (y 0).val = (y 0).val; omega
  · show V c main_v89 (((cfg3.win 3).blk t).view.emb y) = V c main_v89 y
    refine congrArg _ (funext fun a => Fin.ext ?_)
    match a with
    | ⟨0, _⟩ => show win3_3.index t (0 : Fin 2) * 128 + 1 * (y 0).val = (y 0).val; omega
    | ⟨1, _⟩ => show win3_3.index t (1 : Fin 2) * 10 + 1 * (y 1).val = (y 1).val; omega
  · show V c main_arg11 (((cfg3.win 4).blk t).view.emb y) = V c main_arg11 y
    refine congrArg _ (funext fun a => Fin.ext ?_)
    match a with
    | ⟨0, _⟩ => show win3_4.index t (0 : Fin 1) * 10 + 1 * (y 0).val = (y 0).val; omega
  · refine congrArg _ (funext fun a => Fin.ext ?_)
    match a with
    | ⟨0, _⟩ => show (j 0).val = win3_5.index t (0 : Fin 2) * 512 + 1 * (j 0).val; omega
    | ⟨1, _⟩ => show (j 1).val = win3_5.index t (1 : Fin 2) * 10 + 1 * (j 1).val; omega

/-- An index of the output array is in the one point's block iff each coordinate is in the block's range. -/
theorem mem_blk3 (t : Fin cfg3.N) (i : S512x10.Idx) :
    i ∈ ((cfg3.win 5).blk t).view.set ↔ ∀ a : Fin 2, win3_5.index t a * S512x10.size a ≤ (i a).val ∧ (i a).val < win3_5.index t a * S512x10.size a + S512x10.size a := by
  show i ∈ ((View.whole main_v90).slice (win3_5.rect t)).set ↔ _
  rw [View.set_slice_whole, Rect.mem_set_unit]
  exact Iff.rfl

/-- The output array after the classifier's pipeline: the classifier of the whole arrays the region finds. -/
theorem region3 (c : Dev nD) : (dat3 (F := Ideal) V c).arrAt 5 cfg3.N
    = clsK (V c main_v87) (V c main_v88) (V c main_arg9) (V c main_v89) (V c main_arg11) :=
  (dat3 (F := Ideal) V c).arrAt_eq_of_cover 5 _ (fun t _ => flushed3 V c t) fun i => by
    have hi0 : (i 0).val < 512 := (i 0).isLt
    have hi1 : (i 1).val < 10 := (i 1).isLt
    refine ⟨t3_0, flush3_5 _, ?_⟩
    rw [mem_blk3]
    obtain ⟨-, -, -, -, -, -, -, -, e50, e51⟩ := idx3 t3_0
    intro a
    match a with
    | ⟨0, _⟩ => show win3_5.index _ (0 : Fin 2) * 512 ≤ (i 0).val ∧ (i 0).val < win3_5.index _ (0 : Fin 2) * 512 + 512; rw [e50]; omega
    | ⟨1, _⟩ => show win3_5.index _ (1 : Fin 2) * 10 ≤ (i 1).val ∧ (i 1).val < win3_5.index _ (1 : Fin 2) * 10 + 10; rw [e51]; omega

end Cert.KernelIdeal.Regions

end
-- ==== Proof.Net.lean ====
/-
  The network of this certificate over its twelve argument arrays, spelt with the host operations both programs
  use for the irregular parts: the edge table's two rows, a source row wrapped by the node count where negative, the
  neighbour aggregation (gather the source rows, weight each by its edge, add into the target rows from zero), the
  slices of the stacked weights, and the mean pool over graphs (sum per graph divided by the larger of the graph's
  node count and one). The dense parts are the functions of Spec: three layers, then the classifier in either
  arrangement of its log-softmax.
-/
import proofs.«127708_j996432413502_1_alg».proof.KernelIdeal
import proofs.«127708_j996432413502_1_alg».proof.Proof.Spec

noncomputable section

namespace Cert.KernelIdeal.Net

open Idealize.ShloMosaic Idealize.SL.Sem Cert.KernelIdeal Cert.KernelIdeal.Facts₀ Cert.KernelIdeal.Facts Cert.GinSpec

variable [Cert.KernelIdeal.Facts]

/-- Float arrays and 32-bit integer arrays of a shape, at the exact instance. -/
abbrev CF (S : Shape) := (⟨S, .f32⟩ : BufTy).Contents (Elt Ideal)
abbrev CI (S : Shape) := (⟨S, .i32⟩ : BufTy).Contents (Elt Ideal)

/-- Row 0 of the edge table: the source of every edge. -/
def row0 (ei : CI S2x1600000) : CI S1600000 :=
  shapeCast _ (extractStridedSlice S1x1600000 ![0, 0] ei slices_S2x1600000_S1x1600000_0_0) shapeCasts_S1x1600000_S1600000

/-- Row 1 of the edge table: the target of every edge. -/
def row1 (ei : CI S2x1600000) : CI S1600000 :=
  shapeCast _ (extractStridedSlice S1x1600000 ![1, 0] ei slices_S2x1600000_S1x1600000_1_0) shapeCasts_S1x1600000_S1600000

/-- The sources with a negative entry wrapped by the node count. -/
def srcOf (ei : CI S2x1600000) : CI S1600000 :=
  select (cmpi .slt (row0 ei) (broadcastInDim S1600000 ![] bcast_S_S1600000 (constantI S_ 32 0#32)))
    (addi (row0 ei) (broadcastInDim S1600000 ![] bcast_S_S1600000 (constantI S_ 32 100000#32))) (row0 ei)

/-- Neighbour aggregation: the source rows of h, each weighted by its edge, added into the target rows from zero. -/
def aggOf (ei : CI S2x1600000) (ew : CF S1600000) (h : CF S100000x128) : CF S100000x128 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (row1 ei))
    (mulf (Host.gather gather_S100000x128_S1600000x1_S1600000x128_1_0_n_n_0_1_1128 h
        (broadcastInDim S1600000x1 ![0] bcast_S1600000_S1600000x1_0 (srcOf ei)))
      (broadcastInDim S1600000x128 ![0, 1] bcast_S1600000x1_S1600000x128_0_1
        (broadcastInDim S1600000x1 ![0] bcast_S1600000_S1600000x1_0 ew)))

/-- Layer l's weight matrix out of the stack, transposed. -/
def wT0 (w : CF S3x128x128) : CF S128x128 :=
  transpose S128x128 [1, 0] (shapeCast _ (extractStridedSlice S1x128x128 ![0, 0, 0] w slices_S3x128x128_S1x128x128_0_0_0)
    shapeCasts_S1x128x128_S128x128) transposes_S128x128_S128x128_1_0
def wT1 (w : CF S3x128x128) : CF S128x128 :=
  transpose S128x128 [1, 0] (shapeCast _ (extractStridedSlice S1x128x128 ![1, 0, 0] w slices_S3x128x128_S1x128x128_1_0_0)
    shapeCasts_S1x128x128_S128x128) transposes_S128x128_S128x128_1_0
def wT2 (w : CF S3x128x128) : CF S128x128 :=
  transpose S128x128 [1, 0] (shapeCast _ (extractStridedSlice S1x128x128 ![2, 0, 0] w slices_S3x128x128_S1x128x128_2_0_0)
    shapeCasts_S1x128x128_S128x128) transposes_S128x128_S128x128_1_0

/-- Layer l's bias out of the stack. -/
def bv0 (b : CF S3x128) : CF S128 :=
  shapeCast _ (extractStridedSlice S1x128 ![0, 0] b slices_S3x128_S1x128_0_0) shapeCasts_S1x128_S128
def bv1 (b : CF S3x128) : CF S128 :=
  shapeCast _ (extractStridedSlice S1x128 ![1, 0] b slices_S3x128_S1x128_1_0) shapeCasts_S1x128_S128
def bv2 (b : CF S3x128) : CF S128 :=
  shapeCast _ (extractStridedSlice S1x128 ![2, 0] b slices_S3x128_S1x128_2_0) shapeCasts_S1x128_S128

/-- The node features after one, two and three layers. -/
def h1 (x : CF S100000x128) (ei : CI S2x1600000) (ew : CF S1600000) (w1 : CF S3x128x128) (b1 : CF S3x128)
    (w2 : CF S3x128x128) (b2 : CF S3x128) : CF S100000x128 :=
  ginLayer (aggOf ei ew x) x (wT0 w1) (bv0 b1) (wT0 w2) (bv0 b2)
def h2 (x : CF S100000x128) (ei : CI S2x1600000) (ew : CF S1600000) (w1 : CF S3x128x128) (b1 : CF S3x128)
    (w2 : CF S3x128x128) (b2 : CF S3x128) : CF S100000x128 :=
  ginLayer (aggOf ei ew (h1 x ei ew w1 b1 w2 b2)) (h1 x ei ew w1 b1 w2 b2) (wT1 w1) (bv1 b1) (wT1 w2) (bv1 b2)
def h3 (x : CF S100000x128) (ei : CI S2x1600000) (ew : CF S1600000) (w1 : CF S3x128x128) (b1 : CF S3x128)
    (w2 : CF S3x128x128) (b2 : CF S3x128) : CF S100000x128 :=
  ginLayer (aggOf ei ew (h2 x ei ew w1 b1 w2 b2)) (h2 x ei ew w1 b1 w2 b2) (wT2 w1) (bv2 b1) (wT2 w2) (bv2 b2)

/-- Mean pool: per graph the sum of its nodes' rows divided by the larger of its node count and one. -/
def pooledOf (bt : CI S100000) (h : CF S100000x128) : CF S512x128 :=
  Host.divf
    (Host.scatterAdd scatter_S512x128_S100000x1_S100000x128_1_0_0_1
      (broadcastInDim S512x128 ![] bcast_S_S512x128 (constant (F := Ideal) S_ .f32 0x00000000#32))
      (broadcastInDim S100000x1 ![0] bcast_S100000_S100000x1_0 bt) h)
    (broadcastInDim S512x128 ![0, 1] bcast_S512x1_S512x128_0_1 (broadcastInDim S512x1 ![0] bcast_S512_S512x1_0
      (maximumf
        (Host.scatterAdd scatter_S512_S100000x1_S100000_n_0_0_1
          (broadcastInDim S512 ![] bcast_S_S512 (constant (F := Ideal) S_ .f32 0x00000000#32))
          (broadcastInDim S100000x1 ![0] bcast_S100000_S100000x1_0 bt)
          (broadcastInDim S100000 ![] bcast_S_S100000 (constant (F := Ideal) S_ .f32 0x3F800000#32)))
        (broadcastInDim S512 ![] bcast_S_S512 (constant (F := Ideal) S_ .f32 0x3F800000#32)))))

/-- The classifier's two weight matrices, transposed. -/
def lw1 (a : CF S128x128) : CF S128x128 := transpose S128x128 [1, 0] a transposes_S128x128_S128x128_1_0
def lw2 (a : CF S10x128) : CF S128x10 := transpose S128x10 [1, 0] a transposes_S10x128_S128x10_1_0

/-- The log-probabilities in the arrangement z - (m + log S). -/
def logpK (x : CF S100000x128) (ei : CI S2x1600000) (ew : CF S1600000) (bt : CI S100000) (w1 : CF S3x128x128)
    (b1 : CF S3x128) (w2 : CF S3x128x128) (b2 : CF S3x128) (a8 : CF S128x128) (a9 : CF S128) (a10 : CF S10x128)
    (a11 : CF S10) : CF S512x10 :=
  clsK (pooledOf bt (h3 x ei ew w1 b1 w2 b2)) (lw1 a8) a9 (lw2 a10) a11

/-- The log-probabilities in the arrangement (z - m) - log S. -/
def logpR (x : CF S100000x128) (ei : CI S2x1600000) (ew : CF S1600000) (bt : CI S100000) (w1 : CF S3x128x128)
    (b1 : CF S3x128) (w2 : CF S3x128x128) (b2 : CF S3x128) (a8 : CF S128x128) (a9 : CF S128) (a10 : CF S10x128)
    (a11 : CF S10) : CF S512x10 :=
  clsR (pooledOf bt (h3 x ei ew w1 b1 w2 b2)) (lw1 a8) a9 (lw2 a10) a11

end Cert.KernelIdeal.Net

end
-- ==== Proof.KernelValue.lean ====
/-
  The buffer contents of the program's run, threaded from the launch memory to its two results.

  The run alternates stretches of host operations with four pipelined regions. After each segment the contents of the
  buffers that later segments read are named in terms of the launch memory: a host stretch is a composition of
  array functions (the rows of the edge table, the neighbour aggregation, the slices of the stacked weights, the
  mean pool), a region leaves in its output array one layer (or the classifier) of the arrays it found, and every
  other buffer is untouched. The aggregation is recomputed in the later stretches from the edge table's two rows
  kept since the first stretch, which is the same function of the edge table. Composing the segments, the
  last layer's features are the network's third layer of the launch arrays and the log-probabilities are its
  classifier of them, in the arrangement z - (m + log S).
-/
import proofs.«127708_j996432413502_1_alg».proof.Proof.Gen.KernelIdeal.Frame
import proofs.«127708_j996432413502_1_alg».proof.Proof.KernelRegions
import proofs.«127708_j996432413502_1_alg».proof.Proof.Net
import Idealize.ShloMosaic.Lib.StableHlo.Run

set_option maxRecDepth 16384

noncomputable section

namespace Cert.KernelIdeal.ValueK

open Idealize.ShloMosaic Idealize.ShloMosaic.TcCoe Idealize.ShloMosaic.StableHlo Idealize.SL.Sem
open Cert.KernelIdeal Cert.KernelIdeal.Gen Cert.GinSpec

/-! ## Congruences for the dense functions and the aggregation stated from the edge table's two rows -/

theorem gin_congr {R H : ℕ} {a a' h h' : Cert.Sage.Mat R H} {w1 w1' w2 w2' : Cert.Sage.Mat H H} {b1 b1' b2 b2' : Cert.Sage.Vc H}
    (ea : a = a') (eh : h = h') (e1 : w1 = w1') (f1 : b1 = b1') (e2 : w2 = w2') (f2 : b2 = b2') :
    ginLayer a h w1 b1 w2 b2 = ginLayer a' h' w1' b1' w2' b2' := by
  rw [ea, eh, e1, f1, e2, f2]

theorem cls_congr {G H C : ℕ} {p p' : Cert.Sage.Mat G H} {w1 w1' : Cert.Sage.Mat H H} {b1 b1' : Cert.Sage.Vc H}
    {w2 w2' : Cert.Sage.Mat H C} {b2 b2' : Cert.Sage.Vc C}
    (ep : p = p') (e1 : w1 = w1') (f1 : b1 = b1') (e2 : w2 = w2') (f2 : b2 = b2') :
    clsK p w1 b1 w2 b2 = clsK p' w1' b1' w2' b2' := by
  rw [ep, e1, f1, e2, f2]

/-- The neighbour aggregation from the two rows of the edge table (sources r0, targets r1): the sources wrapped by the
    node count where negative, their rows of h gathered, each weighted by its edge, added into the target rows from zero. -/
def aggFrom (r0 r1 : Net.CI S1600000) (ew : Net.CF S1600000) (h : Net.CF S100000x128) : Net.CF S100000x128 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 r1)
    (mulf (Host.gather gather_S100000x128_S1600000x1_S1600000x128_1_0_n_n_0_1_1128 h
        (broadcastInDim S1600000x1 ![0] bcast_S1600000_S1600000x1_0
          (select (cmpi .slt r0 (broadcastInDim S1600000 ![] bcast_S_S1600000 (constantI S_ 32 0#32)))
            (addi r0 (broadcastInDim S1600000 ![] bcast_S_S1600000 (constantI S_ 32 100000#32))) r0)))
      (broadcastInDim S1600000x128 ![0, 1] bcast_S1600000x1_S1600000x128_0_1
        (broadcastInDim S1600000x1 ![0] bcast_S1600000_S1600000x1_0 ew)))

/-- From the rows of an edge table it is the aggregation of Net. -/
theorem aggFrom_congr {r0 r1 : Net.CI S1600000} {w : Net.CF S1600000} {h : Net.CF S100000x128} (ei : Net.CI S2x1600000)
    (ew : Net.CF S1600000) (h' : Net.CF S100000x128) (e0 : r0 = Net.row0 ei) (e1 : r1 = Net.row1 ei) (e2 : w = ew)
    (e3 : h = h') : aggFrom r0 r1 w h = Net.aggOf ei ew h' := by
  rw [e0, e1, e2, e3]; rfl

/-! ## Host stretch 0: what each buffer holds after it, from any contents W -/

section Stretch0
variable (W : Valuation τ sig (Elt Ideal))

theorem ops0_v1 : StableHlo.after (hostOps0 (F := Ideal)) W (Proc.devRef .tc main_v1) = Net.row0 (W (Proc.devRef .tc main_arg1)) := by
  after_results_simp
  rfl
theorem ops0_v3 : StableHlo.after (hostOps0 (F := Ideal)) W (Proc.devRef .tc main_v3) = Net.row1 (W (Proc.devRef .tc main_arg1)) := by
  after_results_simp
  rfl
theorem ops0_v16 : StableHlo.after (hostOps0 (F := Ideal)) W (Proc.devRef .tc main_v16) = Net.aggOf (W (Proc.devRef .tc main_arg1)) (W (Proc.devRef .tc main_arg2)) (W (Proc.devRef .tc main_arg0)) := by
  after_results_simp
  rfl
theorem ops0_v19 : StableHlo.after (hostOps0 (F := Ideal)) W (Proc.devRef .tc main_v19) = Net.wT0 (W (Proc.devRef .tc main_arg4)) := by
  after_results_simp
  rfl
theorem ops0_v22 : StableHlo.after (hostOps0 (F := Ideal)) W (Proc.devRef .tc main_v22) = Net.wT0 (W (Proc.devRef .tc main_arg6)) := by
  after_results_simp
  rfl
theorem ops0_v24 : StableHlo.after (hostOps0 (F := Ideal)) W (Proc.devRef .tc main_v24) = Net.bv0 (W (Proc.devRef .tc main_arg5)) := by
  after_results_simp
  rfl
theorem ops0_v26 : StableHlo.after (hostOps0 (F := Ideal)) W (Proc.devRef .tc main_v26) = Net.bv0 (W (Proc.devRef .tc main_arg7)) := by
  after_results_simp
  rfl
theorem ops0_arg0 : StableHlo.after (hostOps0 (F := Ideal)) W (Proc.devRef .tc main_arg0) = W (Proc.devRef .tc main_arg0) := by
  after_results_simp
theorem ops0_arg2 : StableHlo.after (hostOps0 (F := Ideal)) W (Proc.devRef .tc main_arg2) = W (Proc.devRef .tc main_arg2) := by
  after_results_simp
theorem ops0_arg3 : StableHlo.after (hostOps0 (F := Ideal)) W (Proc.devRef .tc main_arg3) = W (Proc.devRef .tc main_arg3) := by
  after_results_simp
theorem ops0_arg4 : StableHlo.after (hostOps0 (F := Ideal)) W (Proc.devRef .tc main_arg4) = W (Proc.devRef .tc main_arg4) := by
  after_results_simp
theorem ops0_arg5 : StableHlo.after (hostOps0 (F := Ideal)) W (Proc.devRef .tc main_arg5) = W (Proc.devRef .tc main_arg5) := by
  after_results_simp
theorem ops0_arg6 : StableHlo.after (hostOps0 (F := Ideal)) W (Proc.devRef .tc main_arg6) = W (Proc.devRef .tc main_arg6) := by
  after_results_simp
theorem ops0_arg7 : StableHlo.after (hostOps0 (F := Ideal)) W (Proc.devRef .tc main_arg7) = W (Proc.devRef .tc main_arg7) := by
  after_results_simp
theorem ops0_arg8 : StableHlo.after (hostOps0 (F := Ideal)) W (Proc.devRef .tc main_arg8) = W (Proc.devRef .tc main_arg8) := by
  after_results_simp
theorem ops0_arg9 : StableHlo.after (hostOps0 (F := Ideal)) W (Proc.devRef .tc main_arg9) = W (Proc.devRef .tc main_arg9) := by
  after_results_simp
theorem ops0_arg10 : StableHlo.after (hostOps0 (F := Ideal)) W (Proc.devRef .tc main_arg10) = W (Proc.devRef .tc main_arg10) := by
  after_results_simp
theorem ops0_arg11 : StableHlo.after (hostOps0 (F := Ideal)) W (Proc.devRef .tc main_arg11) = W (Proc.devRef .tc main_arg11) := by
  after_results_simp

end Stretch0

/-! ## Host stretch 1: what each buffer holds after it, from any contents W -/

section Stretch1
variable (W : Valuation τ sig (Elt Ideal))

theorem ops1_v40 : StableHlo.after (hostOps1 (F := Ideal)) W (Proc.devRef .tc main_v40) = aggFrom (W (Proc.devRef .tc main_v1)) (W (Proc.devRef .tc main_v3)) (W (Proc.devRef .tc main_arg2)) (W (Proc.devRef .tc main_v27)) := by
  after_results_simp
  rfl
theorem ops1_v43 : StableHlo.after (hostOps1 (F := Ideal)) W (Proc.devRef .tc main_v43) = Net.wT1 (W (Proc.devRef .tc main_arg4)) := by
  after_results_simp
  rfl
theorem ops1_v46 : StableHlo.after (hostOps1 (F := Ideal)) W (Proc.devRef .tc main_v46) = Net.wT1 (W (Proc.devRef .tc main_arg6)) := by
  after_results_simp
  rfl
theorem ops1_v48 : StableHlo.after (hostOps1 (F := Ideal)) W (Proc.devRef .tc main_v48) = Net.bv1 (W (Proc.devRef .tc main_arg5)) := by
  after_results_simp
  rfl
theorem ops1_v50 : StableHlo.after (hostOps1 (F := Ideal)) W (Proc.devRef .tc main_v50) = Net.bv1 (W (Proc.devRef .tc main_arg7)) := by
  after_results_simp
  rfl
theorem ops1_v27 : StableHlo.after (hostOps1 (F := Ideal)) W (Proc.devRef .tc main_v27) = W (Proc.devRef .tc main_v27) := by
  after_results_simp
theorem ops1_v1 : StableHlo.after (hostOps1 (F := Ideal)) W (Proc.devRef .tc main_v1) = W (Proc.devRef .tc main_v1) := by
  after_results_simp
theorem ops1_v3 : StableHlo.after (hostOps1 (F := Ideal)) W (Proc.devRef .tc main_v3) = W (Proc.devRef .tc main_v3) := by
  after_results_simp
theorem ops1_arg2 : StableHlo.after (hostOps1 (F := Ideal)) W (Proc.devRef .tc main_arg2) = W (Proc.devRef .tc main_arg2) := by
  after_results_simp
theorem ops1_arg3 : StableHlo.after (hostOps1 (F := Ideal)) W (Proc.devRef .tc main_arg3) = W (Proc.devRef .tc main_arg3) := by
  after_results_simp
theorem ops1_arg4 : StableHlo.after (hostOps1 (F := Ideal)) W (Proc.devRef .tc main_arg4) = W (Proc.devRef .tc main_arg4) := by
  after_results_simp
theorem ops1_arg5 : StableHlo.after (hostOps1 (F := Ideal)) W (Proc.devRef .tc main_arg5) = W (Proc.devRef .tc main_arg5) := by
  after_results_simp
theorem ops1_arg6 : StableHlo.after (hostOps1 (F := Ideal)) W (Proc.devRef .tc main_arg6) = W (Proc.devRef .tc main_arg6) := by
  after_results_simp
theorem ops1_arg7 : StableHlo.after (hostOps1 (F := Ideal)) W (Proc.devRef .tc main_arg7) = W (Proc.devRef .tc main_arg7) := by
  after_results_simp
theorem ops1_arg8 : StableHlo.after (hostOps1 (F := Ideal)) W (Proc.devRef .tc main_arg8) = W (Proc.devRef .tc main_arg8) := by
  after_results_simp
theorem ops1_arg9 : StableHlo.after (hostOps1 (F := Ideal)) W (Proc.devRef .tc main_arg9) = W (Proc.devRef .tc main_arg9) := by
  after_results_simp
theorem ops1_arg10 : StableHlo.after (hostOps1 (F := Ideal)) W (Proc.devRef .tc main_arg10) = W (Proc.devRef .tc main_arg10) := by
  after_results_simp
theorem ops1_arg11 : StableHlo.after (hostOps1 (F := Ideal)) W (Proc.devRef .tc main_arg11) = W (Proc.devRef .tc main_arg11) := by
  after_results_simp

end Stretch1

/-! ## Host stretch 2: what each buffer holds after it, from any contents W -/

section Stretch2
variable (W : Valuation τ sig (Elt Ideal))

theorem ops2_v64 : StableHlo.after (hostOps2 (F := Ideal)) W (Proc.devRef .tc main_v64) = aggFrom (W (Proc.devRef .tc main_v1)) (W (Proc.devRef .tc main_v3)) (W (Proc.devRef .tc main_arg2)) (W (Proc.devRef .tc main_v51)) := by
  after_results_simp
  rfl
theorem ops2_v67 : StableHlo.after (hostOps2 (F := Ideal)) W (Proc.devRef .tc main_v67) = Net.wT2 (W (Proc.devRef .tc main_arg4)) := by
  after_results_simp
  rfl
theorem ops2_v70 : StableHlo.after (hostOps2 (F := Ideal)) W (Proc.devRef .tc main_v70) = Net.wT2 (W (Proc.devRef .tc main_arg6)) := by
  after_results_simp
  rfl
theorem ops2_v72 : StableHlo.after (hostOps2 (F := Ideal)) W (Proc.devRef .tc main_v72) = Net.bv2 (W (Proc.devRef .tc main_arg5)) := by
  after_results_simp
  rfl
theorem ops2_v74 : StableHlo.after (hostOps2 (F := Ideal)) W (Proc.devRef .tc main_v74) = Net.bv2 (W (Proc.devRef .tc main_arg7)) := by
  after_results_simp
  rfl
theorem ops2_v51 : StableHlo.after (hostOps2 (F := Ideal)) W (Proc.devRef .tc main_v51) = W (Proc.devRef .tc main_v51) := by
  after_results_simp
theorem ops2_arg3 : StableHlo.after (hostOps2 (F := Ideal)) W (Proc.devRef .tc main_arg3) = W (Proc.devRef .tc main_arg3) := by
  after_results_simp
theorem ops2_arg8 : StableHlo.after (hostOps2 (F := Ideal)) W (Proc.devRef .tc main_arg8) = W (Proc.devRef .tc main_arg8) := by
  after_results_simp
theorem ops2_arg9 : StableHlo.after (hostOps2 (F := Ideal)) W (Proc.devRef .tc main_arg9) = W (Proc.devRef .tc main_arg9) := by
  after_results_simp
theorem ops2_arg10 : StableHlo.after (hostOps2 (F := Ideal)) W (Proc.devRef .tc main_arg10) = W (Proc.devRef .tc main_arg10) := by
  after_results_simp
theorem ops2_arg11 : StableHlo.after (hostOps2 (F := Ideal)) W (Proc.devRef .tc main_arg11) = W (Proc.devRef .tc main_arg11) := by
  after_results_simp

end Stretch2

/-! ## Host stretch 3: what each buffer holds after it, from any contents W -/

section Stretch3
variable (W : Valuation τ sig (Elt Ideal))

theorem ops3_v87 : StableHlo.after (hostOps3 (F := Ideal)) W (Proc.devRef .tc main_v87) = Net.pooledOf (W (Proc.devRef .tc main_arg3)) (W (Proc.devRef .tc main_v75)) := by
  after_results_simp
  rfl
theorem ops3_v88 : StableHlo.after (hostOps3 (F := Ideal)) W (Proc.devRef .tc main_v88) = Net.lw1 (W (Proc.devRef .tc main_arg8)) := by
  after_results_simp
  rfl
theorem ops3_v89 : StableHlo.after (hostOps3 (F := Ideal)) W (Proc.devRef .tc main_v89) = Net.lw2 (W (Proc.devRef .tc main_arg10)) := by
  after_results_simp
  rfl
theorem ops3_v75 : StableHlo.after (hostOps3 (F := Ideal)) W (Proc.devRef .tc main_v75) = W (Proc.devRef .tc main_v75) := by
  after_results_simp
theorem ops3_arg9 : StableHlo.after (hostOps3 (F := Ideal)) W (Proc.devRef .tc main_arg9) = W (Proc.devRef .tc main_arg9) := by
  after_results_simp
theorem ops3_arg11 : StableHlo.after (hostOps3 (F := Ideal)) W (Proc.devRef .tc main_arg11) = W (Proc.devRef .tc main_arg11) := by
  after_results_simp

end Stretch3

/-! ## The fold, boundary by boundary: what each buffer the later segments read holds, in terms of the launch memory -/

section Run
variable (m : (ℓ : Loc nD τ sig) → Buf (Elt Ideal) ℓ) (ρ : Dev nD → PrngReg) (c : Dev nD)

/-! ### After stretch 0 -/

theorem w1_arg0 : W1 m ρ c (Proc.devRef .tc main_arg0) = (m ((c : Thread nD τ).loc main_arg0)) :=
  ops0_arg0 _

theorem w1_arg2 : W1 m ρ c (Proc.devRef .tc main_arg2) = (m ((c : Thread nD τ).loc main_arg2)) :=
  ops0_arg2 _

theorem w1_arg3 : W1 m ρ c (Proc.devRef .tc main_arg3) = (m ((c : Thread nD τ).loc main_arg3)) :=
  ops0_arg3 _

theorem w1_arg4 : W1 m ρ c (Proc.devRef .tc main_arg4) = (m ((c : Thread nD τ).loc main_arg4)) :=
  ops0_arg4 _

theorem w1_arg5 : W1 m ρ c (Proc.devRef .tc main_arg5) = (m ((c : Thread nD τ).loc main_arg5)) :=
  ops0_arg5 _

theorem w1_arg6 : W1 m ρ c (Proc.devRef .tc main_arg6) = (m ((c : Thread nD τ).loc main_arg6)) :=
  ops0_arg6 _

theorem w1_arg7 : W1 m ρ c (Proc.devRef .tc main_arg7) = (m ((c : Thread nD τ).loc main_arg7)) :=
  ops0_arg7 _

theorem w1_arg8 : W1 m ρ c (Proc.devRef .tc main_arg8) = (m ((c : Thread nD τ).loc main_arg8)) :=
  ops0_arg8 _

theorem w1_arg9 : W1 m ρ c (Proc.devRef .tc main_arg9) = (m ((c : Thread nD τ).loc main_arg9)) :=
  ops0_arg9 _

theorem w1_arg10 : W1 m ρ c (Proc.devRef .tc main_arg10) = (m ((c : Thread nD τ).loc main_arg10)) :=
  ops0_arg10 _

theorem w1_arg11 : W1 m ρ c (Proc.devRef .tc main_arg11) = (m ((c : Thread nD τ).loc main_arg11)) :=
  ops0_arg11 _

theorem w1_v1 : W1 m ρ c (Proc.devRef .tc main_v1) = Net.row0 (m ((c : Thread nD τ).loc main_arg1)) :=
  ops0_v1 _

theorem w1_v3 : W1 m ρ c (Proc.devRef .tc main_v3) = Net.row1 (m ((c : Thread nD τ).loc main_arg1)) :=
  ops0_v3 _

theorem w1_v16 : W1 m ρ c (Proc.devRef .tc main_v16) = Net.aggOf (m ((c : Thread nD τ).loc main_arg1)) (m ((c : Thread nD τ).loc main_arg2)) (m ((c : Thread nD τ).loc main_arg0)) :=
  ops0_v16 _

theorem w1_v19 : W1 m ρ c (Proc.devRef .tc main_v19) = Net.wT0 (m ((c : Thread nD τ).loc main_arg4)) :=
  ops0_v19 _

theorem w1_v22 : W1 m ρ c (Proc.devRef .tc main_v22) = Net.wT0 (m ((c : Thread nD τ).loc main_arg6)) :=
  ops0_v22 _

theorem w1_v24 : W1 m ρ c (Proc.devRef .tc main_v24) = Net.bv0 (m ((c : Thread nD τ).loc main_arg5)) :=
  ops0_v24 _

theorem w1_v26 : W1 m ρ c (Proc.devRef .tc main_v26) = Net.bv0 (m ((c : Thread nD τ).loc main_arg7)) :=
  ops0_v26 _

/-! ### After region 0 -/

theorem w2_v27 : W2 m ρ c (Proc.devRef .tc main_v27) = (Net.h1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) := by
  refine ((W2_arr m ρ c 6).trans (Regions.region0 (V1 m ρ) c)).trans ?_
  unfold Net.h1
  exact gin_congr (w1_v16 m ρ c) (w1_arg0 m ρ c) (w1_v19 m ρ c) (w1_v24 m ρ c) (w1_v22 m ρ c) (w1_v26 m ρ c)

theorem w2_v1 : W2 m ρ c (Proc.devRef .tc main_v1) = Net.row0 (m ((c : Thread nD τ).loc main_arg1)) :=
  (W2_of_ne m ρ c main_v1 (by decide)).trans (w1_v1 m ρ c)

theorem w2_v3 : W2 m ρ c (Proc.devRef .tc main_v3) = Net.row1 (m ((c : Thread nD τ).loc main_arg1)) :=
  (W2_of_ne m ρ c main_v3 (by decide)).trans (w1_v3 m ρ c)

theorem w2_arg2 : W2 m ρ c (Proc.devRef .tc main_arg2) = (m ((c : Thread nD τ).loc main_arg2)) :=
  (W2_of_ne m ρ c main_arg2 (by decide)).trans (w1_arg2 m ρ c)

theorem w2_arg3 : W2 m ρ c (Proc.devRef .tc main_arg3) = (m ((c : Thread nD τ).loc main_arg3)) :=
  (W2_of_ne m ρ c main_arg3 (by decide)).trans (w1_arg3 m ρ c)

theorem w2_arg4 : W2 m ρ c (Proc.devRef .tc main_arg4) = (m ((c : Thread nD τ).loc main_arg4)) :=
  (W2_of_ne m ρ c main_arg4 (by decide)).trans (w1_arg4 m ρ c)

theorem w2_arg5 : W2 m ρ c (Proc.devRef .tc main_arg5) = (m ((c : Thread nD τ).loc main_arg5)) :=
  (W2_of_ne m ρ c main_arg5 (by decide)).trans (w1_arg5 m ρ c)

theorem w2_arg6 : W2 m ρ c (Proc.devRef .tc main_arg6) = (m ((c : Thread nD τ).loc main_arg6)) :=
  (W2_of_ne m ρ c main_arg6 (by decide)).trans (w1_arg6 m ρ c)

theorem w2_arg7 : W2 m ρ c (Proc.devRef .tc main_arg7) = (m ((c : Thread nD τ).loc main_arg7)) :=
  (W2_of_ne m ρ c main_arg7 (by decide)).trans (w1_arg7 m ρ c)

theorem w2_arg8 : W2 m ρ c (Proc.devRef .tc main_arg8) = (m ((c : Thread nD τ).loc main_arg8)) :=
  (W2_of_ne m ρ c main_arg8 (by decide)).trans (w1_arg8 m ρ c)

theorem w2_arg9 : W2 m ρ c (Proc.devRef .tc main_arg9) = (m ((c : Thread nD τ).loc main_arg9)) :=
  (W2_of_ne m ρ c main_arg9 (by decide)).trans (w1_arg9 m ρ c)

theorem w2_arg10 : W2 m ρ c (Proc.devRef .tc main_arg10) = (m ((c : Thread nD τ).loc main_arg10)) :=
  (W2_of_ne m ρ c main_arg10 (by decide)).trans (w1_arg10 m ρ c)

theorem w2_arg11 : W2 m ρ c (Proc.devRef .tc main_arg11) = (m ((c : Thread nD τ).loc main_arg11)) :=
  (W2_of_ne m ρ c main_arg11 (by decide)).trans (w1_arg11 m ρ c)

/-! ### After stretch 1 -/

theorem w3_v27 : W3 m ρ c (Proc.devRef .tc main_v27) = (Net.h1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) :=
  (ops1_v27 _).trans (w2_v27 m ρ c)

theorem w3_v1 : W3 m ρ c (Proc.devRef .tc main_v1) = Net.row0 (m ((c : Thread nD τ).loc main_arg1)) :=
  (ops1_v1 _).trans (w2_v1 m ρ c)

theorem w3_v3 : W3 m ρ c (Proc.devRef .tc main_v3) = Net.row1 (m ((c : Thread nD τ).loc main_arg1)) :=
  (ops1_v3 _).trans (w2_v3 m ρ c)

theorem w3_arg2 : W3 m ρ c (Proc.devRef .tc main_arg2) = (m ((c : Thread nD τ).loc main_arg2)) :=
  (ops1_arg2 _).trans (w2_arg2 m ρ c)

theorem w3_arg3 : W3 m ρ c (Proc.devRef .tc main_arg3) = (m ((c : Thread nD τ).loc main_arg3)) :=
  (ops1_arg3 _).trans (w2_arg3 m ρ c)

theorem w3_arg4 : W3 m ρ c (Proc.devRef .tc main_arg4) = (m ((c : Thread nD τ).loc main_arg4)) :=
  (ops1_arg4 _).trans (w2_arg4 m ρ c)

theorem w3_arg5 : W3 m ρ c (Proc.devRef .tc main_arg5) = (m ((c : Thread nD τ).loc main_arg5)) :=
  (ops1_arg5 _).trans (w2_arg5 m ρ c)

theorem w3_arg6 : W3 m ρ c (Proc.devRef .tc main_arg6) = (m ((c : Thread nD τ).loc main_arg6)) :=
  (ops1_arg6 _).trans (w2_arg6 m ρ c)

theorem w3_arg7 : W3 m ρ c (Proc.devRef .tc main_arg7) = (m ((c : Thread nD τ).loc main_arg7)) :=
  (ops1_arg7 _).trans (w2_arg7 m ρ c)

theorem w3_arg8 : W3 m ρ c (Proc.devRef .tc main_arg8) = (m ((c : Thread nD τ).loc main_arg8)) :=
  (ops1_arg8 _).trans (w2_arg8 m ρ c)

theorem w3_arg9 : W3 m ρ c (Proc.devRef .tc main_arg9) = (m ((c : Thread nD τ).loc main_arg9)) :=
  (ops1_arg9 _).trans (w2_arg9 m ρ c)

theorem w3_arg10 : W3 m ρ c (Proc.devRef .tc main_arg10) = (m ((c : Thread nD τ).loc main_arg10)) :=
  (ops1_arg10 _).trans (w2_arg10 m ρ c)

theorem w3_arg11 : W3 m ρ c (Proc.devRef .tc main_arg11) = (m ((c : Thread nD τ).loc main_arg11)) :=
  (ops1_arg11 _).trans (w2_arg11 m ρ c)

theorem w3_v40 : W3 m ρ c (Proc.devRef .tc main_v40) = Net.aggOf (m ((c : Thread nD τ).loc main_arg1)) (m ((c : Thread nD τ).loc main_arg2)) (Net.h1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) :=
  (ops1_v40 _).trans (aggFrom_congr _ _ _ (w2_v1 m ρ c) (w2_v3 m ρ c) (w2_arg2 m ρ c) (w2_v27 m ρ c))

theorem w3_v43 : W3 m ρ c (Proc.devRef .tc main_v43) = Net.wT1 (m ((c : Thread nD τ).loc main_arg4)) :=
  (ops1_v43 _).trans (congrArg Net.wT1 (w2_arg4 m ρ c))

theorem w3_v46 : W3 m ρ c (Proc.devRef .tc main_v46) = Net.wT1 (m ((c : Thread nD τ).loc main_arg6)) :=
  (ops1_v46 _).trans (congrArg Net.wT1 (w2_arg6 m ρ c))

theorem w3_v48 : W3 m ρ c (Proc.devRef .tc main_v48) = Net.bv1 (m ((c : Thread nD τ).loc main_arg5)) :=
  (ops1_v48 _).trans (congrArg Net.bv1 (w2_arg5 m ρ c))

theorem w3_v50 : W3 m ρ c (Proc.devRef .tc main_v50) = Net.bv1 (m ((c : Thread nD τ).loc main_arg7)) :=
  (ops1_v50 _).trans (congrArg Net.bv1 (w2_arg7 m ρ c))

/-! ### After region 1 -/

theorem w4_v51 : W4 m ρ c (Proc.devRef .tc main_v51) = (Net.h2 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) := by
  refine ((W4_arr m ρ c 6).trans (Regions.region1 (V3 m ρ) c)).trans ?_
  unfold Net.h2
  exact gin_congr (w3_v40 m ρ c) (w3_v27 m ρ c) (w3_v43 m ρ c) (w3_v48 m ρ c) (w3_v46 m ρ c) (w3_v50 m ρ c)

theorem w4_v1 : W4 m ρ c (Proc.devRef .tc main_v1) = Net.row0 (m ((c : Thread nD τ).loc main_arg1)) :=
  (W4_of_ne m ρ c main_v1 (by decide)).trans (w3_v1 m ρ c)

theorem w4_v3 : W4 m ρ c (Proc.devRef .tc main_v3) = Net.row1 (m ((c : Thread nD τ).loc main_arg1)) :=
  (W4_of_ne m ρ c main_v3 (by decide)).trans (w3_v3 m ρ c)

theorem w4_arg2 : W4 m ρ c (Proc.devRef .tc main_arg2) = (m ((c : Thread nD τ).loc main_arg2)) :=
  (W4_of_ne m ρ c main_arg2 (by decide)).trans (w3_arg2 m ρ c)

theorem w4_arg3 : W4 m ρ c (Proc.devRef .tc main_arg3) = (m ((c : Thread nD τ).loc main_arg3)) :=
  (W4_of_ne m ρ c main_arg3 (by decide)).trans (w3_arg3 m ρ c)

theorem w4_arg4 : W4 m ρ c (Proc.devRef .tc main_arg4) = (m ((c : Thread nD τ).loc main_arg4)) :=
  (W4_of_ne m ρ c main_arg4 (by decide)).trans (w3_arg4 m ρ c)

theorem w4_arg5 : W4 m ρ c (Proc.devRef .tc main_arg5) = (m ((c : Thread nD τ).loc main_arg5)) :=
  (W4_of_ne m ρ c main_arg5 (by decide)).trans (w3_arg5 m ρ c)

theorem w4_arg6 : W4 m ρ c (Proc.devRef .tc main_arg6) = (m ((c : Thread nD τ).loc main_arg6)) :=
  (W4_of_ne m ρ c main_arg6 (by decide)).trans (w3_arg6 m ρ c)

theorem w4_arg7 : W4 m ρ c (Proc.devRef .tc main_arg7) = (m ((c : Thread nD τ).loc main_arg7)) :=
  (W4_of_ne m ρ c main_arg7 (by decide)).trans (w3_arg7 m ρ c)

theorem w4_arg8 : W4 m ρ c (Proc.devRef .tc main_arg8) = (m ((c : Thread nD τ).loc main_arg8)) :=
  (W4_of_ne m ρ c main_arg8 (by decide)).trans (w3_arg8 m ρ c)

theorem w4_arg9 : W4 m ρ c (Proc.devRef .tc main_arg9) = (m ((c : Thread nD τ).loc main_arg9)) :=
  (W4_of_ne m ρ c main_arg9 (by decide)).trans (w3_arg9 m ρ c)

theorem w4_arg10 : W4 m ρ c (Proc.devRef .tc main_arg10) = (m ((c : Thread nD τ).loc main_arg10)) :=
  (W4_of_ne m ρ c main_arg10 (by decide)).trans (w3_arg10 m ρ c)

theorem w4_arg11 : W4 m ρ c (Proc.devRef .tc main_arg11) = (m ((c : Thread nD τ).loc main_arg11)) :=
  (W4_of_ne m ρ c main_arg11 (by decide)).trans (w3_arg11 m ρ c)

/-! ### After stretch 2 -/

theorem w5_v51 : W5 m ρ c (Proc.devRef .tc main_v51) = (Net.h2 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) :=
  (ops2_v51 _).trans (w4_v51 m ρ c)

theorem w5_arg3 : W5 m ρ c (Proc.devRef .tc main_arg3) = (m ((c : Thread nD τ).loc main_arg3)) :=
  (ops2_arg3 _).trans (w4_arg3 m ρ c)

theorem w5_arg8 : W5 m ρ c (Proc.devRef .tc main_arg8) = (m ((c : Thread nD τ).loc main_arg8)) :=
  (ops2_arg8 _).trans (w4_arg8 m ρ c)

theorem w5_arg9 : W5 m ρ c (Proc.devRef .tc main_arg9) = (m ((c : Thread nD τ).loc main_arg9)) :=
  (ops2_arg9 _).trans (w4_arg9 m ρ c)

theorem w5_arg10 : W5 m ρ c (Proc.devRef .tc main_arg10) = (m ((c : Thread nD τ).loc main_arg10)) :=
  (ops2_arg10 _).trans (w4_arg10 m ρ c)

theorem w5_arg11 : W5 m ρ c (Proc.devRef .tc main_arg11) = (m ((c : Thread nD τ).loc main_arg11)) :=
  (ops2_arg11 _).trans (w4_arg11 m ρ c)

theorem w5_v64 : W5 m ρ c (Proc.devRef .tc main_v64) = Net.aggOf (m ((c : Thread nD τ).loc main_arg1)) (m ((c : Thread nD τ).loc main_arg2)) (Net.h2 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) :=
  (ops2_v64 _).trans (aggFrom_congr _ _ _ (w4_v1 m ρ c) (w4_v3 m ρ c) (w4_arg2 m ρ c) (w4_v51 m ρ c))

theorem w5_v67 : W5 m ρ c (Proc.devRef .tc main_v67) = Net.wT2 (m ((c : Thread nD τ).loc main_arg4)) :=
  (ops2_v67 _).trans (congrArg Net.wT2 (w4_arg4 m ρ c))

theorem w5_v70 : W5 m ρ c (Proc.devRef .tc main_v70) = Net.wT2 (m ((c : Thread nD τ).loc main_arg6)) :=
  (ops2_v70 _).trans (congrArg Net.wT2 (w4_arg6 m ρ c))

theorem w5_v72 : W5 m ρ c (Proc.devRef .tc main_v72) = Net.bv2 (m ((c : Thread nD τ).loc main_arg5)) :=
  (ops2_v72 _).trans (congrArg Net.bv2 (w4_arg5 m ρ c))

theorem w5_v74 : W5 m ρ c (Proc.devRef .tc main_v74) = Net.bv2 (m ((c : Thread nD τ).loc main_arg7)) :=
  (ops2_v74 _).trans (congrArg Net.bv2 (w4_arg7 m ρ c))

/-! ### After region 2 -/

theorem w6_v75 : W6 m ρ c (Proc.devRef .tc main_v75) = (Net.h3 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) := by
  refine ((W6_arr m ρ c 6).trans (Regions.region2 (V5 m ρ) c)).trans ?_
  unfold Net.h3
  exact gin_congr (w5_v64 m ρ c) (w5_v51 m ρ c) (w5_v67 m ρ c) (w5_v72 m ρ c) (w5_v70 m ρ c) (w5_v74 m ρ c)

theorem w6_arg3 : W6 m ρ c (Proc.devRef .tc main_arg3) = (m ((c : Thread nD τ).loc main_arg3)) :=
  (W6_of_ne m ρ c main_arg3 (by decide)).trans (w5_arg3 m ρ c)

theorem w6_arg8 : W6 m ρ c (Proc.devRef .tc main_arg8) = (m ((c : Thread nD τ).loc main_arg8)) :=
  (W6_of_ne m ρ c main_arg8 (by decide)).trans (w5_arg8 m ρ c)

theorem w6_arg9 : W6 m ρ c (Proc.devRef .tc main_arg9) = (m ((c : Thread nD τ).loc main_arg9)) :=
  (W6_of_ne m ρ c main_arg9 (by decide)).trans (w5_arg9 m ρ c)

theorem w6_arg10 : W6 m ρ c (Proc.devRef .tc main_arg10) = (m ((c : Thread nD τ).loc main_arg10)) :=
  (W6_of_ne m ρ c main_arg10 (by decide)).trans (w5_arg10 m ρ c)

theorem w6_arg11 : W6 m ρ c (Proc.devRef .tc main_arg11) = (m ((c : Thread nD τ).loc main_arg11)) :=
  (W6_of_ne m ρ c main_arg11 (by decide)).trans (w5_arg11 m ρ c)

/-! ### After stretch 3 -/

theorem w7_v75 : W7 m ρ c (Proc.devRef .tc main_v75) = (Net.h3 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) :=
  (ops3_v75 _).trans (w6_v75 m ρ c)

theorem w7_arg9 : W7 m ρ c (Proc.devRef .tc main_arg9) = (m ((c : Thread nD τ).loc main_arg9)) :=
  (ops3_arg9 _).trans (w6_arg9 m ρ c)

theorem w7_arg11 : W7 m ρ c (Proc.devRef .tc main_arg11) = (m ((c : Thread nD τ).loc main_arg11)) :=
  (ops3_arg11 _).trans (w6_arg11 m ρ c)

theorem w7_v87 : W7 m ρ c (Proc.devRef .tc main_v87) = Net.pooledOf (m ((c : Thread nD τ).loc main_arg3)) (Net.h3 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) := by
  refine (ops3_v87 _).trans ?_
  rw [w6_arg3 m ρ c, w6_v75 m ρ c]

theorem w7_v88 : W7 m ρ c (Proc.devRef .tc main_v88) = Net.lw1 (m ((c : Thread nD τ).loc main_arg8)) :=
  (ops3_v88 _).trans (congrArg Net.lw1 (w6_arg8 m ρ c))

theorem w7_v89 : W7 m ρ c (Proc.devRef .tc main_v89) = Net.lw2 (m ((c : Thread nD τ).loc main_arg10)) :=
  (ops3_v89 _).trans (congrArg Net.lw2 (w6_arg10 m ρ c))

/-! ### The two results -/

/-- The last layer's node features, as the network's third layer on the launch memory. -/
theorem last_val : Gen.W8 (F := Ideal) m ρ c (Proc.devRef .tc main_v75) = Net.h3 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) :=
  (W8_of_ne m ρ c main_v75 (by decide)).trans (w7_v75 m ρ c)

/-- The log-probabilities, as the network's classifier (arranged z - (m + log S)) on the launch memory. -/
theorem logp_val : Gen.W8 (F := Ideal) m ρ c (Proc.devRef .tc main_v90)
    = Net.logpK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine ((W8_arr m ρ c 5).trans (Regions.region3 (V7 m ρ) c)).trans ?_
  unfold Net.logpK
  exact cls_congr (w7_v87 m ρ c) (w7_v88 m ρ c) (w7_arg9 m ρ c) (w7_v89 m ρ c) (w7_arg11 m ρ c)

end Run

end Cert.KernelIdeal.ValueK
-- ==== Proof.LibRowBias.lean ====
/-
  GENERAL LEMMAS: a bias vector kept as a matrix of ONE row, [1, N]. Nothing here mentions a program; the number of rows R,
  the contracted extent K and the bias's length N are arbitrary.

  * rowOf: the one row of a [1, N] matrix as a vector of length N; a vector cast to [1, N] has itself as that row.
  * bias_block: a [1, N] matrix cast to its own shape and laid along R rows reads, at (p, q), its row at q.
  * affineAt_of_matmul_row: the matrix unit's product into a zero accumulator plus such a one-row bias, read at (p, q), is
    the entry (p, q) of the affine layer h · W + b with b the row.
  Entries of any type for the layout facts; the affine fact is on extended reals and needs no finiteness.
-/
import Idealize.ShloMosaic.PureOps.Ideal
import Idealize.ShloMosaic.PureOps.Ideal.Laws
import Idealize.ShloMosaic.Lib.Pipeline.Value
import Idealize.ShloMosaic.Lib.ValueLayout
import Idealize.ShloMosaic.Lib.ValueIdx
import proofs.«127708_j996432413502_1_alg».proof.Proof.LibMatmulRows
import proofs.«127708_j996432413502_1_alg».proof.Proof.LibDenseLayers

noncomputable section

namespace Cert.LibRowBias

open Idealize.ShloMosaic Idealize.ShloMosaic.ValueIdx Cert.LibDenseLayers
open scoped BigOperators

variable {α : Type}

/-- The one row of a [1, N] matrix, as a vector of length N. -/
def rowOf {N : ℕ} (B : (⟨2, ![1, N]⟩ : Shape).Idx → α) : (⟨1, ![N]⟩ : Shape).Idx → α :=
  fun j => B (ix2 (0 : Fin 1) (j 0))

/-- The row at q is the matrix at (0, q). -/
theorem rowOf_ix1 {N : ℕ} (B : (⟨2, ![1, N]⟩ : Shape).Idx → α) (q : Fin N) : rowOf B (ix1 q) = B (ix2 (0 : Fin 1) q) := rfl

/-- A vector cast to a one-row matrix has that vector as its row. -/
theorem rowOf_shapeCast {N : ℕ} (b : (⟨1, ![N]⟩ : Shape).Idx → α) (hc : (⟨1, ![N]⟩ : Shape).ShapeCasts ⟨2, ![1, N]⟩) :
    rowOf (shapeCast ⟨2, ![1, N]⟩ b hc) = b := by
  funext j
  obtain ⟨q, rfl⟩ : ∃ q : Fin N, j = ix1 q := ⟨j 0, eq_ix1 j⟩
  exact shapeCast_a_1a_apply b hc 0 q

/-- A one-row matrix, cast to its own shape and laid along R rows, reads at (p, q) its row at q. -/
theorem bias_block {R N : ℕ} (B : (⟨2, ![1, N]⟩ : Shape).Idx → α) (hc : (⟨2, ![1, N]⟩ : Shape).ShapeCasts ⟨2, ![1, N]⟩)
    (hb : (⟨2, ![1, N]⟩ : Shape).Broadcasts ⟨2, ![R, N]⟩) (p : Fin R) (q : Fin N) :
    broadcastTo ⟨2, ![R, N]⟩ (shapeCast ⟨2, ![1, N]⟩ B hc) hb (ix2 p q) = B (ix2 (0 : Fin 1) q) := by
  rw [shapeCast_self]
  exact broadcastTo_1b_ab_apply B hb p q

/-- The matrix unit's product into a zero accumulator plus a one-row bias laid along the rows, read at (p, q): row p of
    h against column q of W, plus the bias row at q. -/
theorem affineAt_of_matmul_row {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨2, ![1, N]⟩ : Shape).ShapeCasts ⟨2, ![1, N]⟩) (hb : (⟨2, ![1, N]⟩ : Shape).Broadcasts ⟨2, ![R, N]⟩)
    {φ₁ φ₂ : FTy} (h : FVec Ideal ⟨2, ![R, K]⟩ φ₁) (W : FVec Ideal ⟨2, ![K, N]⟩ φ₂) (B : FVec Ideal ⟨2, ![1, N]⟩ .f32)
    (p : Fin R) (q : Fin N) :
    matmul d none h W (constant (F := Ideal) ⟨2, ![R, N]⟩ .f32 0x00000000#32) (ix2 p q)
      + broadcastTo ⟨2, ![R, N]⟩ (shapeCast ⟨2, ![1, N]⟩ B hc) hb (ix2 p q) = affineAt h W (rowOf B) p q := by
  rw [Cert.LibMatmulRows.matmul_rows d hrank hsize hl0 hl1 hr0 hr1 h W p q, bias_block B hc hb p q]
  rfl

end Cert.LibRowBias

end
-- ==== Proof.LibGraphConv.lean ====
/-
  GENERAL LEMMAS: the three dense stages of a two-layer graph convolution with mean pooling and a three-layer classifier, as
  functions on extended reals; nothing here mentions a program and every extent is arbitrary.

  For a matrix a of R rows and a degree d p per row, scaleRows a d multiplies row p by 1 / sqrt (d p).
  With affine h W b (p, q) = sum_k h(p, k) * W(k, q) + b(q) and the rectifier max(., 0):
    conv2 agg din W b      = rectifier (affine (scaleRows agg din) W b)
    conv1 agg din dout W b = scaleRows (conv2 agg din W b) dout
    meanRows s cnt (p, k)  = s(p, k) / max (cnt p) 1
    head s cnt W1 b1 W2 b2 W3 b3 = affine (rectifier (affine (rectifier (affine (meanRows s cnt) W1 b1)) W2 b2)) W3 b3.
  Row p of each result depends only on row p of the row-indexed inputs (ROW-LOCALITY), so a block of consecutive rows
  computes that block of rows of the whole result. Also here: the matrix unit's spelling of a row scaling and of the
  mean, read at an entry. No law of extended-real arithmetic is used beyond congruence, so no entry has to be finite.
-/
import Idealize.ShloMosaic.PureOps.Ideal
import Idealize.ShloMosaic.PureOps.Ideal.Laws
import Idealize.ShloMosaic.Lib.Pipeline.Value
import Idealize.ShloMosaic.Lib.ValueLayout
import Idealize.ShloMosaic.Lib.ValueIdx
import proofs.«127708_j996432413502_1_alg».proof.Proof.LibMatmulRows
import proofs.«127708_j996432413502_1_alg».proof.Proof.LibBiasRows
import proofs.«127708_j996432413502_1_alg».proof.Proof.LibDenseLayers
import proofs.«127708_j996432413502_1_alg».proof.Proof.LibRowBias
import proofs.«127708_j996432413502_1_alg».proof.Proof.LibLayout

noncomputable section

namespace Cert.GraphSpec

open Idealize.ShloMosaic Idealize.ShloMosaic.ValueIdx Cert.LibDenseLayers Cert.LibRowBias
open scoped BigOperators

/-- A matrix of R rows and K columns of extended reals. -/
abbrev Mat (R K : ℕ) := (⟨2, ![R, K]⟩ : Shape).Idx → EReal
/-- A vector of N extended reals. -/
abbrev Vc (N : ℕ) := (⟨1, ![N]⟩ : Shape).Idx → EReal

/-- The single-precision word of 1, as an extended real. -/
abbrev oneW : EReal := Ideal.ofBits .f32 0x3F800000#32

/-- Every row p multiplied by the reciprocal square root of the row's degree d p. -/
def scaleRows {R K : ℕ} (a : Mat R K) (d : Fin R → EReal) : Mat R K :=
  fun i => a i * Ideal.rsqrt (d (i 0))

theorem scaleRows_apply {R K : ℕ} (a : Mat R K) (d : Fin R → EReal) (p : Fin R) (k : Fin K) :
    scaleRows a d (ix2 p k) = a (ix2 p k) * Ideal.rsqrt (d p) := rfl

/-- The second graph convolution's dense stage: the aggregate scaled by the in-degrees, an affine layer, the rectifier. -/
def conv2 {R K N : ℕ} (agg : Mat R K) (din : Fin R → EReal) (W : Mat K N) (b : Vc N) : Mat R N :=
  stage1 (scaleRows agg din) W b

/-- The first graph convolution's dense stage: the same, then scaled by the out-degrees for the next layer. -/
def conv1 {R K N : ℕ} (agg : Mat R K) (din dout : Fin R → EReal) (W : Mat K N) (b : Vc N) : Mat R N :=
  scaleRows (conv2 agg din W b) dout

/-- The mean over a group: the group's sum divided by the larger of its count and 1. -/
def meanRows {R K : ℕ} (s : Mat R K) (cnt : Fin R → EReal) : Mat R K :=
  fun i => Ideal.div (s i) (max (cnt (i 0)) oneW)

theorem meanRows_apply {R K : ℕ} (s : Mat R K) (cnt : Fin R → EReal) (p : Fin R) (k : Fin K) :
    meanRows s cnt (ix2 p k) = Ideal.div (s (ix2 p k)) (max (cnt p) oneW) := rfl

/-- The classifier on the group means: two rectified affine layers and a last affine layer of one column. -/
def head {R K N M : ℕ} (s : Mat R K) (cnt : Fin R → EReal) (W1 : Mat K N) (b1 : Vc N) (W2 : Mat N M) (b2 : Vc M)
    (W3 : Mat M 1) (b3 : Vc 1) : Mat R 1 :=
  affine (stage1 (stage1 (meanRows s cnt) W1 b1) W2 b2) W3 b3

/-! ## Row-locality -/

/-- Row p of conv2 depends only on row p of the aggregate and on the in-degree of row p. -/
theorem conv2_row {R R' K N : ℕ} (agg : Mat R K) (agg' : Mat R' K) (din : Fin R → EReal) (din' : Fin R' → EReal)
    (W : Mat K N) (b : Vc N) (p : Fin R) (p' : Fin R')
    (ha : ∀ k : Fin K, agg (ix2 p k) = agg' (ix2 p' k)) (hd : din p = din' p') (q : Fin N) :
    conv2 agg din W b (ix2 p q) = conv2 agg' din' W b (ix2 p' q) :=
  stage1_row _ _ W b p p' (fun k => by rw [scaleRows_apply, scaleRows_apply, ha k, hd]) q

/-- Row p of conv1 depends only on row p of the aggregate and on the two degrees of row p. -/
theorem conv1_row {R R' K N : ℕ} (agg : Mat R K) (agg' : Mat R' K) (din dout : Fin R → EReal) (din' dout' : Fin R' → EReal)
    (W : Mat K N) (b : Vc N) (p : Fin R) (p' : Fin R')
    (ha : ∀ k : Fin K, agg (ix2 p k) = agg' (ix2 p' k)) (hd : din p = din' p') (ho : dout p = dout' p') (q : Fin N) :
    conv1 agg din dout W b (ix2 p q) = conv1 agg' din' dout' W b (ix2 p' q) := by
  show conv2 agg din W b (ix2 p q) * Ideal.rsqrt (dout p) = conv2 agg' din' W b (ix2 p' q) * Ideal.rsqrt (dout' p')
  rw [conv2_row agg agg' din din' W b p p' ha hd q, ho]

/-- The same with the weights and the bias replaced by equal ones. -/
theorem conv2_blk {R R' K N : ℕ} (agg : Mat R K) (agg' : Mat R' K) (din : Fin R → EReal) (din' : Fin R' → EReal)
    (W W' : Mat K N) (b b' : Vc N) (hW : W = W') (hb : b = b') (p : Fin R) (p' : Fin R')
    (ha : ∀ k : Fin K, agg (ix2 p k) = agg' (ix2 p' k)) (hd : din p = din' p') (q : Fin N) :
    conv2 agg din W b (ix2 p q) = conv2 agg' din' W' b' (ix2 p' q) := by
  subst hW; subst hb
  exact conv2_row agg agg' din din' W b p p' ha hd q

/-- The same for the first convolution. -/
theorem conv1_blk {R R' K N : ℕ} (agg : Mat R K) (agg' : Mat R' K) (din dout : Fin R → EReal) (din' dout' : Fin R' → EReal)
    (W W' : Mat K N) (b b' : Vc N) (hW : W = W') (hb : b = b') (p : Fin R) (p' : Fin R')
    (ha : ∀ k : Fin K, agg (ix2 p k) = agg' (ix2 p' k)) (hd : din p = din' p') (ho : dout p = dout' p') (q : Fin N) :
    conv1 agg din dout W b (ix2 p q) = conv1 agg' din' dout' W' b' (ix2 p' q) := by
  subst hW; subst hb
  exact conv1_row agg agg' din dout din' dout' W b p p' ha hd ho q

/-! ## The matrix unit's spellings of the row operations -/

/-- A matrix times the reciprocal square root of a degree column laid along the lanes, read at (p, k). -/
theorem scaled_of_lanes {R K : ℕ} (a : FVec Ideal ⟨2, ![R, K]⟩ .f32) (dv : FVec Ideal ⟨2, ![R, 1]⟩ .f32)
    (hca : (⟨2, ![R, K]⟩ : Shape).ShapeCasts ⟨2, ![R, K]⟩) (hcd : (⟨2, ![R, 1]⟩ : Shape).ShapeCasts ⟨2, ![R, 1]⟩)
    (hb : (⟨2, ![R, 1]⟩ : Shape).Broadcasts ⟨2, ![R, K]⟩) (p : Fin R) (k : Fin K) :
    mulf (shapeCast ⟨2, ![R, K]⟩ a hca) (broadcastTo ⟨2, ![R, K]⟩ (rsqrt (shapeCast ⟨2, ![R, 1]⟩ dv hcd)) hb) (ix2 p k)
      = scaleRows a (fun r => dv (ix2 r (0 : Fin 1))) (ix2 p k) := by
  show shapeCast ⟨2, ![R, K]⟩ a hca (ix2 p k)
      * broadcastTo ⟨2, ![R, K]⟩ (rsqrt (shapeCast ⟨2, ![R, 1]⟩ dv hcd)) hb (ix2 p k) = _
  rw [shapeCast_self, Cert.LibLayout.broadcastTo_a1_ab_apply]
  show a (ix2 p k) * Ideal.rsqrt (shapeCast ⟨2, ![R, 1]⟩ dv hcd (ix2 p (0 : Fin 1))) = _
  rw [shapeCast_self]
  rfl

/-- A degree column's reciprocal square root laid along the lanes, read at (p, q). -/
theorem rsqrt_lane {R N : ℕ} (dv : FVec Ideal ⟨2, ![R, 1]⟩ .f32)
    (hcd : (⟨2, ![R, 1]⟩ : Shape).ShapeCasts ⟨2, ![R, 1]⟩) (hb : (⟨2, ![R, 1]⟩ : Shape).Broadcasts ⟨2, ![R, N]⟩)
    (p : Fin R) (q : Fin N) :
    broadcastTo ⟨2, ![R, N]⟩ (rsqrt (shapeCast ⟨2, ![R, 1]⟩ dv hcd)) hb (ix2 p q) = Ideal.rsqrt (dv (ix2 p (0 : Fin 1))) := by
  rw [Cert.LibLayout.broadcastTo_a1_ab_apply]
  show Ideal.rsqrt (shapeCast ⟨2, ![R, 1]⟩ dv hcd (ix2 p (0 : Fin 1))) = _
  rw [shapeCast_self]

/-- A sum matrix divided by its count column, compared with 1 and laid along the lanes, read at (p, k): the mean. -/
theorem mean_of_lanes {R K : ℕ} (s : FVec Ideal ⟨2, ![R, K]⟩ .f32) (dv : FVec Ideal ⟨2, ![R, 1]⟩ .f32)
    (hcs : (⟨2, ![R, K]⟩ : Shape).ShapeCasts ⟨2, ![R, K]⟩) (hc : (⟨2, ![R, 1]⟩ : Shape).ShapeCasts ⟨2, ![R, 1]⟩)
    (hb : (⟨2, ![R, 1]⟩ : Shape).Broadcasts ⟨2, ![R, K]⟩) (p : Fin R) (k : Fin K) :
    divf (shapeCast ⟨2, ![R, K]⟩ s hcs)
        (broadcastTo ⟨2, ![R, K]⟩ (maximumf (shapeCast ⟨2, ![R, 1]⟩ dv hc)
          (broadcast ⟨2, ![R, 1]⟩ (Scalar.ofBits (F := Ideal) .f32 0x3F800000#32))) hb) (ix2 p k)
      = meanRows s (fun r => dv (ix2 r (0 : Fin 1))) (ix2 p k) := by
  show Ideal.div (shapeCast ⟨2, ![R, K]⟩ s hcs (ix2 p k))
      (broadcastTo ⟨2, ![R, K]⟩ (maximumf (shapeCast ⟨2, ![R, 1]⟩ dv hc)
          (broadcast ⟨2, ![R, 1]⟩ (Scalar.ofBits (F := Ideal) .f32 0x3F800000#32))) hb (ix2 p k)) = _
  rw [shapeCast_self, Cert.LibLayout.broadcastTo_a1_ab_apply]
  show Ideal.div (s (ix2 p k)) (max (shapeCast ⟨2, ![R, 1]⟩ dv hc (ix2 p (0 : Fin 1))) oneW) = _
  rw [shapeCast_self]
  rfl

end Cert.GraphSpec

end
-- ==== Proof.LibHostDense.lean ====
/-
  GENERAL LEMMAS: the host's spellings of the dense stages, read as whole-array functions on extended reals; nothing here mentions a
  program and every extent is arbitrary.

  A vector of R row statistics laid out as a column [R, 1] and then along the lanes reads, at (p, k), the vector at p;
  a scalar broadcast to every entry reads the scalar; a bias vector of ANY length broadcast to one row and along the
  rows reads the bias at the column. With these, x * rsqrt(d)[:, None] is scaleRows, a dot_general plus bias is the affine
  layer, max(., 0) is the rectifier, s / max(1, cnt)[:, None] is the mean (max is symmetric), and so the host's lines for
  a graph convolution's dense stage and for the classifier are conv2, conv1 and head. No entry needs to be finite.
-/
import proofs.«127708_j996432413502_1_alg».proof.Proof.LibGraphConv

noncomputable section

namespace Cert.HostSpell

open Idealize.ShloMosaic Idealize.ShloMosaic.ValueIdx Cert.LibDenseLayers Cert.GraphSpec
open scoped BigOperators

variable {α : Type}

/-- A vector laid out as a column and then along K lanes reads, at (p, k), the vector at p. -/
theorem col_host {R K : ℕ} (v : (⟨1, ![R]⟩ : Shape).Idx → α)
    (h1 : (⟨1, ![R]⟩ : Shape).BroadcastsInDim ⟨2, ![R, 1]⟩ (![0] : Fin 1 → Fin 2))
    (h2 : (⟨2, ![R, 1]⟩ : Shape).BroadcastsInDim ⟨2, ![R, K]⟩ (![0, 1] : Fin 2 → Fin 2)) (p : Fin R) (k : Fin K) :
    broadcastInDim ⟨2, ![R, K]⟩ ![0, 1] h2 (broadcastInDim ⟨2, ![R, 1]⟩ ![0] h1 v) (ix2 p k) = v (ix1 p) := by
  refine (broadcastInDim_apply _ h2 _ (ix2 p k) (ix2 p (0 : Fin 1)) fun a => ?_).trans
    (broadcastInDim_apply _ h1 v (ix2 p (0 : Fin 1)) (ix1 p) fun a => ?_)
  · match a with
    | ⟨0, _⟩ =>
      show p.val = if R = 1 then 0 else p.val
      split
      · have := p.isLt; omega
      · rfl
    | ⟨1, _⟩ => show (0 : ℕ) = if (1 : ℕ) = 1 then 0 else k.val; rw [if_pos rfl]
  · match a with
    | ⟨0, _⟩ =>
      show p.val = if R = 1 then 0 else p.val
      split
      · have := p.isLt; omega
      · rfl

/-- A scalar broadcast to every entry of an array reads the scalar. -/
theorem splat_host {s : Shape} (x : (⟨0, ![]⟩ : Shape).Idx → α)
    (h : (⟨0, ![]⟩ : Shape).BroadcastsInDim s (![] : Fin 0 → Fin s.rank)) (i : s.Idx) :
    broadcastInDim s ![] h x i = x ix0 :=
  broadcastInDim_apply _ h x i ix0 fun a => a.elim0

/-- A bias vector of any length broadcast to one row and then along R rows reads, at (r, c), the bias at c. -/
theorem bias_any {R n : ℕ} (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (r : Fin R) (c : Fin n) :
    broadcastInDim ⟨2, ![R, n]⟩ ![0, 1] h2 (broadcastInDim ⟨2, ![1, n]⟩ ![1] h1 b) (ix2 r c) = b (ix1 c) := by
  refine (broadcastInDim_apply _ h2 _ (ix2 r c) (ix2 (0 : Fin 1) c) fun a => ?_).trans
    (broadcastInDim_apply _ h1 b (ix2 (0 : Fin 1) c) (ix1 c) fun a => ?_)
  · match a with
    | ⟨0, _⟩ => show (0 : ℕ) = if (1 : ℕ) = 1 then 0 else r.val; rw [if_pos rfl]
    | ⟨1, _⟩ =>
      show c.val = if n = 1 then 0 else c.val
      split
      · have := c.isLt; omega
      · rfl
  · match a with
    | ⟨0, _⟩ =>
      show c.val = if n = 1 then 0 else c.val
      split
      · have := c.isLt; omega
      · rfl

section Stages

variable {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (h0 : (⟨0, ![]⟩ : Shape).BroadcastsInDim ⟨2, ![R, N]⟩ (![] : Fin 0 → Fin 2))
    (hc1 : (⟨1, ![R]⟩ : Shape).BroadcastsInDim ⟨2, ![R, 1]⟩ (![0] : Fin 1 → Fin 2))
    (hcK : (⟨2, ![R, 1]⟩ : Shape).BroadcastsInDim ⟨2, ![R, K]⟩ (![0, 1] : Fin 2 → Fin 2))
    (hcN : (⟨2, ![R, 1]⟩ : Shape).BroadcastsInDim ⟨2, ![R, N]⟩ (![0, 1] : Fin 2 → Fin 2))

include hrank hsize hl0 hl1 hr0 hr1 in
/-- The host's dot_general plus a bias of any length broadcast twice is the affine layer. -/
theorem affine_of_dot_any (h : FVec Ideal ⟨2, ![R, K]⟩ .f32) (W : FVec Ideal ⟨2, ![K, N]⟩ .f32) (b : FVec Ideal ⟨1, ![N]⟩ .f32) :
    addf (Host.dotGeneral d none h W)
      (broadcastInDim ⟨2, ![R, N]⟩ ![0, 1] h2 (broadcastInDim ⟨2, ![1, N]⟩ ![1] h1 b)) = affine h W b := by
  funext j
  obtain ⟨p, q, rfl⟩ : ∃ (p : Fin R) (q : Fin N), j = ix2 p q := ⟨j 0, j 1, eq_ix2 j⟩
  show Host.dotGeneral d none h W (ix2 p q)
      + broadcastInDim ⟨2, ![R, N]⟩ ![0, 1] h2 (broadcastInDim ⟨2, ![1, N]⟩ ![1] h1 b) (ix2 p q) = affineAt h W b p q
  rw [Cert.LibMatmulRows.hostdot_rows d hrank hsize hl0 hl1 hr0 hr1 h W p q, bias_any b h1 h2 p q]
  rfl

/-- The host's max with a broadcast zero is the rectifier. -/
theorem relu_of_host (a : FVec Ideal ⟨2, ![R, N]⟩ .f32) :
    maximumf a (broadcastInDim ⟨2, ![R, N]⟩ ![] h0 (constant (F := Ideal) ⟨0, ![]⟩ .f32 0x00000000#32)) = relu a := by
  funext j
  show max (a j) (broadcastInDim ⟨2, ![R, N]⟩ ![] h0 (constant (F := Ideal) ⟨0, ![]⟩ .f32 0x00000000#32) j) = max (a j) _
  rw [splat_host]
  rfl

include hrank hsize hl0 hl1 hr0 hr1 in
/-- The host's rectified dot_general-plus-bias is the rectified affine layer. -/
theorem stage1_of_host (h : FVec Ideal ⟨2, ![R, K]⟩ .f32) (W : FVec Ideal ⟨2, ![K, N]⟩ .f32) (b : FVec Ideal ⟨1, ![N]⟩ .f32) :
    maximumf (addf (Host.dotGeneral d none h W)
        (broadcastInDim ⟨2, ![R, N]⟩ ![0, 1] h2 (broadcastInDim ⟨2, ![1, N]⟩ ![1] h1 b)))
      (broadcastInDim ⟨2, ![R, N]⟩ ![] h0 (constant (F := Ideal) ⟨0, ![]⟩ .f32 0x00000000#32)) = stage1 h W b := by
  rw [affine_of_dot_any d hrank hsize hl0 hl1 hr0 hr1 h1 h2 h W b, relu_of_host h0]
  rfl

/-- A matrix times the reciprocal square roots of a degree vector laid along the rows is scaleRows. -/
theorem scaled_of_host (a : FVec Ideal ⟨2, ![R, K]⟩ .f32) (dg : FVec Ideal ⟨1, ![R]⟩ .f32) :
    mulf a (broadcastInDim ⟨2, ![R, K]⟩ ![0, 1] hcK (broadcastInDim ⟨2, ![R, 1]⟩ ![0] hc1 (Host.rsqrt dg)))
      = scaleRows a (fun r => dg (ix1 r)) := by
  funext j
  obtain ⟨p, k, rfl⟩ : ∃ (p : Fin R) (k : Fin K), j = ix2 p k := ⟨j 0, j 1, eq_ix2 j⟩
  show a (ix2 p k) * broadcastInDim ⟨2, ![R, K]⟩ ![0, 1] hcK (broadcastInDim ⟨2, ![R, 1]⟩ ![0] hc1 (Host.rsqrt dg)) (ix2 p k) = _
  rw [col_host (Host.rsqrt dg) hc1 hcK p k]
  rfl

include hrank hsize hl0 hl1 hr0 hr1 in
/-- The host's lines of the second convolution's dense stage are conv2. -/
theorem conv2_of_host (agg : FVec Ideal ⟨2, ![R, K]⟩ .f32) (din : FVec Ideal ⟨1, ![R]⟩ .f32)
    (W : FVec Ideal ⟨2, ![K, N]⟩ .f32) (b : FVec Ideal ⟨1, ![N]⟩ .f32) :
    maximumf (addf (Host.dotGeneral d none
          (mulf agg (broadcastInDim ⟨2, ![R, K]⟩ ![0, 1] hcK (broadcastInDim ⟨2, ![R, 1]⟩ ![0] hc1 (Host.rsqrt din)))) W)
        (broadcastInDim ⟨2, ![R, N]⟩ ![0, 1] h2 (broadcastInDim ⟨2, ![1, N]⟩ ![1] h1 b)))
      (broadcastInDim ⟨2, ![R, N]⟩ ![] h0 (constant (F := Ideal) ⟨0, ![]⟩ .f32 0x00000000#32))
      = conv2 agg (fun r => din (ix1 r)) W b := by
  rw [scaled_of_host hc1 hcK agg din]
  exact stage1_of_host d hrank hsize hl0 hl1 hr0 hr1 h1 h2 h0 _ W b

include hrank hsize hl0 hl1 hr0 hr1 in
/-- The host's lines of the first convolution's dense stage are conv1. -/
theorem conv1_of_host (agg : FVec Ideal ⟨2, ![R, K]⟩ .f32) (din dout : FVec Ideal ⟨1, ![R]⟩ .f32)
    (W : FVec Ideal ⟨2, ![K, N]⟩ .f32) (b : FVec Ideal ⟨1, ![N]⟩ .f32) :
    mulf (maximumf (addf (Host.dotGeneral d none
          (mulf agg (broadcastInDim ⟨2, ![R, K]⟩ ![0, 1] hcK (broadcastInDim ⟨2, ![R, 1]⟩ ![0] hc1 (Host.rsqrt din)))) W)
        (broadcastInDim ⟨2, ![R, N]⟩ ![0, 1] h2 (broadcastInDim ⟨2, ![1, N]⟩ ![1] h1 b)))
      (broadcastInDim ⟨2, ![R, N]⟩ ![] h0 (constant (F := Ideal) ⟨0, ![]⟩ .f32 0x00000000#32)))
      (broadcastInDim ⟨2, ![R, N]⟩ ![0, 1] hcN (broadcastInDim ⟨2, ![R, 1]⟩ ![0] hc1 (Host.rsqrt dout)))
      = conv1 agg (fun r => din (ix1 r)) (fun r => dout (ix1 r)) W b := by
  rw [conv2_of_host d hrank hsize hl0 hl1 hr0 hr1 h1 h2 h0 hc1 hcK agg din W b]
  exact scaled_of_host hc1 hcN _ dout

/-- The sums divided by max(1, count) laid along the lanes are the means. -/
theorem mean_of_host (s : FVec Ideal ⟨2, ![R, K]⟩ .f32) (cnt : FVec Ideal ⟨1, ![R]⟩ .f32)
    (hs : (⟨0, ![]⟩ : Shape).BroadcastsInDim ⟨1, ![R]⟩ (![] : Fin 0 → Fin 1)) :
    Host.divf s (broadcastInDim ⟨2, ![R, K]⟩ ![0, 1] hcK (broadcastInDim ⟨2, ![R, 1]⟩ ![0] hc1
        (maximumf (broadcastInDim ⟨1, ![R]⟩ ![] hs (id (constant (F := Ideal) ⟨0, ![]⟩ .f32 0x3F800000#32))) cnt)))
      = meanRows s (fun r => cnt (ix1 r)) := by
  funext j
  obtain ⟨p, k, rfl⟩ : ∃ (p : Fin R) (k : Fin K), j = ix2 p k := ⟨j 0, j 1, eq_ix2 j⟩
  show Ideal.div (s (ix2 p k)) (broadcastInDim ⟨2, ![R, K]⟩ ![0, 1] hcK (broadcastInDim ⟨2, ![R, 1]⟩ ![0] hc1
        (maximumf (broadcastInDim ⟨1, ![R]⟩ ![] hs (constant (F := Ideal) ⟨0, ![]⟩ .f32 0x3F800000#32)) cnt)) (ix2 p k)) = _
  rw [col_host _ hc1 hcK p k]
  show Ideal.div (s (ix2 p k)) (max (broadcastInDim ⟨1, ![R]⟩ ![] hs (constant (F := Ideal) ⟨0, ![]⟩ .f32 0x3F800000#32) (ix1 p)) (cnt (ix1 p))) = _
  rw [splat_host, max_comm]
  rfl

end Stages

/-- max is symmetric on arrays of extended reals. -/
theorem maxf_comm {s : Shape} (a b : FVec Ideal s .f32) : maximumf a b = maximumf b a :=
  funext fun i => max_comm (a i) (b i)

end Cert.HostSpell

end
-- ==== Proof.RefValue.lean ====
/-
  The reference program's two results as functions of its arguments. Stage by stage the host operations of the
  reference are the network of Net: the edge table's rows, the wrapped sources, the neighbour aggregation (gather,
  weight, scatter-add from zero), then per layer two rectified dot_general-plus-bias lines applied to the aggregate
  plus one times the node's own features; one times x is x for every extended real, so a layer is the layer of the
  specification. The mean pool is spelt as in Net, the classifier's logits are a rectified affine layer followed by an
  affine layer, and the log-softmax subtracts from each logit the row's maximum (folded from minus infinity, and a
  maximum with minus infinity on top changes nothing) and then the logarithm of the row's sum of exponentials (summed
  from zero, and zero plus a sum is the sum). No entry needs to be finite.
-/
import proofs.«127708_j996432413502_1_alg».proof.Proof.Gen.ReferenceIdeal.Read
import proofs.«127708_j996432413502_1_alg».proof.Proof.Gen.KernelIdeal
import proofs.«127708_j996432413502_1_alg».proof.Proof.Net
import proofs.«127708_j996432413502_1_alg».proof.Proof.LibHostDense
import proofs.«127708_j996432413502_1_alg».proof.Proof.LibSageLayers

noncomputable section

namespace Cert.ReferenceIdeal.RefValue

open Idealize.ShloMosaic Idealize.ShloMosaic.ValueIdx Idealize.SL.Sem
open Cert.ReferenceIdeal.Read Cert.LibDenseLayers Cert.GinSpec Cert.Sage
open scoped BigOperators

/-- Float arrays and 32-bit integer arrays of a shape, at the exact instance. -/
abbrev CF (S : Shape) := (⟨S, .f32⟩ : BufTy).Contents (Elt Ideal)
abbrev CI (S : Shape) := (⟨S, .i32⟩ : BufTy).Contents (Elt Ideal)

/-! ## One layer in the host's spelling -/

section Layer

variable {R H : ℕ} (d : DotDims ⟨2, ![R, H]⟩ ⟨2, ![H, H]⟩ ⟨2, ![R, H]⟩)
    (hrank : d.contr.rank = 1) (hsize : d.contr.size ⟨0, by omega⟩ = H)
    (hl0 : ∀ (i : (⟨2, ![R, H]⟩ : Shape).Idx) (s : d.contr.Idx), (d.lhsIdx i s 0).val = (i 0).val)
    (hl1 : ∀ (i : (⟨2, ![R, H]⟩ : Shape).Idx) (s : d.contr.Idx), (d.lhsIdx i s 1).val = (s ⟨0, by omega⟩).val)
    (hr0 : ∀ (i : (⟨2, ![R, H]⟩ : Shape).Idx) (s : d.contr.Idx), (d.rhsIdx i s 0).val = (s ⟨0, by omega⟩).val)
    (hr1 : ∀ (i : (⟨2, ![R, H]⟩ : Shape).Idx) (s : d.contr.Idx), (d.rhsIdx i s 1).val = (i 1).val)
    (h1 : (⟨1, ![H]⟩ : Shape).BroadcastsInDim ⟨2, ![1, H]⟩ (![1] : Fin 1 → Fin 2))
    (h2 : (⟨2, ![1, H]⟩ : Shape).BroadcastsInDim ⟨2, ![R, H]⟩ (![0, 1] : Fin 2 → Fin 2))
    (h0 : (⟨0, ![]⟩ : Shape).BroadcastsInDim ⟨2, ![R, H]⟩ (![] : Fin 0 → Fin 2))

/-- a + 1 * h, the one broadcast to every entry, is a + h entry by entry: 1 * x = x for every extended real. -/
theorem self_plus (a h : FVec Ideal ⟨2, ![R, H]⟩ .f32) :
    addf a (mulf (broadcastInDim ⟨2, ![R, H]⟩ ![] h0 (constant (F := Ideal) ⟨0, ![]⟩ .f32 0x3F800000#32)) h)
      = fun i => a i + h i := by
  funext i
  show a i + broadcastInDim ⟨2, ![R, H]⟩ ![] h0 (constant (F := Ideal) ⟨0, ![]⟩ .f32 0x3F800000#32) i * h i = a i + h i
  rw [Cert.HostSpell.splat_host]
  show a i + Ideal.ofBits .f32 0x3F800000#32 * h i = a i + h i
  rw [Cert.LibMoments.ofBits_one, one_mul]

include hrank hsize hl0 hl1 hr0 hr1 in
/-- Two rectified dot_general-plus-bias lines applied to a + 1 * h are the layer of the specification. -/
theorem ginLayer_of_host (a h : FVec Ideal ⟨2, ![R, H]⟩ .f32) (W1 : FVec Ideal ⟨2, ![H, H]⟩ .f32)
    (b1 : FVec Ideal ⟨1, ![H]⟩ .f32) (W2 : FVec Ideal ⟨2, ![H, H]⟩ .f32) (b2 : FVec Ideal ⟨1, ![H]⟩ .f32) :
    maximumf (addf (Host.dotGeneral d none
        (maximumf (addf (Host.dotGeneral d none
            (addf a (mulf (broadcastInDim ⟨2, ![R, H]⟩ ![] h0 (constant (F := Ideal) ⟨0, ![]⟩ .f32 0x3F800000#32)) h)) W1)
            (broadcastInDim ⟨2, ![R, H]⟩ ![0, 1] h2 (broadcastInDim ⟨2, ![1, H]⟩ ![1] h1 b1)))
          (broadcastInDim ⟨2, ![R, H]⟩ ![] h0 (constant (F := Ideal) ⟨0, ![]⟩ .f32 0x00000000#32))) W2)
        (broadcastInDim ⟨2, ![R, H]⟩ ![0, 1] h2 (broadcastInDim ⟨2, ![1, H]⟩ ![1] h1 b2)))
      (broadcastInDim ⟨2, ![R, H]⟩ ![] h0 (constant (F := Ideal) ⟨0, ![]⟩ .f32 0x00000000#32))
      = ginLayer a h W1 b1 W2 b2 := by
  rw [Cert.HostSpell.stage1_of_host d hrank hsize hl0 hl1 hr0 hr1 h1 h2 h0,
    Cert.HostSpell.stage1_of_host d hrank hsize hl0 hl1 hr0 hr1 h1 h2 h0, self_plus h0 a h]
  rfl

end Layer

/-! ## The three layers of the reference -/

section Layers

open Cert.ReferenceIdeal Cert.ReferenceIdeal.Gen

variable (x0 : CF S100000x128) (x1 : CI S2x1600000) (x2 : CF S1600000) (x3 : CI S100000) (x4 : CF S3x128x128)
  (x5 : CF S3x128) (x6 : CF S3x128x128) (x7 : CF S3x128)

/-- The neighbour aggregation of any node features, in the reference's spelling, is the network's. -/
theorem agg_eq (h : CF S100000x128) :
    Host.scatterAdd (F := Ideal) (φ := .f32) scatter_S100000x128_S1600000x1_S1600000x128_1_0_0_1 (val_main_v22 (F := Ideal)) (val_main_v23 (F := Ideal) x1)
      (mulf (Host.gather gather_S100000x128_S1600000x1_S1600000x128_1_0_n_n_0_1_1128 h (val_main_v17 (F := Ideal) x1))
        (val_main_v20 (F := Ideal) x2)) = Cert.KernelIdeal.Net.aggOf x1 x2 h := rfl

/-- The node features after the first layer. -/
theorem h1_eq : val_main_v39 (F := Ideal) x0 x1 x2 x4 x5 x6 x7 = Cert.KernelIdeal.Net.h1 x0 x1 x2 x4 x5 x6 x7 := by
  have e : val_main_v39 (F := Ideal) x0 x1 x2 x4 x5 x6 x7
      = ginLayer (val_main_v24 (F := Ideal) x0 x1 x2) x0 (val_main_v28 (F := Ideal) x4) (val_main_v7 (F := Ideal) x5)
          (val_main_v34 (F := Ideal) x6) (val_main_v11 (F := Ideal) x7) :=
    ginLayer_of_host dot_S100000x128_S128x128_S100000x128_1_0_0_1_n_n rfl rfl lhs_main_v29_0 lhs_main_v29_1 rhs_main_v29_0
      rhs_main_v29_1 bcast_S128_S1x128_1 bcast_S1x128_S100000x128_0_1 bcast_S_S100000x128 _ _ _ _ _ _
  rw [e]
  rfl

/-- The node features after the second layer. -/
theorem h2_eq : val_main_v75 (F := Ideal) x0 x1 x2 x4 x5 x6 x7 = Cert.KernelIdeal.Net.h2 x0 x1 x2 x4 x5 x6 x7 := by
  have e : val_main_v75 (F := Ideal) x0 x1 x2 x4 x5 x6 x7
      = ginLayer (val_main_v60 (F := Ideal) x0 x1 x2 x4 x5 x6 x7) (val_main_v39 (F := Ideal) x0 x1 x2 x4 x5 x6 x7)
          (val_main_v64 (F := Ideal) x4) (val_main_v43 (F := Ideal) x5) (val_main_v70 (F := Ideal) x6) (val_main_v47 (F := Ideal) x7) :=
    ginLayer_of_host dot_S100000x128_S128x128_S100000x128_1_0_0_1_n_n rfl rfl lhs_main_v29_0 lhs_main_v29_1 rhs_main_v29_0
      rhs_main_v29_1 bcast_S128_S1x128_1 bcast_S1x128_S100000x128_0_1 bcast_S_S100000x128 _ _ _ _ _ _
  have ea : val_main_v60 (F := Ideal) x0 x1 x2 x4 x5 x6 x7
      = Cert.KernelIdeal.Net.aggOf x1 x2 (val_main_v39 (F := Ideal) x0 x1 x2 x4 x5 x6 x7) := rfl
  rw [e, ea, h1_eq]
  rfl

/-- The node features after the third layer. -/
theorem last_eq : val_main_v111 (F := Ideal) x0 x1 x2 x4 x5 x6 x7 = Cert.KernelIdeal.Net.h3 x0 x1 x2 x4 x5 x6 x7 := by
  have e : val_main_v111 (F := Ideal) x0 x1 x2 x4 x5 x6 x7
      = ginLayer (val_main_v96 (F := Ideal) x0 x1 x2 x4 x5 x6 x7) (val_main_v75 (F := Ideal) x0 x1 x2 x4 x5 x6 x7)
          (val_main_v100 (F := Ideal) x4) (val_main_v79 (F := Ideal) x5) (val_main_v106 (F := Ideal) x6) (val_main_v83 (F := Ideal) x7) :=
    ginLayer_of_host dot_S100000x128_S128x128_S100000x128_1_0_0_1_n_n rfl rfl lhs_main_v29_0 lhs_main_v29_1 rhs_main_v29_0
      rhs_main_v29_1 bcast_S128_S1x128_1 bcast_S1x128_S100000x128_0_1 bcast_S_S100000x128 _ _ _ _ _ _
  have ea : val_main_v96 (F := Ideal) x0 x1 x2 x4 x5 x6 x7
      = Cert.KernelIdeal.Net.aggOf x1 x2 (val_main_v75 (F := Ideal) x0 x1 x2 x4 x5 x6 x7) := rfl
  rw [e, ea, h2_eq]
  rfl

end Layers

/-! ## The log-softmax in the host's spelling -/

section Lsm

variable {R N : ℕ}
    (hred' : (⟨2, ![R, N]⟩ : Shape).ReducesTo [1] (⟨1, ![R]⟩ : Shape))
    (hred : (⟨2, ![R, N]⟩ : Shape).Reduces [1] (⟨1, ![R]⟩ : Shape))
    (hu : 0 < (⟨0, ![]⟩ : Shape).numel)
    (hs : (⟨0, ![]⟩ : Shape).BroadcastsInDim ⟨1, ![R]⟩ (![] : Fin 0 → Fin 1))
    (hc1 : (⟨1, ![R]⟩ : Shape).BroadcastsInDim ⟨2, ![R, 1]⟩ (![0] : Fin 1 → Fin 2))
    (hcN : (⟨2, ![R, 1]⟩ : Shape).BroadcastsInDim ⟨2, ![R, N]⟩ (![0, 1] : Fin 2 → Fin 2))

/-- Row p with column k put back is (p, k). -/
theorem lift_row (p : Fin R) (k : Fin ((⟨2, ![R, N]⟩ : Shape).size 1)) :
    hred.lift (ix1 p) k = ix2 p (⟨k.val, k.isLt⟩ : Fin N) := by
  funext c; apply Fin.ext
  fin_cases c <;> rfl

include hred in
/-- The host's maximum over the columns from minus infinity, at row p, is the row's maximum. -/
theorem hostRowMax (z : FVec Ideal ⟨2, ![R, N]⟩ .f32) (p : Fin R) :
    Host.reduce FloatOps.maximumf z (constant (F := Ideal) (⟨0, ![]⟩ : Shape) .f32 0xFF800000#32) hred' hu (ix1 p)
      = rowMax (fun q => z (ix2 p q)) := by
  rw [Host.reduce_eq_fold_single FloatOps.maximumf z _ hred' hred hu]
  have hf : (z ∘ hred.lift (ix1 p)) = fun k : Fin N => z (ix2 p k) := funext fun k => congrArg z (lift_row hred p k)
  exact congrArg (fun f => Finset.fold max (Ideal.ofBits .f32 0xFF800000#32) f (Finset.univ : Finset (Fin N))) hf

include hred in
/-- The host's sum over the columns from zero, at row p, is the row's sum. -/
theorem hostRowSum (y : FVec Ideal ⟨2, ![R, N]⟩ .f32) (p : Fin R) :
    Host.reduceAdd y (constant (F := Ideal) (⟨0, ![]⟩ : Shape) .f32 0x00000000#32) hred' hu (ix1 p)
      = ∑ q : Fin N, y (ix2 p q) := by
  show Ideal.hostReduceAdd hred' y (Ideal.ofBits .f32 0x00000000#32) (ix1 p) = _
  rw [Ideal.hostReduceAdd_single hred' hred, Ideal.ofBits_zero_f32, zero_add]
  exact Finset.sum_congr rfl fun k _ => congrArg y (lift_row hred p k)

include hred in
/-- The host's log-softmax: from each entry the row's maximum (with a maximum against minus infinity on top), then the
    logarithm of the row's sum of exponentials of the differences; at (p, q) it is the log-softmax of row p at q. -/
theorem lsm_of_host (z : FVec Ideal ⟨2, ![R, N]⟩ .f32) (p : Fin R) (q : Fin N) :
    subf (subf z (broadcastInDim ⟨2, ![R, N]⟩ ![0, 1] hcN (broadcastInDim ⟨2, ![R, 1]⟩ ![0] hc1
          (maximumf (broadcastInDim ⟨1, ![R]⟩ ![] hs (constant (F := Ideal) ⟨0, ![]⟩ .f32 0xFF800000#32))
            (Host.reduce FloatOps.maximumf z (constant (F := Ideal) ⟨0, ![]⟩ .f32 0xFF800000#32) hred' hu)))))
      (broadcastInDim ⟨2, ![R, N]⟩ ![0, 1] hcN (Host.log (broadcastInDim ⟨2, ![R, 1]⟩ ![0] hc1
        (Host.reduceAdd (Host.exp (subf z (broadcastInDim ⟨2, ![R, N]⟩ ![0, 1] hcN (broadcastInDim ⟨2, ![R, 1]⟩ ![0] hc1
            (maximumf (broadcastInDim ⟨1, ![R]⟩ ![] hs (constant (F := Ideal) ⟨0, ![]⟩ .f32 0xFF800000#32))
              (Host.reduce FloatOps.maximumf z (constant (F := Ideal) ⟨0, ![]⟩ .f32 0xFF800000#32) hred' hu))))))
          (constant (F := Ideal) ⟨0, ![]⟩ .f32 0x00000000#32) hred' hu)))) (ix2 p q)
      = lsmAt (fun q' => z (ix2 p q')) q := by
  have hM : ∀ c : Fin N, broadcastInDim ⟨2, ![R, N]⟩ ![0, 1] hcN (broadcastInDim ⟨2, ![R, 1]⟩ ![0] hc1
          (maximumf (broadcastInDim ⟨1, ![R]⟩ ![] hs (constant (F := Ideal) ⟨0, ![]⟩ .f32 0xFF800000#32))
            (Host.reduce FloatOps.maximumf z (constant (F := Ideal) ⟨0, ![]⟩ .f32 0xFF800000#32) hred' hu))) (ix2 p c)
      = rowMax (fun q' => z (ix2 p q')) := fun c => by
    rw [Cert.HostSpell.col_host _ hc1 hcN p c]
    show max (broadcastInDim ⟨1, ![R]⟩ ![] hs (constant (F := Ideal) ⟨0, ![]⟩ .f32 0xFF800000#32) (ix1 p))
      (Host.reduce FloatOps.maximumf z (constant (F := Ideal) ⟨0, ![]⟩ .f32 0xFF800000#32) hred' hu (ix1 p)) = _
    rw [Cert.HostSpell.splat_host, hostRowMax hred' hred hu z p]
    exact max_start_rowMax _
  generalize broadcastInDim ⟨2, ![R, N]⟩ ![0, 1] hcN (broadcastInDim ⟨2, ![R, 1]⟩ ![0] hc1
          (maximumf (broadcastInDim ⟨1, ![R]⟩ ![] hs (constant (F := Ideal) ⟨0, ![]⟩ .f32 0xFF800000#32))
            (Host.reduce FloatOps.maximumf z (constant (F := Ideal) ⟨0, ![]⟩ .f32 0xFF800000#32) hred' hu))) = B at hM ⊢
  have hS : Host.reduceAdd (Host.exp (subf z B)) (constant (F := Ideal) ⟨0, ![]⟩ .f32 0x00000000#32) hred' hu (ix1 p)
      = ∑ q' : Fin N, Ideal.exp (z (ix2 p q') - rowMax fun q' => z (ix2 p q')) := by
    rw [hostRowSum hred' hred hu _ p]
    refine Finset.sum_congr rfl fun k _ => ?_
    show Ideal.exp (z (ix2 p k) - B (ix2 p k)) = _
    rw [hM k]
  generalize Host.reduceAdd (Host.exp (subf z B)) (constant (F := Ideal) ⟨0, ![]⟩ .f32 0x00000000#32) hred' hu = S at hS ⊢
  show (z (ix2 p q) - B (ix2 p q))
      - broadcastInDim ⟨2, ![R, N]⟩ ![0, 1] hcN (broadcastInDim ⟨2, ![R, 1]⟩ ![0] hc1 (Host.log S)) (ix2 p q) = _
  rw [Cert.HostSpell.col_host _ hc1 hcN p q, hM q]
  show _ - Ideal.log (S (ix1 p)) = _
  rw [hS]
  rfl

end Lsm

/-! ## The pool, the classifier and the log-softmax of the reference -/

section Classifier

open Cert.ReferenceIdeal Cert.ReferenceIdeal.Gen

variable (x0 : CF S100000x128) (x1 : CI S2x1600000) (x2 : CF S1600000) (x3 : CI S100000) (x4 : CF S3x128x128)
  (x5 : CF S3x128) (x6 : CF S3x128x128) (x7 : CF S3x128) (x8 : CF S128x128) (x9 : CF S128) (x10 : CF S10x128) (x11 : CF S10)

/-- The mean pool of the last node features. -/
theorem pooled_eq : val_main_v123 (F := Ideal) x0 x1 x2 x3 x4 x5 x6 x7
    = Cert.KernelIdeal.Net.pooledOf x3 (Cert.KernelIdeal.Net.h3 x0 x1 x2 x4 x5 x6 x7) := by
  have e : val_main_v123 (F := Ideal) x0 x1 x2 x3 x4 x5 x6 x7
      = Cert.KernelIdeal.Net.pooledOf x3 (val_main_v111 (F := Ideal) x0 x1 x2 x4 x5 x6 x7) := rfl
  rw [e, last_eq]

/-- The classifier's logits: a rectified affine layer, then an affine layer. -/
theorem logits_eq : val_main_v134 (F := Ideal) x0 x1 x2 x3 x4 x5 x6 x7 x8 x9 x10 x11
    = logits (Cert.KernelIdeal.Net.pooledOf x3 (Cert.KernelIdeal.Net.h3 x0 x1 x2 x4 x5 x6 x7)) (Cert.KernelIdeal.Net.lw1 x8) x9
        (Cert.KernelIdeal.Net.lw2 x10) x11 := by
  have e1 : val_main_v129 (F := Ideal) x0 x1 x2 x3 x4 x5 x6 x7 x8 x9
      = stage1 (val_main_v123 (F := Ideal) x0 x1 x2 x3 x4 x5 x6 x7) (val_main_v124 (F := Ideal) x8) x9 :=
    Cert.HostSpell.stage1_of_host dot_S512x128_S128x128_S512x128_1_0_0_1_n_n rfl rfl lhs_main_v125_0 lhs_main_v125_1
      rhs_main_v125_0 rhs_main_v125_1 bcast_S128_S1x128_1 bcast_S1x128_S512x128_0_1 bcast_S_S512x128 _ _ _
  have e2 : val_main_v134 (F := Ideal) x0 x1 x2 x3 x4 x5 x6 x7 x8 x9 x10 x11
      = affine (val_main_v129 (F := Ideal) x0 x1 x2 x3 x4 x5 x6 x7 x8 x9) (val_main_v130 (F := Ideal) x10) x11 :=
    Cert.HostSpell.affine_of_dot_any dot_S512x128_S128x10_S512x10_1_0_0_1_n_n rfl rfl lhs_main_v131_0 lhs_main_v131_1
      rhs_main_v131_0 rhs_main_v131_1 bcast_S10_S1x10_1 bcast_S1x10_S512x10_0_1 _ _ _
  rw [e2, e1, pooled_eq]
  rfl

/-- The log-probabilities: the log-softmax of each row of logits, arranged as (z - m) - log S. -/
theorem logp_eq : val_main_v135 (F := Ideal) x0 x1 x2 x3 x4 x5 x6 x7 x8 x9 x10 x11
    = Cert.KernelIdeal.Net.logpR x0 x1 x2 x3 x4 x5 x6 x7 x8 x9 x10 x11 := by
  funext i
  obtain ⟨p, q, rfl⟩ : ∃ (p : Fin 512) (q : Fin 10), i = ix2 p q := ⟨i 0, i 1, eq_ix2 i⟩
  refine Eq.trans (lsm_of_host reducesTo_S512x10_S512_d1 (by decide) h_S_ bcast_S_S512 bcast_S512_S512x1_0
    bcast_S512x1_S512x10_0_1 (val_main_v134 (F := Ideal) x0 x1 x2 x3 x4 x5 x6 x7 x8 x9 x10 x11) p q) ?_
  rw [logits_eq]
  rfl

end Classifier

end Cert.ReferenceIdeal.RefValue

end
-- ==== Proof.LibRealArrays.lean ====
/-
  GENERAL lemmas: "real entries in, real entries out" for host operations on arrays of extended reals (the exact
  operations), at any shapes and dimension records.

  * A gather only selects: every element of the result is an element of the operand.
  * An accumulating scatter: each element of the result is the operand's element plus a finite sum of update
    elements.
  * A host sum: each element of the result is the initial value plus a finite sum of operand elements.
  * A contraction (host product, or matrix product onto an accumulator): a finite sum of products (plus the
    accumulator's element).
  Finite sums and products of reals are reals.
-/
import proofs.«127708_j996432413502_1_alg».proof.Proof.LibMoments
import Idealize.ShloMosaic.PureOps.Ideal
import Idealize.ShloMosaic.PureOps.Ideal.Laws

noncomputable section

namespace Cert.LibMoments

open Idealize.ShloMosaic
open scoped BigOperators

/-- Every element of a gather is an element of the operand. -/
theorem isR_gather {s si t : Shape} (d : GatherDims s si t) (x : s.Idx → EReal) (hx : ∀ i, IsR (x i)) {w : Nat}
    (idx : IVec si w) (j : t.Idx) : IsR (Host.gather d x idx j) :=
  hx _

/-- An accumulating scatter of reals into reals gives reals: the operand's element plus a finite sum of updates. -/
theorem isR_scatterAdd {s si su : Shape} {φ : FTy} (d : ScatterDims s si su) (x : FVec Ideal s φ) (hx : ∀ i, IsR (x i))
    {w : Nat} (idx : IVec si w) (u : FVec Ideal su φ) (hu : ∀ j, IsR (u j)) (i : s.Idx) :
    IsR (Host.scatterAdd (F := Ideal) d x idx u i) := by
  show IsR (Ideal.hostScatterAdd d x idx u i)
  unfold Ideal.hostScatterAdd
  exact (hx i).add (IsR.finset_sum _ _ fun j _ => hu j)

/-- The same at any schedule key. -/
theorem isR_scatterAddAt (sched : HostSchedule) {s si su : Shape} {φ : FTy} (d : ScatterDims s si su) (x : FVec Ideal s φ)
    (hx : ∀ i, IsR (x i)) {w : Nat} (idx : IVec si w) (u : FVec Ideal su φ) (hu : ∀ j, IsR (u j)) (i : s.Idx) :
    IsR (Host.scatterAddAt (F := Ideal) sched d x idx u i) := by
  show IsR (Ideal.hostScatterAdd d x idx u i)
  unfold Ideal.hostScatterAdd
  exact (hx i).add (IsR.finset_sum _ _ fun j _ => hu j)

/-- A host sum of reals from a real initial value gives reals. -/
theorem isR_reduceAdd {s t u : Shape} {φ : FTy} {axes : List (Fin s.rank)} (x : FVec Ideal s φ) (hx : ∀ i, IsR (x i))
    (init : u.Idx → Ideal φ) (hinit : ∀ k, IsR (init k)) (h : s.ReducesTo axes t) (hu : 0 < u.numel) (j : t.Idx) :
    IsR (Host.reduceAdd (F := Ideal) x init h hu j) := by
  show IsR (Ideal.hostReduceAdd h x (init (Shape.Idx.first hu)) j)
  unfold Ideal.hostReduceAdd
  exact (hinit _).add (IsR.finset_sum _ _ fun i _ => hx i)

/-- A host product of arrays of reals is an array of reals. -/
theorem isR_dotGeneral {sl sr so : Shape} {φ₁ φ₂ : FTy} (d : DotDims sl sr so) (prec : Option ContractPrecision)
    (sched : HostSchedule) (lhs : FVec Ideal sl φ₁) (hl : ∀ i, IsR (lhs i)) (rhs : FVec Ideal sr φ₂) (hr : ∀ i, IsR (rhs i))
    (j : so.Idx) : IsR (FloatOps.dotGeneral d prec sched lhs rhs j) := by
  rw [Ideal.dotGeneral_apply]
  exact IsR.sum _ fun k => (hl _).mul (hr _)

/-- A matrix product of arrays of reals onto an accumulator of reals is an array of reals. -/
theorem isR_matmul {sl sr so : Shape} {φ₁ φ₂ : FTy} (d : DotDims sl sr so) (prec : Option ContractPrecision)
    (lhs : FVec Ideal sl φ₁) (hl : ∀ i, IsR (lhs i)) (rhs : FVec Ideal sr φ₂) (hr : ∀ i, IsR (rhs i))
    (acc : FVec Ideal so .f32) (hacc : ∀ j, IsR (acc j)) (j : so.Idx) : IsR (FloatOps.matmul d prec lhs rhs acc j) := by
  rw [Ideal.matmul_apply]
  exact (hacc j).add (IsR.sum _ fun k => (hl _).mul (hr _))

end Cert.LibMoments

end
-- ==== Proof.LibSmallWords.lean ====
/-
  GENERAL lemmas, no program mentioned.

  * coe_sum: a finite sum of reals taken in the extended reals is the real sum (coerced).
  * slt_ofNat / sle_ofNat: the signed comparisons "<" and "≤" of two naturals below 2^31, written as 32-bit words, are the
    comparisons of the naturals (no wrap-around: both words are non-negative as signed integers).
-/
import Mathlib.Data.EReal.Basic
import Mathlib.Data.EReal.Operations
import Mathlib.Algebra.BigOperators.Group.Finset.Basic

namespace Cert.LibSmallWords

open scoped BigOperators

/-- A finite sum of reals, taken in the extended reals, is the real sum. -/
theorem coe_sum {ι : Type*} (s : Finset ι) (g : ι → ℝ) : (∑ k ∈ s, ((g k : ℝ) : EReal)) = ((∑ k ∈ s, g k : ℝ) : EReal) := by
  classical
  induction s using Finset.induction_on with
  | empty => simp
  | insert a s ha ih => rw [Finset.sum_insert ha, Finset.sum_insert ha, ih, EReal.coe_add]

/-- Signed "less than" of two small naturals, as 32-bit words. -/
theorem slt_ofNat (a b : ℕ) (ha : a < 2147483648) (hb : b < 2147483648) :
    (BitVec.ofNat 32 a).slt (BitVec.ofNat 32 b) = decide (a < b) := by
  have ea : (BitVec.ofNat 32 a).toInt = (a : Int) := by
    rw [BitVec.toInt_eq_toNat_of_lt (by rw [BitVec.toNat_ofNat]; omega), BitVec.toNat_ofNat]; omega
  have eb : (BitVec.ofNat 32 b).toInt = (b : Int) := by
    rw [BitVec.toInt_eq_toNat_of_lt (by rw [BitVec.toNat_ofNat]; omega), BitVec.toNat_ofNat]; omega
  rw [BitVec.slt, ea, eb]
  simp

/-- Signed "at most" of two small naturals, as 32-bit words. -/
theorem sle_ofNat (a b : ℕ) (ha : a < 2147483648) (hb : b < 2147483648) :
    (BitVec.ofNat 32 a).sle (BitVec.ofNat 32 b) = decide (a ≤ b) := by
  have ea : (BitVec.ofNat 32 a).toInt = (a : Int) := by
    rw [BitVec.toInt_eq_toNat_of_lt (by rw [BitVec.toNat_ofNat]; omega), BitVec.toNat_ofNat]; omega
  have eb : (BitVec.ofNat 32 b).toInt = (b : Int) := by
    rw [BitVec.toInt_eq_toNat_of_lt (by rw [BitVec.toNat_ofNat]; omega), BitVec.toNat_ofNat]; omega
  rw [BitVec.sle, ea, eb]
  simp

end Cert.LibSmallWords
-- ==== Proof.LibSoftmaxLaws.lean ====
/-
  GENERAL LEMMAS, no program mentioned: the arithmetic of a softmax-weighted average, on the reals and then on the extended reals with the exact operations.

  For scores g v and values c v the weighted average is  (∑ v, exp (g v) * c v) / (∑ v, exp (g v)).  Two ways of
  computing it are compared with this one form:

  * subtracting ANY real number μ from every score first changes neither numerator-over-denominator (the common factor
    exp (-μ) cancels), so the number subtracted — in practice a maximum of the scores — never has to be identified;
  * normalising each weight by the denominator first and summing afterwards is the quotient of the sums;
  * the scores may be visited block by block: when the subtracted number changes from μ' to μ, the sums gathered so far
    are multiplied by exp (μ' - μ), because exp (μ' - μ) * exp (g v - μ') = exp (g v - μ).

  The extended-real forms only say that these real computations, carried out with the exact operations on coerced
  reals, stay coerced reals; the one corner used is exp ⊥ = 0 for the very first block, whose predecessor is "-∞".
-/
import Idealize.ShloMosaic.PureOps.Ideal
import Mathlib.Analysis.SpecialFunctions.Exp
import proofs.«127708_j996432413502_1_alg».proof.Proof.LibSmallWords

noncomputable section

namespace Cert.SoftmaxLaws

open Idealize.ShloMosaic
open scoped BigOperators

/-! ## Real laws -/

/-- Changing the subtracted number from μ' to μ multiplies every gathered term by exp (μ' - μ). -/
theorem rescale {ι : Type*} (S : Finset ι) (g c : ι → ℝ) (μ' μ : ℝ) :
    Real.exp (μ' - μ) * ∑ v ∈ S, Real.exp (g v - μ') * c v = ∑ v ∈ S, Real.exp (g v - μ) * c v := by
  rw [Finset.mul_sum]
  refine Finset.sum_congr rfl fun v _ => ?_
  rw [← mul_assoc, ← Real.exp_add]
  congr 2
  ring

/-- One more block of w scores after the first n: the rescaled sum so far plus the block's terms is the sum over the
    first n + w. -/
theorem block_step (g c : ℕ → ℝ) (μ' μ : ℝ) (n w : ℕ) :
    Real.exp (μ' - μ) * (∑ v ∈ Finset.range n, Real.exp (g v - μ') * c v) + ∑ j : Fin w, Real.exp (g (n + j.val) - μ) * c (n + j.val)
      = ∑ v ∈ Finset.range (n + w), Real.exp (g v - μ) * c v := by
  rw [rescale, Finset.sum_range_add]
  congr 1
  rw [Finset.sum_range]

/-- The first block: nothing gathered before it. -/
theorem block_first (g c : ℕ → ℝ) (μ : ℝ) (w : ℕ) :
    ∑ j : Fin w, Real.exp (g (0 + j.val) - μ) * c (0 + j.val) = ∑ v ∈ Finset.range (0 + w), Real.exp (g v - μ) * c v := by
  rw [Finset.sum_range_add, Finset.sum_range_zero, zero_add, Finset.sum_range]

/-- The same two laws for the denominators (every value 1). -/
theorem block_step_den (g : ℕ → ℝ) (μ' μ : ℝ) (n w : ℕ) :
    Real.exp (μ' - μ) * (∑ v ∈ Finset.range n, Real.exp (g v - μ')) + ∑ j : Fin w, Real.exp (g (n + j.val) - μ)
      = ∑ v ∈ Finset.range (n + w), Real.exp (g v - μ) := by
  have h := block_step g (fun _ => 1) μ' μ n w
  simpa only [mul_one] using h

theorem block_first_den (g : ℕ → ℝ) (μ : ℝ) (w : ℕ) :
    ∑ j : Fin w, Real.exp (g (0 + j.val) - μ) = ∑ v ∈ Finset.range (0 + w), Real.exp (g v - μ) := by
  have h := block_first g (fun _ => 1) μ w
  simpa only [mul_one] using h

/-- Subtracting a real number from every score does not change the weighted average. -/
theorem ratio_shift {ι : Type*} (S : Finset ι) (g c : ι → ℝ) (μ : ℝ) :
    (∑ v ∈ S, Real.exp (g v - μ) * c v) / (∑ v ∈ S, Real.exp (g v - μ))
      = (∑ v ∈ S, Real.exp (g v) * c v) / (∑ v ∈ S, Real.exp (g v)) := by
  have h1 : ∀ d : ι → ℝ, ∑ v ∈ S, Real.exp (g v - μ) * d v = Real.exp (-μ) * ∑ v ∈ S, Real.exp (g v) * d v := by
    intro d
    rw [Finset.mul_sum]
    refine Finset.sum_congr rfl fun v _ => ?_
    rw [sub_eq_add_neg, Real.exp_add]
    ring
  have h2 : ∑ v ∈ S, Real.exp (g v - μ) = Real.exp (-μ) * ∑ v ∈ S, Real.exp (g v) := by
    have := h1 (fun _ => 1)
    simpa using this
  rw [h1 c, h2, mul_div_mul_left _ _ (Real.exp_ne_zero _)]

/-- Normalising each weight first and summing afterwards is the quotient of the sums. -/
theorem normalized_sum {ι : Type*} (S : Finset ι) (e c : ι → ℝ) (L : ℝ) :
    ∑ v ∈ S, (e v / L) * c v = (∑ v ∈ S, e v * c v) / L := by
  rw [Finset.sum_div]
  exact Finset.sum_congr rfl fun v _ => by ring

/-- A sum of exponentials over a non-empty index set is positive. -/
theorem sum_exp_pos {ι : Type*} (S : Finset ι) (hS : S.Nonempty) (g : ι → ℝ) : 0 < ∑ v ∈ S, Real.exp (g v) :=
  Finset.sum_pos (fun v _ => Real.exp_pos _) hS

/-! ## A function on the first n naturals continued by zero -/

/-- A function on `Fin n` as a function on all naturals (zero from n on). -/
def ext {n : ℕ} (G : Fin n → ℝ) (v : ℕ) : ℝ := if h : v < n then G ⟨v, h⟩ else 0

theorem ext_lt {n : ℕ} (G : Fin n → ℝ) (v : ℕ) (h : v < n) : ext G v = G ⟨v, h⟩ := dif_pos h

theorem sum_range_ext {n : ℕ} (G : Fin n → ℝ) (f : ℝ → ℝ) :
    ∑ v ∈ Finset.range n, f (ext G v) = ∑ v : Fin n, f (G v) := by
  rw [Finset.sum_range]
  exact Finset.sum_congr rfl fun v _ => by rw [ext_lt G v.val v.isLt]

theorem sum_range_ext₂ {n : ℕ} (G C : Fin n → ℝ) (f : ℝ → ℝ → ℝ) :
    ∑ v ∈ Finset.range n, f (ext G v) (ext C v) = ∑ v : Fin n, f (G v) (C v) := by
  rw [Finset.sum_range]
  exact Finset.sum_congr rfl fun v _ => by rw [ext_lt G v.val v.isLt, ext_lt C v.val v.isLt]

/-! ## The same computations with the exact operations on coerced reals -/

/-- A finite sum of coerced reals is the coerced sum. -/
theorem coe_sum {ι : Type*} (s : Finset ι) (g : ι → ℝ) : (∑ k ∈ s, ((g k : ℝ) : EReal)) = ((∑ k ∈ s, g k : ℝ) : EReal) :=
  Cert.LibSmallWords.coe_sum s g

/-- The exact exponential of a difference of two reals. -/
theorem exp_sub_coe (x y : ℝ) : Ideal.exp ((x : EReal) - (y : EReal)) = ((Real.exp (x - y) : ℝ) : EReal) := by
  rw [← EReal.coe_sub, Ideal.exp_coe]

/-- "-∞" minus a real is "-∞", whose exponential is 0. -/
theorem exp_bot_sub_coe (y : ℝ) : Ideal.exp ((⊥ : EReal) - (y : EReal)) = 0 := by
  rw [EReal.bot_sub, Ideal.exp_bot]

/-- A maximum of finitely many coerced reals, started from "-∞", over a non-empty index set is a coerced real. -/
theorem fold_max_real {ι : Type*} [DecidableEq ι] (S : Finset ι) (g : ι → ℝ) :
    (S = ∅ ∧ S.fold max (⊥ : EReal) (fun k => ((g k : ℝ) : EReal)) = ⊥)
      ∨ ∃ μ : ℝ, S.fold max (⊥ : EReal) (fun k => ((g k : ℝ) : EReal)) = (μ : EReal) := by
  induction S using Finset.induction_on with
  | empty => exact Or.inl ⟨rfl, rfl⟩
  | insert a s ha ih =>
    right
    rw [Finset.fold_insert ha]
    rcases ih with ⟨_, h⟩ | ⟨μ, h⟩
    · exact ⟨g a, by rw [h, max_eq_left bot_le]⟩
    · exact ⟨max (g a) μ, by rw [h]; exact (EReal.coe_strictMono.monotone.map_max).symm⟩

theorem fold_max_univ_real {n : ℕ} (g : Fin (n + 1) → ℝ) :
    ∃ μ : ℝ, (Finset.univ : Finset (Fin (n + 1))).fold max (⊥ : EReal) (fun k => ((g k : ℝ) : EReal)) = (μ : EReal) := by
  rcases fold_max_real Finset.univ g with ⟨h, _⟩ | h
  · exact absurd h (Finset.univ_nonempty.ne_empty)
  · exact h

/-- The running denominator: rescaled old value plus the block's lane sum. -/
theorem denom_step {w : ℕ} (μ' μ lam : ℝ) (σ : Fin w → ℝ) :
    Ideal.exp ((μ' : EReal) - (μ : EReal)) * (lam : EReal) + ∑ j : Fin w, Ideal.exp ((σ j : EReal) - (μ : EReal))
      = ((Real.exp (μ' - μ) * lam + ∑ j : Fin w, Real.exp (σ j - μ) : ℝ) : EReal) := by
  simp only [exp_sub_coe, coe_sum, ← EReal.coe_mul, ← EReal.coe_add]

/-- The running numerator: rescaled old value plus the block's contraction with the values. -/
theorem numer_step {w : ℕ} (μ' μ al : ℝ) (σ π : Fin w → ℝ) :
    Ideal.exp ((μ' : EReal) - (μ : EReal)) * (al : EReal) + ∑ j : Fin w, Ideal.exp ((σ j : EReal) - (μ : EReal)) * (π j : EReal)
      = ((Real.exp (μ' - μ) * al + ∑ j : Fin w, Real.exp (σ j - μ) * π j : ℝ) : EReal) := by
  simp only [exp_sub_coe, coe_sum, ← EReal.coe_mul, ← EReal.coe_add]

/-- The first block's denominator: the old maximum is "-∞" and the old sum 0. -/
theorem denom_first {w : ℕ} (μ : ℝ) (σ : Fin w → ℝ) :
    Ideal.exp ((⊥ : EReal) - (μ : EReal)) * (0 : EReal) + ∑ j : Fin w, Ideal.exp ((σ j : EReal) - (μ : EReal))
      = ((∑ j : Fin w, Real.exp (σ j - μ) : ℝ) : EReal) := by
  simp only [exp_bot_sub_coe, exp_sub_coe, coe_sum, zero_add, mul_zero]

/-- The first block's numerator. -/
theorem numer_first {w : ℕ} (μ : ℝ) (σ π : Fin w → ℝ) :
    Ideal.exp ((⊥ : EReal) - (μ : EReal)) * (0 : EReal) + ∑ j : Fin w, Ideal.exp ((σ j : EReal) - (μ : EReal)) * (π j : EReal)
      = ((∑ j : Fin w, Real.exp (σ j - μ) * π j : ℝ) : EReal) := by
  simp only [exp_bot_sub_coe, exp_sub_coe, coe_sum, zero_add, mul_zero, ← EReal.coe_mul]

/-- The exact quotient of two coerced reals with a non-zero divisor. -/
theorem div_coe_coe (a b : ℝ) (hb : b ≠ 0) : Ideal.div (a : EReal) (b : EReal) = ((a / b : ℝ) : EReal) := by
  rw [Ideal.div_coe hb, ← EReal.coe_mul]
  congr 1
  ring

end Cert.SoftmaxLaws

end
-- ==== Proof.RealNet.lean ====
/-
  The two arrangements of the classifier's log-softmax, z q - (m + log S) and (z q - m) - log S, agree on real inputs.

  On the extended reals subtraction is not associative at the infinities, so the two arrangements are compared only
  where the row's maximum m and log S are real numbers. That holds when every logit of the row is real: m is then a
  maximum of finitely many reals, S is a finite sum of real exponentials over a non-empty index set, hence a positive
  real, and the logarithm of a positive real is real. For reals a, m, L the identity a - (m + L) = (a - m) - L is the
  identity of real numbers.

  The logits are real because every operation between the inputs and the logits sends arrays of reals to arrays of
  reals: selections of entries (slices, reshapes, transposes, broadcasts, gathers), finite sums of products, maxima
  with zero, accumulating scatters from zero, and the quotient by the larger of a real count and one, which is at
  least one and so not zero.
-/
import proofs.«127708_j996432413502_1_alg».proof.Proof.Net
import proofs.«127708_j996432413502_1_alg».proof.Proof.Gen.KernelIdeal
import proofs.«127708_j996432413502_1_alg».proof.Proof.LibMoments
import proofs.«127708_j996432413502_1_alg».proof.Proof.LibRealArrays
import proofs.«127708_j996432413502_1_alg».proof.Proof.LibSoftmaxLaws

noncomputable section

namespace Cert.KernelIdeal.RealNet

open Idealize.ShloMosaic Idealize.ShloMosaic.ValueIdx Cert.LibMoments Cert.LibDenseLayers Cert.Sage Cert.GinSpec
open Cert.KernelIdeal Cert.KernelIdeal.Facts₀ Cert.KernelIdeal.Facts
open scoped BigOperators

/-! ## The two arrangements of a log-softmax on a row of reals -/

/-- The f32 pattern 0xFF800000 denotes -∞. -/
theorem neg_inf_pattern : Ideal.ofBits .f32 0xFF800000#32 = (⊥ : EReal) := by
  simp [Ideal.ofBits, Ideal.ieee]

/-- The f32 pattern 0x3F800000 denotes 1. -/
theorem one_pattern : Ideal.ofBits .f32 0x3F800000#32 = (1 : EReal) := by
  simp [Ideal.ofBits, Ideal.ieee, -EReal.coe_mul]; norm_num

/-- The f32 pattern 0 is a real number. -/
theorem isR_zero_word : IsR (Ideal.ofBits .f32 0x00000000#32) := by
  rw [Ideal.ofBits_zero_f32]; exact IsR_zero

/-- The f32 pattern of 1 is a real number. -/
theorem isR_one_word : IsR (Ideal.ofBits .f32 0x3F800000#32) := by
  rw [one_pattern]; exact IsR_one

/-- On a non-empty row of reals, z q - (m + log S) = (z q - m) - log S. -/
theorem lsm_agree {C : ℕ} (hC : 0 < C) (z : Fin C → EReal) (hz : ∀ q, IsR (z q)) (q : Fin C) : lsmK z q = lsmAt z q := by
  obtain ⟨n, rfl⟩ : ∃ n, C = n + 1 := ⟨C - 1, by omega⟩
  choose g hg using hz
  have hzg : z = fun k => ((g k : ℝ) : EReal) := funext hg
  obtain ⟨μ, hμ⟩ := Cert.SoftmaxLaws.fold_max_univ_real g
  have hm : rowMax z = (μ : EReal) := by
    unfold rowMax; rw [neg_inf_pattern, hzg]; exact hμ
  have hS : (∑ q' : Fin (n + 1), Ideal.exp (z q' - rowMax z)) = ((∑ q' : Fin (n + 1), Real.exp (g q' - μ) : ℝ) : EReal) := by
    rw [hm]
    refine Eq.trans (Finset.sum_congr rfl fun k _ => ?_) (Cert.SoftmaxLaws.coe_sum Finset.univ (fun k => Real.exp (g k - μ)))
    rw [hg k, Cert.SoftmaxLaws.exp_sub_coe]
  have hpos : 0 < ∑ q' : Fin (n + 1), Real.exp (g q' - μ) :=
    Cert.SoftmaxLaws.sum_exp_pos Finset.univ Finset.univ_nonempty _
  unfold lsmK lsmAt
  rw [hS, hm, hg q, Ideal.log_coe, if_neg (not_le.2 hpos)]
  rw [← EReal.coe_add, ← EReal.coe_sub, ← EReal.coe_sub, ← EReal.coe_sub]
  congr 1; ring

/-! ## Real entries in, real entries out: the dense layers -/

theorem isR_affine {R K N : ℕ} (h : Mat R K) (W : Mat K N) (b : Vc N) (hh : ∀ i, IsR (h i)) (hW : ∀ i, IsR (W i))
    (hb : ∀ i, IsR (b i)) : ∀ i, IsR (affine h W b i) := fun i => by
  show IsR (affineAt h W b (i 0) (i 1))
  unfold affineAt
  exact (IsR.sum _ fun k => (hh _).mul (hW _)).add (hb _)

theorem isR_relu {s : Shape} (a : s.Idx → EReal) (ha : ∀ i, IsR (a i)) : ∀ i, IsR (relu a i) :=
  fun i => (ha i).max isR_zero_word

theorem isR_stage1 {R K N : ℕ} (h : Mat R K) (W : Mat K N) (b : Vc N) (hh : ∀ i, IsR (h i)) (hW : ∀ i, IsR (W i))
    (hb : ∀ i, IsR (b i)) : ∀ i, IsR (stage1 h W b i) :=
  isR_relu _ (isR_affine h W b hh hW hb)

theorem isR_ginLayer {R H : ℕ} (a h : Mat R H) (w1 : Mat H H) (b1 : Vc H) (w2 : Mat H H) (b2 : Vc H)
    (ha : ∀ i, IsR (a i)) (hh : ∀ i, IsR (h i)) (hw1 : ∀ i, IsR (w1 i)) (hb1 : ∀ i, IsR (b1 i))
    (hw2 : ∀ i, IsR (w2 i)) (hb2 : ∀ i, IsR (b2 i)) : ∀ i, IsR (ginLayer a h w1 b1 w2 b2 i) :=
  isR_stage1 _ w2 b2 (isR_stage1 _ w1 b1 (fun i => (ha i).add (hh i)) hw1 hb1) hw2 hb2

theorem isR_logits {G H C : ℕ} (p : Mat G H) (w1 : Mat H H) (b1 : Vc H) (w2 : Mat H C) (b2 : Vc C)
    (hp : ∀ i, IsR (p i)) (hw1 : ∀ i, IsR (w1 i)) (hb1 : ∀ i, IsR (b1 i)) (hw2 : ∀ i, IsR (w2 i)) (hb2 : ∀ i, IsR (b2 i)) :
    ∀ i, IsR (logits p w1 b1 w2 b2 i) :=
  isR_affine _ w2 b2 (isR_stage1 p w1 b1 hp hw1 hb1) hw2 hb2

/-- The classifier's two arrangements agree when every logit is real (and there is at least one class). -/
theorem cls_agree {G H C : ℕ} (hC : 0 < C) (p : Mat G H) (w1 : Mat H H) (b1 : Vc H) (w2 : Mat H C) (b2 : Vc C)
    (hl : ∀ i, IsR (logits p w1 b1 w2 b2 i)) : clsK p w1 b1 w2 b2 = clsR p w1 b1 w2 b2 :=
  funext fun i => lsm_agree hC _ (fun q => hl _) (i 1)

/-! ## Real entries in, real entries out: selections of entries -/

/-- Every entry of a broadcast along named axes is an entry of the operand. -/
theorem forall_broadcastInDim {s t : Shape} {α : Type} (P : α → Prop) (dims : Fin s.rank → Fin t.rank)
    (h : s.BroadcastsInDim t dims) (x : s.Idx → α) (hx : ∀ i, P (x i)) (j : t.Idx) : P (broadcastInDim t dims h x j) :=
  hx _

theorem isR_broadcastInDim {s t : Shape} (dims : Fin s.rank → Fin t.rank) (h : s.BroadcastsInDim t dims)
    (x : s.Idx → EReal) (hx : ∀ i, IsR (x i)) (j : t.Idx) : IsR (broadcastInDim t dims h x j) :=
  hx _

/-- Every entry of a reshaped array is an entry of the operand. -/
theorem isR_shapeCast {s t : Shape} (x : s.Idx → EReal) (hx : ∀ i, IsR (x i)) (h : s.ShapeCasts t) (j : t.Idx) :
    IsR (shapeCast t x h j) :=
  hx _

/-- Every entry of a slice is an entry of the operand. -/
theorem isR_slice {s t : Shape} (off : Fin s.rank → Nat) (x : s.Idx → EReal) (hx : ∀ i, IsR (x i)) (h : s.Slices off t)
    (j : t.Idx) : IsR (extractStridedSlice t off x h j) :=
  hx _

/-- Every entry of a transposed array is an entry of the operand. -/
theorem isR_transpose {s t : Shape} (perm : List (Fin s.rank)) (x : s.Idx → EReal) (hx : ∀ i, IsR (x i))
    (h : s.Transposes perm t) (j : t.Idx) : IsR (transpose t perm x h j) :=
  hx _

/-- The host's quotient of an array of reals by an array of nonzero reals is an array of reals. -/
theorem isR_hostDivf {s : Shape} (a b : FVec Ideal s .f32) (ha : ∀ i, IsR (a i)) (hb : ∀ i, IsR (b i))
    (hb0 : ∀ i, b i ≠ 0) : ∀ i, IsR (Host.divf a b i) :=
  fun i => (ha i).div_real _ (hb i) (hb0 i)

/-- The larger of a real and one is a real that is not zero. -/
theorem max_one_ok (c : EReal) (hc : IsR c) :
    IsR (max c (Ideal.ofBits .f32 0x3F800000#32)) ∧ max c (Ideal.ofBits .f32 0x3F800000#32) ≠ 0 := by
  rw [one_pattern]
  have h01 : (0 : EReal) < 1 := by exact_mod_cast (zero_lt_one : (0 : ℝ) < 1)
  exact ⟨hc.max IsR_one, (lt_of_lt_of_le h01 (le_max_right _ _)).ne'⟩

/-! ## The network's host pieces -/

section Pieces
variable [Cert.KernelIdeal.Facts]

theorem isR_wT0 (w : Net.CF S3x128x128) (hw : ∀ i, IsR (w i)) : ∀ i, IsR (Net.wT0 w i) := fun i => hw _
theorem isR_wT1 (w : Net.CF S3x128x128) (hw : ∀ i, IsR (w i)) : ∀ i, IsR (Net.wT1 w i) := fun i => hw _
theorem isR_wT2 (w : Net.CF S3x128x128) (hw : ∀ i, IsR (w i)) : ∀ i, IsR (Net.wT2 w i) := fun i => hw _
theorem isR_bv0 (b : Net.CF S3x128) (hb : ∀ i, IsR (b i)) : ∀ i, IsR (Net.bv0 b i) := fun i => hb _
theorem isR_bv1 (b : Net.CF S3x128) (hb : ∀ i, IsR (b i)) : ∀ i, IsR (Net.bv1 b i) := fun i => hb _
theorem isR_bv2 (b : Net.CF S3x128) (hb : ∀ i, IsR (b i)) : ∀ i, IsR (Net.bv2 b i) := fun i => hb _
theorem isR_lw1 (a : Net.CF S128x128) (ha : ∀ i, IsR (a i)) : ∀ i, IsR (Net.lw1 a i) := fun i => ha _
theorem isR_lw2 (a : Net.CF S10x128) (ha : ∀ i, IsR (a i)) : ∀ i, IsR (Net.lw2 a i) := fun i => ha _

/-- The neighbour aggregation of real features with real edge weights is real. -/
theorem isR_aggOf (ei : Net.CI S2x1600000) (ew : Net.CF S1600000) (hew : ∀ i, IsR (ew i)) (h : Net.CF S100000x128)
    (hh : ∀ i, IsR (h i)) : ∀ i, IsR (Net.aggOf ei ew h i) := fun i => by
  unfold Net.aggOf
  refine isR_scatterAdd _ _ (fun _ => isR_zero_word) _ _ (fun j => ?_) i
  rw [mulf_apply]
  exact IsR.mul (hh _) (hew _)

/-- The mean pool of real features is real. -/
theorem isR_pooledOf (bt : Net.CI S100000) (h : Net.CF S100000x128) (hh : ∀ i, IsR (h i)) :
    ∀ i, IsR (Net.pooledOf bt h i) := by
  unfold Net.pooledOf
  have hden : ∀ k, IsR (maximumf
        (Host.scatterAdd scatter_S512_S100000x1_S100000_n_0_0_1
          (broadcastInDim S512 ![] bcast_S_S512 (constant (F := Ideal) S_ .f32 0x00000000#32))
          (broadcastInDim S100000x1 ![0] bcast_S100000_S100000x1_0 bt)
          (broadcastInDim S100000 ![] bcast_S_S100000 (constant (F := Ideal) S_ .f32 0x3F800000#32)))
        (broadcastInDim S512 ![] bcast_S_S512 (constant (F := Ideal) S_ .f32 0x3F800000#32)) k) ∧
      maximumf
        (Host.scatterAdd scatter_S512_S100000x1_S100000_n_0_0_1
          (broadcastInDim S512 ![] bcast_S_S512 (constant (F := Ideal) S_ .f32 0x00000000#32))
          (broadcastInDim S100000x1 ![0] bcast_S100000_S100000x1_0 bt)
          (broadcastInDim S100000 ![] bcast_S_S100000 (constant (F := Ideal) S_ .f32 0x3F800000#32)))
        (broadcastInDim S512 ![] bcast_S_S512 (constant (F := Ideal) S_ .f32 0x3F800000#32)) k ≠ 0 := fun k =>
    max_one_ok _ (isR_scatterAdd _ _ (fun _ => isR_zero_word) _ _ (fun _ => isR_one_word) k)
  refine isR_hostDivf _ _ (fun j => isR_scatterAdd _ _ (fun _ => isR_zero_word) _ _ hh j) (fun j => ?_) (fun j => ?_)
  · exact (forall_broadcastInDim (fun v => IsR v ∧ v ≠ 0) _ _ _
      (forall_broadcastInDim (fun v => IsR v ∧ v ≠ 0) _ _ _ hden) j).1
  · exact (forall_broadcastInDim (fun v => IsR v ∧ v ≠ 0) _ _ _
      (forall_broadcastInDim (fun v => IsR v ∧ v ≠ 0) _ _ _ hden) j).2

end Pieces

/-! ## The layers' outputs and the two arrangements of the log-probabilities -/

section Main
variable [Cert.KernelIdeal.Facts]
variable (x : Net.CF S100000x128) (ei : Net.CI S2x1600000) (ew : Net.CF S1600000) (bt : Net.CI S100000)
  (w1 : Net.CF S3x128x128) (b1 : Net.CF S3x128) (w2 : Net.CF S3x128x128) (b2 : Net.CF S3x128)
  (a8 : Net.CF S128x128) (a9 : Net.CF S128) (a10 : Net.CF S10x128) (a11 : Net.CF S10)

theorem isR_h1 (hx : ∀ i, IsR (x i)) (hew : ∀ i, IsR (ew i)) (hw1 : ∀ i, IsR (w1 i)) (hb1 : ∀ i, IsR (b1 i))
    (hw2 : ∀ i, IsR (w2 i)) (hb2 : ∀ i, IsR (b2 i)) : ∀ i, IsR (Net.h1 x ei ew w1 b1 w2 b2 i) := by
  unfold Net.h1
  exact isR_ginLayer _ _ _ _ _ _ (isR_aggOf ei ew hew x hx) hx (isR_wT0 w1 hw1) (isR_bv0 b1 hb1) (isR_wT0 w2 hw2)
    (isR_bv0 b2 hb2)

theorem isR_h2 (hx : ∀ i, IsR (x i)) (hew : ∀ i, IsR (ew i)) (hw1 : ∀ i, IsR (w1 i)) (hb1 : ∀ i, IsR (b1 i))
    (hw2 : ∀ i, IsR (w2 i)) (hb2 : ∀ i, IsR (b2 i)) : ∀ i, IsR (Net.h2 x ei ew w1 b1 w2 b2 i) := by
  unfold Net.h2
  have hp := isR_h1 x ei ew w1 b1 w2 b2 hx hew hw1 hb1 hw2 hb2
  exact isR_ginLayer _ _ _ _ _ _ (isR_aggOf ei ew hew _ hp) hp (isR_wT1 w1 hw1) (isR_bv1 b1 hb1) (isR_wT1 w2 hw2)
    (isR_bv1 b2 hb2)

theorem isR_h3 (hx : ∀ i, IsR (x i)) (hew : ∀ i, IsR (ew i)) (hw1 : ∀ i, IsR (w1 i)) (hb1 : ∀ i, IsR (b1 i))
    (hw2 : ∀ i, IsR (w2 i)) (hb2 : ∀ i, IsR (b2 i)) : ∀ i, IsR (Net.h3 x ei ew w1 b1 w2 b2 i) := by
  unfold Net.h3
  have hp := isR_h2 x ei ew w1 b1 w2 b2 hx hew hw1 hb1 hw2 hb2
  exact isR_ginLayer _ _ _ _ _ _ (isR_aggOf ei ew hew _ hp) hp (isR_wT2 w1 hw1) (isR_bv2 b1 hb1) (isR_wT2 w2 hw2)
    (isR_bv2 b2 hb2)

/-- On real inputs the two arrangements of the log-probabilities are the same array. -/
theorem logp_agree (hx : ∀ i, IsR (x i)) (hew : ∀ i, IsR (ew i)) (hw1 : ∀ i, IsR (w1 i)) (hb1 : ∀ i, IsR (b1 i))
    (hw2 : ∀ i, IsR (w2 i)) (hb2 : ∀ i, IsR (b2 i)) (ha8 : ∀ i, IsR (a8 i)) (ha9 : ∀ i, IsR (a9 i))
    (ha10 : ∀ i, IsR (a10 i)) (ha11 : ∀ i, IsR (a11 i)) :
    Net.logpK x ei ew bt w1 b1 w2 b2 a8 a9 a10 a11 = Net.logpR x ei ew bt w1 b1 w2 b2 a8 a9 a10 a11 := by
  unfold Net.logpK Net.logpR
  exact cls_agree (by norm_num) _ _ _ _ _
    (isR_logits _ _ _ _ _ (isR_pooledOf bt _ (isR_h3 x ei ew w1 b1 w2 b2 hx hew hw1 hb1 hw2 hb2)) (isR_lw1 a8 ha8) ha9
      (isR_lw2 a10 ha10) ha11)

end Main

end Cert.KernelIdeal.RealNet
-- ==== Proof.Finite.lean ====
/-
  From the precondition to real entries. The precondition tests, for each float input array X, that |x| < +∞ at
  every entry (an elementwise comparison of max x (-x) against the f32 pattern of +∞, reduced by "and" over all axes),
  and takes the conjunction of the ten answers. On the extended reals |x| < +∞ excludes both infinities, so every
  entry of every float input is (the image of) a real number.
-/
import proofs.«127708_j996432413502_1_alg».proof.Proof.LibMoments
import proofs.«127708_j996432413502_1_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.IdealHost

noncomputable section

namespace Cert.Finite

open Idealize.ShloMosaic
open Cert.LibMoments

/-- The rank-0 shape has exactly one index. -/
instance subsingleton_scalar_idx : Subsingleton (⟨0, ![]⟩ : Shape).Idx :=
  ⟨fun a b => funext fun d => d.elim0⟩

/-- The f32 pattern 0x7F800000 denotes +∞. -/
theorem inf_pattern : Ideal.ofBits .f32 0x7F800000#32 = (⊤ : EReal) := by
  simp [Ideal.ofBits, Ideal.ieee]

/-- An extended real whose absolute value max x (-x) is strictly below +∞ is a real number. -/
theorem isR_of_abs_lt_top (x : EReal) (h : max x (-x) < ⊤) : IsR x := by
  induction x using EReal.rec with
  | bot => simp at h
  | coe r => exact ⟨r, rfl⟩
  | top => simp at h

/-- The elementwise test "|x| < +inf" answering 1 says x is a real number. -/
theorem isR_of_test (x : Ideal .f32)
    (h : FloatOps.cmpf (F := Ideal) .olt (FloatOps.hostAbsf x) (Ideal.ofBits .f32 0x7F800000#32) = 1#1) : IsR x := by
  rw [inf_pattern] at h
  apply isR_of_abs_lt_top
  by_contra hn
  have : FloatOps.cmpf (F := Ideal) (φ := .f32) .olt (FloatOps.hostAbsf x) (⊤ : EReal) = 0#1 := by
    show BitVec.ofBool (decide (max x (-x) < ⊤)) = 0#1
    simp [hn]
  rw [this] at h
  exact absurd h (by decide)

/-- Over any shape: if the and-reduction over all axes of the elementwise test |X| < +inf is 1, every entry of X is a real number. -/
theorem all_real {S T V : Shape} {axes : List (Fin S.rank)} [Subsingleton T.Idx]
    (X : FVec Ideal S .f32) (hb : (⟨0, ![]⟩ : Shape).BroadcastsInDim S (![] : Fin 0 → Fin S.rank))
    (init : V.Idx → BitVec 1) (hr : S.ReducesTo axes T) (hv : 0 < V.numel) (j : T.Idx)
    (e : Host.reduce IntOp.andi
          (cmpf .olt (Host.absf X) (broadcastInDim S ![] hb (constant (F := Ideal) ⟨0, ![]⟩ .f32 0x7F800000#32)))
          init hr hv j = 1#1) :
    ∀ i, IsR (X i) := by
  intro i
  have h1 := Host.reduce_andi_all _ init hr hv j e i
  rw [ValueIdx.cmpf_apply, ValueIdx.broadcastInDim_scalar_apply, ValueIdx.constant_apply] at h1
  exact isR_of_test (X i) h1

/-- The elementwise "and" of two one-bit arrays, read at an index. -/
theorem andi_apply {s : Shape} {w : Nat} (x y : IVec s w) (i : s.Idx) : andi x y i = IntOp.andi (x i) (y i) := rfl

open Cert.Pre_finite_inputs in
/-- The precondition holds (its one-bit result is 1): every float input array holds real numbers. -/
theorem real_of_pre [hP : Cert.Pre_finite_inputs.Facts]
    (a0 : FVec Ideal S100000x128 .f32) (a1 : IVec S2x1600000 32)
    (a2 : FVec Ideal S1600000 .f32) (a3 : IVec S100000 32)
    (a4 : FVec Ideal S3x128x128 .f32) (a5 : FVec Ideal S3x128 .f32)
    (a6 : FVec Ideal S3x128x128 .f32) (a7 : FVec Ideal S3x128 .f32)
    (a8 : FVec Ideal S128x128 .f32) (a9 : FVec Ideal S128 .f32)
    (a10 : FVec Ideal S10x128 .f32) (a11 : FVec Ideal S10 .f32)
    (h : Cert.Pre_finite_inputs.fn (F := Ideal) a0 a1 a2 a3 a4 a5 a6 a7 a8 a9 a10 a11 = (fun _ => 1#1)) :
    (∀ i, IsR (a0 i)) ∧ (∀ i, IsR (a2 i)) ∧ (∀ i, IsR (a4 i)) ∧ (∀ i, IsR (a5 i))
    ∧ (∀ i, IsR (a6 i)) ∧ (∀ i, IsR (a7 i)) ∧ (∀ i, IsR (a8 i)) ∧ (∀ i, IsR (a9 i))
    ∧ (∀ i, IsR (a10 i)) ∧ (∀ i, IsR (a11 i)) := by
  have h0 := congrFun h ValueIdx.ix0
  dsimp only [Cert.Pre_finite_inputs.fn, Cert.Pre_finite_inputs.fn_part1, Cert.Pre_finite_inputs.fn_part2] at h0
  simp only [andi_apply, IntOp.andi_eq_one] at h0
  obtain ⟨⟨⟨⟨⟨⟨⟨⟨⟨e0, e2⟩, e4⟩, e5⟩, e6⟩, e7⟩, e8⟩, e9⟩, e10⟩, e11⟩ := h0
  exact ⟨all_real a0 _ _ _ _ _ e0, all_real a2 _ _ _ _ _ e2, all_real a4 _ _ _ _ _ e4, all_real a5 _ _ _ _ _ e5,
    all_real a6 _ _ _ _ _ e6, all_real a7 _ _ _ _ _ e7, all_real a8 _ _ _ _ _ e8, all_real a9 _ _ _ _ _ e9,
    all_real a10 _ _ _ _ _ e10, all_real a11 _ _ _ _ _ e11⟩

end Cert.Finite
-- ==== Proof.lean ====
/-
  The certificate: a three-layer graph network with a mean-pooled classifier, computed by a program whose dense parts
  run as four pipelined kernels, against the same network written with whole-array operations.

  Both programs read at the exact instance compute, from the same twelve argument arrays, the node features after
  three layers and the log-probabilities of the classifier. The irregular parts — gathering source rows, weighting by
  the edge, adding into target rows, the mean pool — are the same host operations in both. The dense parts agree
  entry by entry on extended reals with no condition: a matrix product into a zero accumulator is the host's
  contraction, narrowing a float format is no change, 1 · x = x, and a layer computed on blocks of rows is the layer of
  the whole matrix because a row of the result depends only on the same row of the inputs. The classifiers differ in
  how they arrange the log-softmax: z - (m + log S) against (z - m) - log S. These agree when m and log S are real,
  which holds when every logit is real; and every logit is real because every float argument is finite and each
  operation of the network keeps real entries real (the pool divides by a count that is at least one).

  The three frame claims are the generated frame certificates (for the reference, its generated run with the results
  dropped); the idealization rewrote nothing, so the preservation claim is trivial.
-/
import proofs.«127708_j996432413502_1_alg».proof.Defs
import proofs.«127708_j996432413502_1_alg».proof.Proof.Gen.Kernel
import proofs.«127708_j996432413502_1_alg».proof.Proof.Gen.Kernel.Skeleton
import proofs.«127708_j996432413502_1_alg».proof.Proof.Gen.Kernel.Launch
import proofs.«127708_j996432413502_1_alg».proof.Proof.Gen.Kernel.Points
import proofs.«127708_j996432413502_1_alg».proof.Proof.Gen.Kernel.Frame
import proofs.«127708_j996432413502_1_alg».proof.Proof.Gen.KernelIdeal
import proofs.«127708_j996432413502_1_alg».proof.Proof.Gen.KernelIdeal.Skeleton
import proofs.«127708_j996432413502_1_alg».proof.Proof.Gen.KernelIdeal.Launch
import proofs.«127708_j996432413502_1_alg».proof.Proof.Gen.KernelIdeal.Points
import proofs.«127708_j996432413502_1_alg».proof.Proof.Gen.KernelIdeal.Frame
import proofs.«127708_j996432413502_1_alg».proof.Proof.Gen.ReferenceIdeal
import proofs.«127708_j996432413502_1_alg».proof.Proof.Gen.Pre_finite_inputs
import proofs.«127708_j996432413502_1_alg».proof.Proof.Gen.ReferenceIdeal.Run
import proofs.«127708_j996432413502_1_alg».proof.Proof.Gen.ReferenceIdeal.Read
import proofs.«127708_j996432413502_1_alg».proof.Proof.KernelRun
import proofs.«127708_j996432413502_1_alg».proof.Proof.KernelValue
import proofs.«127708_j996432413502_1_alg».proof.Proof.RefValue
import proofs.«127708_j996432413502_1_alg».proof.Proof.RealNet
import proofs.«127708_j996432413502_1_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its generated run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both idealized programs end with the last node features at the three-layer network of the arguments and the
    log-probabilities at the classifier of its mean pool; the two arrangements of the log-softmax agree because the
    arguments are finite. -/
theorem algebraic : Cert.algebraic_KernelIdeal_ReferenceIdeal := by
  intro m ρ m' ρ' hpre hagree
  refine ⟨fun c => Cert.KernelIdeal.Net.logpK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.KernelIdeal.Net.h3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.ValueK.logp_val m ρ c),
        (h c).2.1.trans (Cert.KernelIdeal.ValueK.last_val m ρ c), (h c).2.2⟩)
      (Cert.KernelIdeal.RunV.run_values (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨r0, r2, r4, r5, r6, r7, r8, r9, r10, r11⟩ := Cert.Finite.real_of_pre _ _ _ _ _ _ _ _ _ _ _ _ (hpre c)
      rw [Cert.ReferenceIdeal.Read.val_main_v135_eq, Cert.ReferenceIdeal.RefValue.logp_eq,
        (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
      exact (Cert.KernelIdeal.RealNet.logp_agree _ _ _ _ _ _ _ _ _ _ _ _ r0 r2 r4 r5 r6 r7 r8 r9 r10 r11).symm
    · rw [Cert.ReferenceIdeal.Read.val_main_v111_eq, Cert.ReferenceIdeal.RefValue.last_eq,
        (hagree c).1, (hagree c).2.1, (hagree c).2.2.1, (hagree c).2.2.2.2.1, (hagree c).2.2.2.2.2.1, (hagree c).2.2.2.2.2.2.1, (hagree c).2.2.2.2.2.2.2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
